-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x1 : Shape := ⟨2, ![32, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S64 .f32) (main_arg7 : FVec F S64x128 .f32) (main_arg8 : FVec F S128 .f32) (main_arg9 : FVec F S128x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x1 .f32) (main_arg1 : IVec S1600000 32) (main_arg2 : IVec S1600000 32) (main_arg3 : FVec F S1x32 .f32) (main_arg4 : FVec F S32 .f32) (main_arg5 : FVec F S32x64 .f32) (main_arg6 : FVec F S64 .f32) (main_arg7 : FVec F S64x128 .f32) (main_arg8 : FVec F S128 .f32) (main_arg9 : FVec F S128x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x32 .f32 := Host.absf main_arg3
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_arg11 main_arg12 main_arg13 main_arg14 main_v13 main_v16
-- ==== Kernel.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S4000x1 : Shape := ⟨2, ![4000, 1]⟩
abbrev S100000x32 : Shape := ⟨2, ![100000, 32]⟩
abbrev S4000x32 : Shape := ⟨2, ![4000, 32]⟩
abbrev S1600000x32 : Shape := ⟨2, ![1600000, 32]⟩
abbrev S1x64 : Shape := ⟨2, ![1, 64]⟩
abbrev S100000x64 : Shape := ⟨2, ![100000, 64]⟩
abbrev S4000x64 : Shape := ⟨2, ![4000, 64]⟩
abbrev S1600000x64 : Shape := ⟨2, ![1600000, 64]⟩
abbrev S1x128 : Shape := ⟨2, ![1, 128]⟩
abbrev S100000x128 : Shape := ⟨2, ![100000, 128]⟩
abbrev S4000x128 : Shape := ⟨2, ![4000, 128]⟩
abbrev S1x1 : Shape := ⟨2, ![1, 1]⟩

abbrev nBuf : Space → Nat
  | .hbm => 145
  | .vmem => 84
  | .smem => 0
  | _ => 0

abbrev hbmTy0_0 (i : Nat) : BufTy := match i % 128 with
  | 0 => ⟨S100000x1, .f32⟩
  | 1 => ⟨S1600000, .i32⟩
  | 2 => ⟨S1600000, .i32⟩
  | 3 => ⟨S1x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x1, .f32⟩
  | 48 => ⟨S_, .f32⟩
  | 49 => ⟨S100000x1, .f32⟩
  | 50 => ⟨S1600000x1, .i32⟩
  | 51 => ⟨S100000x1, .f32⟩
  | 52 => ⟨S100000x1, .f32⟩
  | 53 => ⟨S1x32, .f32⟩
  | 54 => ⟨S100000x32, .f32⟩
  | 55 => ⟨S100000x1, .f32⟩
  | 56 => ⟨S100000x32, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x32, .f32⟩
  | 66 => ⟨S_, .f32⟩
  | 67 => ⟨S100000x32, .f32⟩
  | 68 => ⟨S1600000x1, .i32⟩
  | 69 => ⟨S100000x32, .f32⟩
  | 70 => ⟨S100000x1, .f32⟩
  | 71 => ⟨S1x64, .f32⟩
  | 72 => ⟨S100000x64, .f32⟩
  | 73 => ⟨S100000x1, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x1, .f32⟩
  | 89 => ⟨S1x128, .f32⟩
  | 90 => ⟨S100000x128, .f32⟩
  | 91 => ⟨S100000x1, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000x1, .f32⟩
  | 107 => ⟨S1x64, .f32⟩
  | 108 => ⟨S100000x64, .f32⟩
  | 109 => ⟨S100000x1, .f32⟩
  | 110 => ⟨S100000x32, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x32, .f32⟩
  | 120 => ⟨S_, .f32⟩
  | 121 => ⟨S100000x32, .f32⟩
  | 122 => ⟨S1600000x1, .i32⟩
  | 123 => ⟨S100000x32, .f32⟩
  | 124 => ⟨S100000x1, .f32⟩
  | 125 => ⟨S1x32, .f32⟩
  | 126 => ⟨S100000x32, .f32⟩
  | 127 => ⟨S100000x1, .f32⟩
  | _ => ⟨S100000x1, .f32⟩

abbrev hbmTy0_1 (i : Nat) : BufTy := match i % 128 with
  | 0 => ⟨S100000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x1, .f32⟩
  | 10 => ⟨S_, .f32⟩
  | 11 => ⟨S100000x1, .f32⟩
  | 12 => ⟨S1600000x1, .i32⟩
  | 13 => ⟨S100000x1, .f32⟩
  | 14 => ⟨S100000x1, .f32⟩
  | 15 => ⟨S1x1, .f32⟩
  | 16 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S4000x1, .f32⟩
  | .local _ .vmem, ⟨1, _⟩ => ⟨S4000x1, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S1x32, .f32⟩
  | .local _ .vmem, ⟨11, _⟩ => ⟨S1x32, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x1, .f32⟩
  | .local _ .vmem, ⟨17, _⟩ => ⟨S4000x1, .f32⟩
  | .local _ .vmem, ⟨18, _⟩ => ⟨S4000x32, .f32⟩
  | .local _ .vmem, ⟨19, _⟩ => ⟨S4000x32, .f32⟩
  | .local _ .vmem, ⟨20, _⟩ => ⟨S4000x32, .f32⟩
  | .local _ .vmem, ⟨21, _⟩ => ⟨S4000x32, .f32⟩
  | .local _ .vmem, ⟨22, _⟩ => ⟨S4000x1, .f32⟩
  | .local _ .vmem, ⟨23, _⟩ => ⟨S4000x1, .f32⟩
  | .local _ .vmem, ⟨24, _⟩ => ⟨S32x64, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x1, .f32⟩
  | .local _ .vmem, ⟨31, _⟩ => ⟨S4000x1, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x1, .f32⟩
  | .local _ .vmem, ⟨37, _⟩ => ⟨S4000x1, .f32⟩
  | .local _ .vmem, ⟨38, _⟩ => ⟨S64x128, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S128x64, .f32⟩
  | .local _ .vmem, ⟨45, _⟩ => ⟨S4000x1, .f32⟩
  | .local _ .vmem, ⟨46, _⟩ => ⟨S4000x1, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x1, .f32⟩
  | .local _ .vmem, ⟨52, _⟩ => ⟨S4000x1, .f32⟩
  | .local _ .vmem, ⟨53, _⟩ => ⟨S1x64, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x64, .f32⟩
  | .local _ .vmem, ⟨58, _⟩ => ⟨S64x32, .f32⟩
  | .local _ .vmem, ⟨59, _⟩ => ⟨S4000x1, .f32⟩
  | .local _ .vmem, ⟨60, _⟩ => ⟨S4000x1, .f32⟩
  | .local _ .vmem, ⟨61, _⟩ => ⟨S4000x32, .f32⟩
  | .local _ .vmem, ⟨62, _⟩ => ⟨S4000x32, .f32⟩
  | .local _ .vmem, ⟨63, _⟩ => ⟨S4000x32, .f32⟩
  | .local _ .vmem, ⟨64, _⟩ => ⟨S4000x32, .f32⟩
  | .local _ .vmem, ⟨65, _⟩ => ⟨S4000x1, .f32⟩
  | .local _ .vmem, ⟨66, _⟩ => ⟨S4000x1, .f32⟩
  | .local _ .vmem, ⟨67, _⟩ => ⟨S1x32, .f32⟩
  | .local _ .vmem, ⟨68, _⟩ => ⟨S4000x32, .f32⟩
  | .local _ .vmem, ⟨69, _⟩ => ⟨S4000x32, .f32⟩
  | .local _ .vmem, ⟨70, _⟩ => ⟨S4000x32, .f32⟩
  | .local _ .vmem, ⟨71, _⟩ => ⟨S4000x32, .f32⟩
  | .local _ .vmem, ⟨72, _⟩ => ⟨S32x1, .f32⟩
  | .local _ .vmem, ⟨73, _⟩ => ⟨S4000x1, .f32⟩
  | .local _ .vmem, ⟨74, _⟩ => ⟨S4000x1, .f32⟩
  | .local _ .vmem, ⟨75, _⟩ => ⟨S4000x1, .f32⟩
  | .local _ .vmem, ⟨76, _⟩ => ⟨S4000x1, .f32⟩
  | .local _ .vmem, ⟨77, _⟩ => ⟨S4000x1, .f32⟩
  | .local _ .vmem, ⟨78, _⟩ => ⟨S4000x1, .f32⟩
  | .local _ .vmem, ⟨79, _⟩ => ⟨S4000x1, .f32⟩
  | .local _ .vmem, ⟨80, _⟩ => ⟨S4000x1, .f32⟩
  | .local _ .vmem, ⟨81, _⟩ => ⟨S1x1, .f32⟩
  | .local _ .vmem, ⟨82, _⟩ => ⟨S4000x1, .f32⟩
  | .local _ .vmem, ⟨83, _⟩ => ⟨S4000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_v11 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_c_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_19 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_20 : Ref sig .tc := ⟨.hbm, 129, rfl⟩
abbrev main_v92 : Ref sig .tc := ⟨.hbm, 130, rfl⟩
abbrev main_v93 : Ref sig .tc := ⟨.hbm, 131, rfl⟩
abbrev main_c_21 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_22 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg3_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg2_1 : Ref sig .tc := ⟨.vmem, 74, rfl⟩
abbrev cc10_stg3_0 : Ref sig .tc := ⟨.vmem, 75, rfl⟩
abbrev cc10_stg3_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg1_1 : Ref sig .tc := ⟨.vmem, 80, rfl⟩
abbrev cc11_stg2_0 : Ref sig .tc := ⟨.vmem, 81, rfl⟩
abbrev cc11_stg3_0 : Ref sig .tc := ⟨.vmem, 82, rfl⟩
abbrev cc11_stg3_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc8_sem3_0 : DmaSem sig := 61
abbrev cc8_sem3_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem3_0 : DmaSem sig := 68
abbrev cc9_sem3_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem2_1 : DmaSem sig := 74
abbrev cc10_sem3_0 : DmaSem sig := 75
abbrev cc10_sem3_1 : DmaSem sig := 76
abbrev cc11_sem0_0 : DmaSem sig := 77
abbrev cc11_sem0_1 : DmaSem sig := 78
abbrev cc11_sem1_0 : DmaSem sig := 79
abbrev cc11_sem1_1 : DmaSem sig := 80
abbrev cc11_sem2_0 : DmaSem sig := 81
abbrev cc11_sem3_0 : DmaSem sig := 82
abbrev cc11_sem3_1 : DmaSem sig := 83

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S4000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S4000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S4000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S4000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4000x1 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bcast_S_S100000x1 : S_.BroadcastsInDim S100000x1 (![] : Fin 0 → Fin S100000x1.rank)
  shapeCasts_S32_S1x32 : S32.ShapeCasts S1x32
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  bcast_S_S100000x32 : S_.BroadcastsInDim S100000x32 (![] : Fin 0 → Fin S100000x32.rank)
  shapeCasts_S64_S1x64 : S64.ShapeCasts S1x64
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bcast_S_S100000x64 : S_.BroadcastsInDim S100000x64 (![] : Fin 0 → Fin S100000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S64x32_S64x32_0_0 : ∀ a, (![0, 0] : Fin 2 → Nat) a + S64x32.size a ≤ S64x32.size a
  h_S64x32 : 0 < S64x32.numel
  inb_S32x1_S32x1_0_0 : ∀ a, (![0, 0] : Fin 2 → Nat) a + S32x1.size a ≤ S32x1.size a
  h_S32x1 : 0 < S32x1.numel
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S4000x1_S1x32_S4000x32_1_0_0_1_n_n_wf : DotDims.WF S4000x1 S1x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x32_S32x64_S4000x64_1_0_0_1_n_n_wf : DotDims.WF S4000x32 S32x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  dot_S4000x64_S64x32_S4000x32_1_0_0_1_n_n_wf : DotDims.WF S4000x64 S64x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .f32 = 32 ∨ (Rect.block (s := S100000x1) S4000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S100000x1.size a
  hwx1_0 : ∀ i : grid1.Coords, EltTy.bits .f32 = 32 ∨ (Rect.block (s := S100000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x32.size a ≤ S100000x32.size a
  hwx1_4 : ∀ i : grid1.Coords, EltTy.bits .f32 = 32 ∨ (Rect.block (s := S100000x32) S4000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S100000x32.size a
  hwx2_2 : ∀ i : grid2.Coords, EltTy.bits .f32 = 32 ∨ (Rect.block (s := S100000x32) S4000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x32.size a ≤ S100000x32.size a
  hwx3_0 : ∀ i : grid3.Coords, EltTy.bits .f32 = 32 ∨ (Rect.block (s := S100000x32) S4000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .f32 = 32 ∨ (Rect.block (s := S100000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x128.size a ≤ S100000x128.size a
  hwx5_4 : ∀ i : grid5.Coords, EltTy.bits .f32 = 32 ∨ (Rect.block (s := S100000x128) S4000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S100000x1.size a
  hwx6_2 : ∀ i : grid6.Coords, EltTy.bits .f32 = 32 ∨ (Rect.block (s := S100000x1) S4000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S100000x64.size a
  hwx6_3 : ∀ i : grid6.Coords, EltTy.bits .f32 = 32 ∨ (Rect.block (s := S100000x64) S4000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S100000x64.size a
  hwx7_0 : ∀ i : grid7.Coords, EltTy.bits .f32 = 32 ∨ (Rect.block (s := S100000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S100000x1.size a
  hwx7_1 : ∀ i : grid7.Coords, EltTy.bits .f32 = 32 ∨ (Rect.block (s := S100000x1) S4000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x64.size a ≤ S100000x64.size a
  hwx7_3 : ∀ i : grid7.Coords, EltTy.bits .f32 = 32 ∨ (Rect.block (s := S100000x64) S4000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S100000x64.size a
  hwx8_0 : ∀ i : grid8.Coords, EltTy.bits .f32 = 32 ∨ (Rect.block (s := S100000x64) S4000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x1.size a ≤ S100000x1.size a
  hwx8_2 : ∀ i : grid8.Coords, EltTy.bits .f32 = 32 ∨ (Rect.block (s := S100000x1) S4000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x32.size a ≤ S100000x32.size a
  hwx8_3 : ∀ i : grid8.Coords, EltTy.bits .f32 = 32 ∨ (Rect.block (s := S100000x32) S4000x32.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x32.size a ≤ S100000x32.size a
  hwx9_0 : ∀ i : grid9.Coords, EltTy.bits .f32 = 32 ∨ (Rect.block (s := S100000x32) S4000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x1.size a ≤ S100000x1.size a
  hwx9_1 : ∀ i : grid9.Coords, EltTy.bits .f32 = 32 ∨ (Rect.block (s := S100000x1) S4000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x32.size a ≤ S100000x32.size a
  hwx9_3 : ∀ i : grid9.Coords, EltTy.bits .f32 = 32 ∨ (Rect.block (s := S100000x32) S4000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x32.size a ≤ S100000x32.size a
  hwx10_0 : ∀ i : grid10.Coords, EltTy.bits .f32 = 32 ∨ (Rect.block (s := S100000x32) S4000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x1.size a ≤ S32x1.size a
  hwx10_1 : ∀ i : grid10.Coords, EltTy.bits .f32 = 32 ∨ (Rect.block (s := S32x1) S32x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x1.size a ≤ S100000x1.size a
  hwx10_2 : ∀ i : grid10.Coords, EltTy.bits .f32 = 32 ∨ (Rect.block (s := S100000x1) S4000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4000x1.size a ≤ S100000x1.size a
  hwx10_3 : ∀ i : grid10.Coords, EltTy.bits .f32 = 32 ∨ (Rect.block (s := S100000x1) S4000x1.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x1.size a ≤ S100000x1.size a
  hwx11_0 : ∀ i : grid11.Coords, EltTy.bits .f32 = 32 ∨ (Rect.block (s := S100000x1) S4000x1.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x1.size a ≤ S100000x1.size a
  hwx11_1 : ∀ i : grid11.Coords, EltTy.bits .f32 = 32 ∨ (Rect.block (s := S100000x1) S4000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4000x1.size a ≤ S100000x1.size a
  hwx11_3 : ∀ i : grid11.Coords, EltTy.bits .f32 = 32 ∨ (Rect.block (s := S100000x1) S4000x1.size (cc11_transform_3 i) (hinb11_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S4000x1_S1x32_S4000x32_1_0_0_1_n_n : DotDims S4000x1 S1x32 S4000x32 where
  lhsContracting := [1]
  rhsContracting := [0]
  lhsNonContracting := [0]
  rhsNonContracting := [1]
  lhsBatch := []
  rhsBatch := []
  wf := dot_S4000x1_S1x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S4000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S4000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v44) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S64x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v58) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S4000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v59) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S4000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v61) S4000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v71) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v72) S4000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v73) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v74) S4000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v74) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v75) S4000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v76) S4000x32.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v86) S4000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v87) S4000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v88) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v89) S4000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v89) S4000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S32x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v90) S4000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v91) S4000x1.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v101) S4000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v102) S4000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v103) S1x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v104) S4000x1.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S1x1 : Shape := ⟨2, ![1, 1]⟩

abbrev nBuf : Space → Nat
  | .hbm => 176
  | .vmem => 0
  | .smem => 0
  | _ => 0

abbrev hbmTy0_0 (i : Nat) : BufTy := match i % 128 with
  | 0 => ⟨S100000x1, .f32⟩
  | 1 => ⟨S1600000, .i32⟩
  | 2 => ⟨S1600000, .i32⟩
  | 3 => ⟨S1x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x1, .f32⟩
  | 48 => ⟨S_, .f32⟩
  | 49 => ⟨S100000x1, .f32⟩
  | 50 => ⟨S1600000x1, .i32⟩
  | 51 => ⟨S100000x1, .f32⟩
  | 52 => ⟨S100000x1, .f32⟩
  | 53 => ⟨S100000x1, .f32⟩
  | 54 => ⟨S100000x32, .f32⟩
  | 55 => ⟨S1x32, .f32⟩
  | 56 => ⟨S100000x32, .f32⟩
  | 57 => ⟨S100000x32, .f32⟩
  | 58 => ⟨S100000x1, .f32⟩
  | 59 => ⟨S100000x32, .f32⟩
  | 60 => ⟨S100000x32, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x32, .f32⟩
  | 70 => ⟨S_, .f32⟩
  | 71 => ⟨S100000x32, .f32⟩
  | 72 => ⟨S1600000x1, .i32⟩
  | 73 => ⟨S100000x32, .f32⟩
  | 74 => ⟨S100000x1, .f32⟩
  | 75 => ⟨S100000x32, .f32⟩
  | 76 => ⟨S100000x32, .f32⟩
  | 77 => ⟨S100000x64, .f32⟩
  | 78 => ⟨S1x64, .f32⟩
  | 79 => ⟨S100000x64, .f32⟩
  | 80 => ⟨S100000x64, .f32⟩
  | 81 => ⟨S100000x1, .f32⟩
  | 82 => ⟨S100000x64, .f32⟩
  | 83 => ⟨S100000x64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S100000x1, .f32⟩
  | 98 => ⟨S100000x64, .f32⟩
  | 99 => ⟨S100000x64, .f32⟩
  | 100 => ⟨S100000x128, .f32⟩
  | 101 => ⟨S1x128, .f32⟩
  | 102 => ⟨S100000x128, .f32⟩
  | 103 => ⟨S100000x128, .f32⟩
  | 104 => ⟨S100000x64, .f32⟩
  | 105 => ⟨S100000x1, .f32⟩
  | 106 => ⟨S100000x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S100000x1, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S100000x32, .f32⟩
  | _ => ⟨S100000x1, .f32⟩

abbrev hbmTy0_1 (i : Nat) : BufTy := match i % 128 with
  | 0 => ⟨S100000x1, .f32⟩
  | 1 => ⟨S100000x32, .f32⟩
  | 2 => ⟨S100000x32, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x32, .f32⟩
  | 12 => ⟨S_, .f32⟩
  | 13 => ⟨S100000x32, .f32⟩
  | 14 => ⟨S1600000x1, .i32⟩
  | 15 => ⟨S100000x32, .f32⟩
  | 16 => ⟨S100000x1, .f32⟩
  | 17 => ⟨S100000x32, .f32⟩
  | 18 => ⟨S100000x32, .f32⟩
  | 19 => ⟨S1x32, .f32⟩
  | 20 => ⟨S100000x32, .f32⟩
  | 21 => ⟨S100000x32, .f32⟩
  | 22 => ⟨S100000x1, .f32⟩
  | 23 => ⟨S100000x1, .f32⟩
  | 24 => ⟨S100000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x1, .f32⟩
  | 34 => ⟨S_, .f32⟩
  | 35 => ⟨S100000x1, .f32⟩
  | 36 => ⟨S1600000x1, .i32⟩
  | 37 => ⟨S100000x1, .f32⟩
  | 38 => ⟨S100000x1, .f32⟩
  | 39 => ⟨S100000x1, .f32⟩
  | 40 => ⟨S1x1, .f32⟩
  | 41 => ⟨S100000x1, .f32⟩
  | 42 => ⟨S100000x1, .f32⟩
  | 43 => ⟨S_, .f32⟩
  | 44 => ⟨S100000x1, .f32⟩
  | 45 => ⟨S100000x1, .i1⟩
  | 46 => ⟨S100000x1, .f32⟩
  | 47 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_v11 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_17 : Ref sig .tc := ⟨.hbm, 131, rfl⟩
abbrev main_v97 : Ref sig .tc := ⟨.hbm, 132, rfl⟩
abbrev main_v98 : Ref sig .tc := ⟨.hbm, 133, rfl⟩
abbrev main_c_18 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_19 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_20 : Ref sig .tc := ⟨.hbm, 153, rfl⟩
abbrev main_v116 : Ref sig .tc := ⟨.hbm, 154, rfl⟩
abbrev main_v117 : Ref sig .tc := ⟨.hbm, 155, rfl⟩
abbrev main_c_21 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_22 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_23 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x32_S100000x32_1_0_0_1_n_n_wf : DotDims.WF S100000x1 S1x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The kernel program's run with its result array named.  Every weakly fair execution of @main ends, without a fault,
  with the result buffer at the last region's exit contents of that buffer — the fold of the host stretches and of the
  twelve regions' write-backs from the launch memory — and with every argument array as launched.
-/
import proofs.«176802_j51384988729797_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the contents the last region leaves in it, the arguments as launched. -/
theorem run : θ_run defs (onTc (τ := τ) (main (F := F))) ⟨m, fun _ => 0, ρ⟩ (fun r => ∀ c : Dev nD,
      r.2.mem ((c.tc : Thread nD τ).loc main_v104) = W24 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v104 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c)⟩)

end Cert.KernelIdeal.Result

end
-- ==== Proof.LayerHalves.lean ====
/-
  One graph-convolution layer, cut where the message pass (gather along the source index, sum into the destination
  index) sits: the half before it and the half after it, each as ONE whole-array function on the extended reals.

  A layer that widens its features (1 → 32 → 64 → 128) scales the rows by the source norm before the message pass,
  and after it scales by the destination norm, projects by W and adds the bias:
      pre  = h · ns                       post = ((agg · nd) W) + b.
  A layer that narrows them (128 → 64 → 32 → 1) projects first:
      pre  = (h W) · ns                   post = (agg · nd) + b,
  and the last layer ends in |t|, spelt "t where t ≥ 0, else −t".
  The column of norms is an [N,1] array, the bias a [1,F] array; both are broadcast along the missing axis.
-/
import proofs.«176802_j51384988729797_1_alg».proof.ReferenceIdeal
import proofs.«176802_j51384988729797_1_alg».proof.Proof.Gen.ReferenceIdeal
import Idealize.ShloMosaic.PureOps.Ideal

noncomputable section

namespace Cert.GraphConv

open Idealize.ShloMosaic Cert.ReferenceIdeal Cert.ReferenceIdeal.Gen

/-- An f32 array of shape `s` at the exact instance: one extended real per index. -/
abbrev Arr (s : Shape) := (⟨s, .f32⟩ : BufTy).Contents (Elt Ideal)

/-- Rows of a one-column array times the column of norms. -/
def scaleCol1 (h s : Arr S100000x1) : Arr S100000x1 := mulf (F := Ideal) (φ := .f32) h s
/-- Row r of a 32-column array times entry r of the column of norms. -/
def scaleCol32 (h : Arr S100000x32) (s : Arr S100000x1) : Arr S100000x32 :=
  mulf (F := Ideal) (φ := .f32) h (broadcastInDim S100000x32 ![0, 1] bcast_S100000x1_S100000x32_0_1 s)
/-- Row r of a 64-column array times entry r of the column of norms. -/
def scaleCol64 (h : Arr S100000x64) (s : Arr S100000x1) : Arr S100000x64 :=
  mulf (F := Ideal) (φ := .f32) h (broadcastInDim S100000x64 ![0, 1] bcast_S100000x1_S100000x64_0_1 s)

/-- (agg · nd) W + b, 1 → 32 features. -/
def proj1to32 (h s : Arr S100000x1) (w : Arr S1x32) (b : Arr S1x32) : Arr S100000x32 :=
  addf (F := Ideal) (φ := .f32) (Host.dotGeneral (F := Ideal) (φ₁ := .f32) (φ₂ := .f32) dot_S100000x1_S1x32_S100000x32_1_0_0_1_n_n none (scaleCol1 h s) w)
    (broadcastInDim S100000x32 ![0, 1] bcast_S1x32_S100000x32_0_1 b)
/-- (agg · nd) W + b, 32 → 64 features. -/
def proj32to64 (h : Arr S100000x32) (s : Arr S100000x1) (w : Arr S32x64) (b : Arr S1x64) : Arr S100000x64 :=
  addf (F := Ideal) (φ := .f32) (Host.dotGeneral (F := Ideal) (φ₁ := .f32) (φ₂ := .f32) dot_S100000x32_S32x64_S100000x64_1_0_0_1_n_n none (scaleCol32 h s) w)
    (broadcastInDim S100000x64 ![0, 1] bcast_S1x64_S100000x64_0_1 b)
/-- (agg · nd) W + b, 64 → 128 features. -/
def proj64to128 (h : Arr S100000x64) (s : Arr S100000x1) (w : Arr S64x128) (b : Arr S1x128) : Arr S100000x128 :=
  addf (F := Ideal) (φ := .f32) (Host.dotGeneral (F := Ideal) (φ₁ := .f32) (φ₂ := .f32) dot_S100000x64_S64x128_S100000x128_1_0_0_1_n_n none (scaleCol64 h s) w)
    (broadcastInDim S100000x128 ![0, 1] bcast_S1x128_S100000x128_0_1 b)

/-- (h W) · ns, 128 → 64 features. -/
def projScale128to64 (h : Arr S100000x128) (w : Arr S128x64) (s : Arr S100000x1) : Arr S100000x64 :=
  scaleCol64 (Host.dotGeneral (F := Ideal) (φ₁ := .f32) (φ₂ := .f32) dot_S100000x128_S128x64_S100000x64_1_0_0_1_n_n none h w) s
/-- (h W) · ns, 64 → 32 features. -/
def projScale64to32 (h : Arr S100000x64) (w : Arr S64x32) (s : Arr S100000x1) : Arr S100000x32 :=
  scaleCol32 (Host.dotGeneral (F := Ideal) (φ₁ := .f32) (φ₂ := .f32) dot_S100000x64_S64x32_S100000x32_1_0_0_1_n_n none h w) s
/-- (h W) · ns, 32 → 1 features. -/
def projScale32to1 (h : Arr S100000x32) (w : Arr S32x1) (s : Arr S100000x1) : Arr S100000x1 :=
  scaleCol1 (Host.dotGeneral (F := Ideal) (φ₁ := .f32) (φ₂ := .f32) dot_S100000x32_S32x1_S100000x1_1_0_0_1_n_n none h w) s

/-- (agg · nd) + b on 64 features. -/
def scaleBias64 (h : Arr S100000x64) (s : Arr S100000x1) (b : Arr S1x64) : Arr S100000x64 :=
  addf (F := Ideal) (φ := .f32) (scaleCol64 h s) (broadcastInDim S100000x64 ![0, 1] bcast_S1x64_S100000x64_0_1 b)
/-- (agg · nd) + b on 32 features. -/
def scaleBias32 (h : Arr S100000x32) (s : Arr S100000x1) (b : Arr S1x32) : Arr S100000x32 :=
  addf (F := Ideal) (φ := .f32) (scaleCol32 h s) (broadcastInDim S100000x32 ![0, 1] bcast_S1x32_S100000x32_0_1 b)
/-- t = (agg · nd) + b on one feature. -/
def scaleBias1 (h s : Arr S100000x1) (b : Arr S1x1) : Arr S100000x1 :=
  addf (F := Ideal) (φ := .f32) (scaleCol1 h s) (broadcastInDim S100000x1 ![0, 1] bcast_S1x1_S100000x1_0_1 b)
/-- |t| spelt as a choice: t where t ≥ 0, else −t. -/
def absWhere (t : Arr S100000x1) : Arr S100000x1 :=
  select (cmpf (F := Ideal) (φ := .f32) .oge t (broadcastInDim S100000x1 ![] bcast_S_S100000x1 (constant (F := Ideal) S_ .f32 0x00000000#32)))
    t (Host.negf (F := Ideal) (φ := .f32) t)
/-- The last layer's second half: |(agg · nd) + b|. -/
def scaleBiasAbs1 (h s : Arr S100000x1) (b : Arr S1x1) : Arr S100000x1 := absWhere (scaleBias1 h s b)

end Cert.GraphConv

end
-- ==== Proof.LibUnitAxis.lean ====
/-
  Two ways to add a unit axis to a vector are one function.
  A vector [a] laid out as the column [a, 1]: the reshape keeps the row-major order, so entry (p, 0) is entry p of the
  vector; the broadcast along a new trailing axis says the same. Likewise for the row [1, b] and a new leading axis.
-/
import Idealize.ShloMosaic.Lib.Pipeline.Value
import Idealize.ShloMosaic.Lib.ValueIdx

namespace Cert.Lib.UnitAxis

open Idealize.ShloMosaic Idealize.ShloMosaic.ValueIdx

variable {α : Type}

/-- The reshape [a] → [a, 1] is the broadcast of the vector along a new second axis. -/
theorem col_reshape_eq_broadcast {a : ℕ} (x : (⟨1, ![a]⟩ : Shape).Idx → α)
    (h : (⟨1, ![a]⟩ : Shape).ShapeCasts ⟨2, ![a, 1]⟩)
    (bc : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) bc x := by
  funext j
  have hj1 : (j 1).val = 0 := by have := idx2_lt1 j; omega
  have hj0 : (j 0).val < a := idx2_lt0 j
  refine (shapeCast_apply x h j (ix1 ⟨(j 0).val, hj0⟩) ?_).trans
    (broadcastInDim_apply (s := ⟨1, ![a]⟩) (t := ⟨2, ![a, 1]⟩) _ bc x j (ix1 ⟨(j 0).val, hj0⟩) (fun d => ?_)).symm
  · rw [Shape.rowMajor_val_two, Shape.rowMajor_val_one]
    show (j 0).val = (j 0).val * 1 + (j 1).val
    rw [hj1, Nat.mul_one, Nat.add_zero]
  · match d with
    | ⟨0, _⟩ =>
      show (j 0).val = if a = 1 then 0 else (j 0).val
      split_ifs with ha
      · omega
      · rfl

/-- The reshape [b] → [1, b] is the broadcast of the vector along a new first axis. -/
theorem row_reshape_eq_broadcast {b : ℕ} (x : (⟨1, ![b]⟩ : Shape).Idx → α)
    (h : (⟨1, ![b]⟩ : Shape).ShapeCasts ⟨2, ![1, b]⟩)
    (bc : (⟨1, ![b]⟩ : Shape).BroadcastsInDim ⟨2, ![1, b]⟩ (![1] : Fin 1 → Fin 2)) :
    shapeCast ⟨2, ![1, b]⟩ x h = broadcastInDim ⟨2, ![1, b]⟩ (![1] : Fin 1 → Fin 2) bc x := by
  funext j
  have hj0 : (j 0).val = 0 := by have := idx2_lt0 j; omega
  have hj1 : (j 1).val < b := idx2_lt1 j
  refine (shapeCast_apply x h j (ix1 ⟨(j 1).val, hj1⟩) ?_).trans
    (broadcastInDim_apply (s := ⟨1, ![b]⟩) (t := ⟨2, ![1, b]⟩) _ bc x j (ix1 ⟨(j 1).val, hj1⟩) (fun d => ?_)).symm
  · rw [Shape.rowMajor_val_two, Shape.rowMajor_val_one]
    show (j 1).val = (j 0).val * b + (j 1).val
    rw [hj0, Nat.zero_mul, Nat.zero_add]
  · match d with
    | ⟨0, _⟩ =>
      show (j 1).val = if b = 1 then 0 else (j 1).val
      split_ifs with hb
      · omega
      · rfl

end Cert.Lib.UnitAxis
-- ==== Proof.Kept.lean ====
/-
  What no later step writes.  The two index arrays, the weights and the biases are arguments; the two norm vectors are
  computed once, before the first region.  No host stretch after the first writes any of them, and a region writes
  back only its output array, so at every later boundary of @main each still holds what it held at the first region's
  entry.
-/
import proofs.«176802_j51384988729797_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The buffers written for the last time before the first region: the index arrays, the weights and biases, the norms. -/
def persistent : List (Ref sig .tc) := [main_arg1, main_arg2, main_arg3, main_arg4, main_arg5, main_arg6, main_arg7, main_arg8, main_arg9, main_arg10, main_arg11, main_arg12, main_arg13, main_arg14, main_v10, main_v14]

set_option hygiene false in
/-- One case per listed buffer. -/
local macro "each_persistent" hb:ident : tactic => `(tactic| (
  simp only [persistent, List.mem_cons, List.not_mem_nil, or_false] at $hb:ident
  rcases $hb:ident with rfl | rfl | rfl | rfl | rfl | rfl | rfl | rfl | rfl | rfl | rfl | rfl | rfl | rfl | rfl | rfl))

/-- A host stretch keeps a buffer that is the result buffer of none of its operations. -/
local macro "stretch_keeps" ops:ident : tactic => `(tactic|
  exact StableHlo.after_of_forall_not_mem (b := Proc.devRef .tc _) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## One step at a time: a host stretch, then the region it leads to -/

theorem region0 (b : Ref sig .tc) (hb : b ∈ persistent) :
    W2 m ρ c (Proc.devRef .tc b) = W1 m ρ c (Proc.devRef .tc b) := by
  each_persistent hb
  all_goals first
    | exact W2_of_ne m ρ c _ (by decide)
theorem host1 (b : Ref sig .tc) (hb : b ∈ persistent) :
    W3 m ρ c (Proc.devRef .tc b) = W2 m ρ c (Proc.devRef .tc b) := by
  each_persistent hb
  all_goals stretch_keeps hostOps1
theorem region1 (b : Ref sig .tc) (hb : b ∈ persistent) :
    W4 m ρ c (Proc.devRef .tc b) = W3 m ρ c (Proc.devRef .tc b) := by
  each_persistent hb
  all_goals first
    | exact W4_of_ne m ρ c _ (by decide)
    | exact (W4_arr m ρ c 2).trans (((dat1 (V3 m ρ) c).arrAt_in 2 rfl _).trans (A_eq1 (V3 m ρ) c 2))
theorem host2 (b : Ref sig .tc) (hb : b ∈ persistent) :
    W5 m ρ c (Proc.devRef .tc b) = W4 m ρ c (Proc.devRef .tc b) := by
  each_persistent hb
  all_goals stretch_keeps hostOps2
theorem region2 (b : Ref sig .tc) (hb : b ∈ persistent) :
    W6 m ρ c (Proc.devRef .tc b) = W5 m ρ c (Proc.devRef .tc b) := by
  each_persistent hb
  all_goals first
    | exact W6_of_ne m ρ c _ (by decide)
theorem host3 (b : Ref sig .tc) (hb : b ∈ persistent) :
    W7 m ρ c (Proc.devRef .tc b) = W6 m ρ c (Proc.devRef .tc b) := by
  each_persistent hb
  all_goals stretch_keeps hostOps3
theorem region3 (b : Ref sig .tc) (hb : b ∈ persistent) :
    W8 m ρ c (Proc.devRef .tc b) = W7 m ρ c (Proc.devRef .tc b) := by
  each_persistent hb
  all_goals first
    | exact W8_of_ne m ρ c _ (by decide)
    | exact (W8_arr m ρ c 2).trans (((dat3 (V7 m ρ) c).arrAt_in 2 rfl _).trans (A_eq3 (V7 m ρ) c 2))
theorem host4 (b : Ref sig .tc) (hb : b ∈ persistent) :
    W9 m ρ c (Proc.devRef .tc b) = W8 m ρ c (Proc.devRef .tc b) := by
  each_persistent hb
  all_goals stretch_keeps hostOps4
theorem region4 (b : Ref sig .tc) (hb : b ∈ persistent) :
    W10 m ρ c (Proc.devRef .tc b) = W9 m ρ c (Proc.devRef .tc b) := by
  each_persistent hb
  all_goals first
    | exact W10_of_ne m ρ c _ (by decide)
theorem host5 (b : Ref sig .tc) (hb : b ∈ persistent) :
    W11 m ρ c (Proc.devRef .tc b) = W10 m ρ c (Proc.devRef .tc b) := by
  each_persistent hb
  all_goals stretch_keeps hostOps5
theorem region5 (b : Ref sig .tc) (hb : b ∈ persistent) :
    W12 m ρ c (Proc.devRef .tc b) = W11 m ρ c (Proc.devRef .tc b) := by
  each_persistent hb
  all_goals first
    | exact W12_of_ne m ρ c _ (by decide)
    | exact (W12_arr m ρ c 2).trans (((dat5 (V11 m ρ) c).arrAt_in 2 rfl _).trans (A_eq5 (V11 m ρ) c 2))
theorem host6 (b : Ref sig .tc) (hb : b ∈ persistent) :
    W13 m ρ c (Proc.devRef .tc b) = W12 m ρ c (Proc.devRef .tc b) := by
  each_persistent hb
  all_goals stretch_keeps hostOps6
theorem region6 (b : Ref sig .tc) (hb : b ∈ persistent) :
    W14 m ρ c (Proc.devRef .tc b) = W13 m ρ c (Proc.devRef .tc b) := by
  each_persistent hb
  all_goals first
    | exact W14_of_ne m ρ c _ (by decide)
    | exact (W14_arr m ρ c 1).trans (((dat6 (V13 m ρ) c).arrAt_in 1 rfl _).trans (A_eq6 (V13 m ρ) c 1))
theorem host7 (b : Ref sig .tc) (hb : b ∈ persistent) :
    W15 m ρ c (Proc.devRef .tc b) = W14 m ρ c (Proc.devRef .tc b) := by
  each_persistent hb
  all_goals stretch_keeps hostOps7
theorem region7 (b : Ref sig .tc) (hb : b ∈ persistent) :
    W16 m ρ c (Proc.devRef .tc b) = W15 m ρ c (Proc.devRef .tc b) := by
  each_persistent hb
  all_goals first
    | exact W16_of_ne m ρ c _ (by decide)
theorem host8 (b : Ref sig .tc) (hb : b ∈ persistent) :
    W17 m ρ c (Proc.devRef .tc b) = W16 m ρ c (Proc.devRef .tc b) := by
  each_persistent hb
  all_goals stretch_keeps hostOps8
theorem region8 (b : Ref sig .tc) (hb : b ∈ persistent) :
    W18 m ρ c (Proc.devRef .tc b) = W17 m ρ c (Proc.devRef .tc b) := by
  each_persistent hb
  all_goals first
    | exact W18_of_ne m ρ c _ (by decide)
    | exact (W18_arr m ρ c 1).trans (((dat8 (V17 m ρ) c).arrAt_in 1 rfl _).trans (A_eq8 (V17 m ρ) c 1))
theorem host9 (b : Ref sig .tc) (hb : b ∈ persistent) :
    W19 m ρ c (Proc.devRef .tc b) = W18 m ρ c (Proc.devRef .tc b) := by
  each_persistent hb
  all_goals stretch_keeps hostOps9
theorem region9 (b : Ref sig .tc) (hb : b ∈ persistent) :
    W20 m ρ c (Proc.devRef .tc b) = W19 m ρ c (Proc.devRef .tc b) := by
  each_persistent hb
  all_goals first
    | exact W20_of_ne m ρ c _ (by decide)
theorem host10 (b : Ref sig .tc) (hb : b ∈ persistent) :
    W21 m ρ c (Proc.devRef .tc b) = W20 m ρ c (Proc.devRef .tc b) := by
  each_persistent hb
  all_goals stretch_keeps hostOps10
theorem region10 (b : Ref sig .tc) (hb : b ∈ persistent) :
    W22 m ρ c (Proc.devRef .tc b) = W21 m ρ c (Proc.devRef .tc b) := by
  each_persistent hb
  all_goals first
    | exact W22_of_ne m ρ c _ (by decide)
    | exact (W22_arr m ρ c 1).trans (((dat10 (V21 m ρ) c).arrAt_in 1 rfl _).trans (A_eq10 (V21 m ρ) c 1))
theorem host11 (b : Ref sig .tc) (hb : b ∈ persistent) :
    W23 m ρ c (Proc.devRef .tc b) = W22 m ρ c (Proc.devRef .tc b) := by
  each_persistent hb
  all_goals stretch_keeps hostOps11
theorem region11 (b : Ref sig .tc) (hb : b ∈ persistent) :
    W24 m ρ c (Proc.devRef .tc b) = W23 m ρ c (Proc.devRef .tc b) := by
  each_persistent hb
  all_goals first
    | exact W24_of_ne m ρ c _ (by decide)

/-! ## Chained back to the first region's entry -/

theorem at2 (b : Ref sig .tc) (hb : b ∈ persistent) : W2 m ρ c (Proc.devRef .tc b) = W1 m ρ c (Proc.devRef .tc b) :=
  region0 m ρ c b hb
theorem at3 (b : Ref sig .tc) (hb : b ∈ persistent) : W3 m ρ c (Proc.devRef .tc b) = W1 m ρ c (Proc.devRef .tc b) :=
  (host1 m ρ c b hb).trans (at2 m ρ c b hb)
theorem at4 (b : Ref sig .tc) (hb : b ∈ persistent) : W4 m ρ c (Proc.devRef .tc b) = W1 m ρ c (Proc.devRef .tc b) :=
  (region1 m ρ c b hb).trans (at3 m ρ c b hb)
theorem at5 (b : Ref sig .tc) (hb : b ∈ persistent) : W5 m ρ c (Proc.devRef .tc b) = W1 m ρ c (Proc.devRef .tc b) :=
  (host2 m ρ c b hb).trans (at4 m ρ c b hb)
theorem at6 (b : Ref sig .tc) (hb : b ∈ persistent) : W6 m ρ c (Proc.devRef .tc b) = W1 m ρ c (Proc.devRef .tc b) :=
  (region2 m ρ c b hb).trans (at5 m ρ c b hb)
theorem at7 (b : Ref sig .tc) (hb : b ∈ persistent) : W7 m ρ c (Proc.devRef .tc b) = W1 m ρ c (Proc.devRef .tc b) :=
  (host3 m ρ c b hb).trans (at6 m ρ c b hb)
theorem at8 (b : Ref sig .tc) (hb : b ∈ persistent) : W8 m ρ c (Proc.devRef .tc b) = W1 m ρ c (Proc.devRef .tc b) :=
  (region3 m ρ c b hb).trans (at7 m ρ c b hb)
theorem at9 (b : Ref sig .tc) (hb : b ∈ persistent) : W9 m ρ c (Proc.devRef .tc b) = W1 m ρ c (Proc.devRef .tc b) :=
  (host4 m ρ c b hb).trans (at8 m ρ c b hb)
theorem at10 (b : Ref sig .tc) (hb : b ∈ persistent) : W10 m ρ c (Proc.devRef .tc b) = W1 m ρ c (Proc.devRef .tc b) :=
  (region4 m ρ c b hb).trans (at9 m ρ c b hb)
theorem at11 (b : Ref sig .tc) (hb : b ∈ persistent) : W11 m ρ c (Proc.devRef .tc b) = W1 m ρ c (Proc.devRef .tc b) :=
  (host5 m ρ c b hb).trans (at10 m ρ c b hb)
theorem at12 (b : Ref sig .tc) (hb : b ∈ persistent) : W12 m ρ c (Proc.devRef .tc b) = W1 m ρ c (Proc.devRef .tc b) :=
  (region5 m ρ c b hb).trans (at11 m ρ c b hb)
theorem at13 (b : Ref sig .tc) (hb : b ∈ persistent) : W13 m ρ c (Proc.devRef .tc b) = W1 m ρ c (Proc.devRef .tc b) :=
  (host6 m ρ c b hb).trans (at12 m ρ c b hb)
theorem at14 (b : Ref sig .tc) (hb : b ∈ persistent) : W14 m ρ c (Proc.devRef .tc b) = W1 m ρ c (Proc.devRef .tc b) :=
  (region6 m ρ c b hb).trans (at13 m ρ c b hb)
theorem at15 (b : Ref sig .tc) (hb : b ∈ persistent) : W15 m ρ c (Proc.devRef .tc b) = W1 m ρ c (Proc.devRef .tc b) :=
  (host7 m ρ c b hb).trans (at14 m ρ c b hb)
theorem at16 (b : Ref sig .tc) (hb : b ∈ persistent) : W16 m ρ c (Proc.devRef .tc b) = W1 m ρ c (Proc.devRef .tc b) :=
  (region7 m ρ c b hb).trans (at15 m ρ c b hb)
theorem at17 (b : Ref sig .tc) (hb : b ∈ persistent) : W17 m ρ c (Proc.devRef .tc b) = W1 m ρ c (Proc.devRef .tc b) :=
  (host8 m ρ c b hb).trans (at16 m ρ c b hb)
theorem at18 (b : Ref sig .tc) (hb : b ∈ persistent) : W18 m ρ c (Proc.devRef .tc b) = W1 m ρ c (Proc.devRef .tc b) :=
  (region8 m ρ c b hb).trans (at17 m ρ c b hb)
theorem at19 (b : Ref sig .tc) (hb : b ∈ persistent) : W19 m ρ c (Proc.devRef .tc b) = W1 m ρ c (Proc.devRef .tc b) :=
  (host9 m ρ c b hb).trans (at18 m ρ c b hb)
theorem at20 (b : Ref sig .tc) (hb : b ∈ persistent) : W20 m ρ c (Proc.devRef .tc b) = W1 m ρ c (Proc.devRef .tc b) :=
  (region9 m ρ c b hb).trans (at19 m ρ c b hb)
theorem at21 (b : Ref sig .tc) (hb : b ∈ persistent) : W21 m ρ c (Proc.devRef .tc b) = W1 m ρ c (Proc.devRef .tc b) :=
  (host10 m ρ c b hb).trans (at20 m ρ c b hb)
theorem at22 (b : Ref sig .tc) (hb : b ∈ persistent) : W22 m ρ c (Proc.devRef .tc b) = W1 m ρ c (Proc.devRef .tc b) :=
  (region10 m ρ c b hb).trans (at21 m ρ c b hb)
theorem at23 (b : Ref sig .tc) (hb : b ∈ persistent) : W23 m ρ c (Proc.devRef .tc b) = W1 m ρ c (Proc.devRef .tc b) :=
  (host11 m ρ c b hb).trans (at22 m ρ c b hb)

end Cert.KernelIdeal.Kept

end
-- ==== Proof.Region0.lean ====
/-
  The layer half "each row of a one-column array times its entry of the column of norms", as the tiled program
  computes it: 25 row blocks of 4000 rows each, every block the same pointwise product.  The array the blocks leave is
  that product of the whole arrays.
-/
import proofs.«176802_j51384988729797_1_alg».proof.Proof.Gen.KernelIdeal.Frame
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen
open Idealize.ShloMosaic Idealize.ShloMosaic.TcCoe Idealize.ShloMosaic.ValueIdx Idealize.SL.Sem
open Idealize.ShloMosaic.Pipeline (Dat)

/-- The body's value at row `p` of a block: the block's entry times the row's norm. -/
theorem pay0_apply (x0 x1 : Vec Ideal S4000x1 .f32) (p : Fin 4000) (q : Fin 1) :
    k0_pay1 x0 x1 (ix2 p q) = x0 (ix2 p q) * x1 (ix2 p q) := by
  unfold k0_pay1
  show mulf (F := Ideal) (φ := .f32) (x0 : FVec Ideal S4000x1 .f32)
      (shapeCast S4000x1 (x1 : FVec Ideal S4000x1 .f32) shapeCasts_S4000x1_S4000x1) (ix2 p q) = _
  rw [mulf_apply, shapeCast_self]

/-- The whole-array function at row `r`: the entry times the norm of row `r`. -/
theorem scaleCol1_apply0 (h s : Cert.GraphConv.Arr Cert.ReferenceIdeal.S100000x1) (r : Fin 100000) (q : Fin 1) :
    Cert.GraphConv.scaleCol1 h s (ix2 r q) = h (ix2 r q) * s (ix2 r q) := by
  unfold Cert.GraphConv.scaleCol1
  rw [mulf_apply]

/-- One entry of a block against one entry of the whole array: equal inputs give equal results. -/
theorem block0_eq (A0 A1 : Cert.GraphConv.Arr Cert.ReferenceIdeal.S100000x1)
    (x0 x1 : Vec Ideal S4000x1 .f32) (p : Fin 4000) (q : Fin 1) (r : Fin 100000)
    (h0 : x0 (ix2 p q) = A0 (ix2 r q)) (h1 : x1 (ix2 p q) = A1 (ix2 r q)) :
    k0_pay1 x0 x1 (ix2 p q) = Cert.GraphConv.scaleCol1 A0 A1 (ix2 r q) := by
  rw [pay0_apply, scaleCol1_apply0, h0, h1]

theorem hz0 : (![0, 0] : Fin 2 → Nat) = fun _ => 0 := funext fun a => by fin_cases a <;> rfl

/-- The index maps, decided over the 25 points: both inputs' blocks move with the output's block along the rows, and no
    block index leaves its range. -/
theorem idx_facts0 : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 24 ∧ win0_2.index t (1 : Fin 2) = 0 :=
  (by decide +kernel : ∀ t : Fin grid0.N, _)

/-- Every row block is some point's. -/
theorem idx_onto0 : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the whole-array function of the arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Cert.GraphConv.scaleCol1 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S4000x1) hz0]
  obtain ⟨e0, e1, e2, e3, e4, e5⟩ := idx_facts0 t
  funext y
  obtain ⟨p, q, rfl⟩ : ∃ (p : Fin 4000) (q : Fin 1), y = ix2 p q := ⟨y 0, y 1, eq_ix2 y⟩
  have hp : p.val < 4000 := p.isLt
  have hq : q.val < 1 := q.isLt
  have hr : win0_2.index t (0 : Fin 2) * 4000 + p.val < 100000 := by omega
  show k0_pay1 (iblk0 V c 0 t) (iblk0 V c 1 t) (ix2 p q)
    = Cert.GraphConv.scaleCol1 (V c (Pipeline.arrRef spec0 0)) (V c (Pipeline.arrRef spec0 1)) (((cfg0.win 2).blk t).view.emb (ix2 p q))
  have h0 : ((cfg0.win 0).blk t).view.emb (ix2 p q) = ix2 (⟨win0_2.index t (0 : Fin 2) * 4000 + p.val, hr⟩ : Fin 100000) q := by
    funext a; apply Fin.ext
    match a with
    | ⟨0, _⟩ => show win0_0.index t (0 : Fin 2) * 4000 + 1 * p.val = win0_2.index t (0 : Fin 2) * 4000 + p.val; omega
    | ⟨1, _⟩ => show win0_0.index t (1 : Fin 2) * 1 + 1 * q.val = q.val; omega
  have h1 : ((cfg0.win 1).blk t).view.emb (ix2 p q) = ix2 (⟨win0_2.index t (0 : Fin 2) * 4000 + p.val, hr⟩ : Fin 100000) q := by
    funext a; apply Fin.ext
    match a with
    | ⟨0, _⟩ => show win0_1.index t (0 : Fin 2) * 4000 + 1 * p.val = win0_2.index t (0 : Fin 2) * 4000 + p.val; omega
    | ⟨1, _⟩ => show win0_1.index t (1 : Fin 2) * 1 + 1 * q.val = q.val; omega
  have h2 : ((cfg0.win 2).blk t).view.emb (ix2 p q) = ix2 (⟨win0_2.index t (0 : Fin 2) * 4000 + p.val, hr⟩ : Fin 100000) q := by
    funext a; apply Fin.ext
    match a with
    | ⟨0, _⟩ => show win0_2.index t (0 : Fin 2) * 4000 + 1 * p.val = win0_2.index t (0 : Fin 2) * 4000 + p.val; omega
    | ⟨1, _⟩ => show win0_2.index t (1 : Fin 2) * 1 + 1 * q.val = q.val; omega
  exact (block0_eq (V c (Pipeline.arrRef spec0 0)) (V c (Pipeline.arrRef spec0 1)) (iblk0 V c 0 t) (iblk0 V c 1 t) p q
    ⟨win0_2.index t (0 : Fin 2) * 4000 + p.val, hr⟩
    (congrArg (V c (Pipeline.arrRef spec0 0)) h0) (congrArg (V c (Pipeline.arrRef spec0 1)) h1)).trans
    (congrArg (Cert.GraphConv.scaleCol1 (V c (Pipeline.arrRef spec0 0)) (V c (Pipeline.arrRef spec0 1))) h2.symm)

/-- An index of the array is in point `t`'s block iff each coordinate is in the block's range on its axis. -/
theorem mem_blk0 (t : Fin cfg0.N) (i : S100000x1.Idx) :
    i ∈ ((cfg0.win 2).blk t).view.set ↔ ∀ a : Fin 2, win0_2.index t a * S4000x1.size a ≤ (i a).val ∧ (i a).val < win0_2.index t a * S4000x1.size a + S4000x1.size a := by
  show i ∈ ((View.whole main_v16).slice (win0_2.rect t)).set ↔ _
  rw [View.set_slice_whole, Rect.mem_set_unit]
  exact Iff.rfl

/-- Every index of the array is in some point's block: row `r` is in block `r / 4000`. -/
theorem cover0 (i : S100000x1.Idx) : ∃ t : Fin cfg0.N, (cfg0.win 2).flush t = true ∧ i ∈ ((cfg0.win 2).blk t).view.set := by
  have hi0 : (i 0).val < 100000 := (i 0).isLt
  have hi1 : (i 1).val < 1 := (i 1).isLt
  obtain ⟨t, ht⟩ := idx_onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 1 ≤ (i 1).val ∧ (i 1).val < win0_2.index t (1 : Fin 2) * 1 + 1; omega

/-- The array the region leaves: the rows of the first array scaled by the column of norms. -/
theorem final0 (V : (c : Dev nD) → (b : Ref sig .tc) → Buf (Elt Ideal) ((c : Thread nD τ).loc b)) (c : Dev nD) :
    (dat0 (F := Ideal) V c).arrAt 2 cfg0.N
      = Cert.GraphConv.scaleCol1 (V c (Pipeline.arrRef spec0 0)) (V c (Pipeline.arrRef spec0 1)) :=
  (dat0 (F := Ideal) V c).arrAt_eq_of_cover 2
    (Cert.GraphConv.scaleCol1 (V c (Pipeline.arrRef spec0 0)) (V c (Pipeline.arrRef spec0 1)))
    (fun t _ => flushed0_eq V c t) cover0

end Cert.KernelIdeal.Closed

end
-- ==== Proof.Region1.lean ====
/-
  Region 1 of the kernel: each of its 25 grid points takes a block of 4000 rows of a [100000, 1] array and of the
  [100000, 1] column of norms (here the array itself has one column), the whole [1, 32] weights and the [1, 32] bias, and writes the block
      ((h · s) W) + b
  of 4000 rows of a [100000, 32] array. Read index by index, the block at point t is the restriction to rows
  4000 t … 4000 t + 3999 of ONE whole-array function of the four arrays, and the 25 blocks cover every row; so after
  the region the output array is that function of the arrays the region found.
-/
import proofs.«176802_j51384988729797_1_alg».proof.Proof.Gen.KernelIdeal.Frame
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Idealize.ShloMosaic Idealize.ShloMosaic.ValueIdx Idealize.ShloMosaic.TcCoe Cert.KernelIdeal Cert.KernelIdeal.Gen

/-! ## The layout operations at an index -/

/-- An `[a, 1]` array broadcast to `[a, b]` reads, at `(p, c)`, the operand's row `p` at its one column. -/
theorem broadcastTo_a1_ab_apply1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The host's broadcast of an `[a, 1]` column along the second axis reads, at `(p, c)`, row `p` of the column. -/
theorem bcastCol_apply1 {α : Type} {a b : ℕ} (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The host's broadcast of a `[1, b]` row along the first axis reads, at `(p, c)`, the row at `c`. -/
theorem bcastRow_apply1 {α : Type} {a b : ℕ} (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-! ## The two products at an index -/

/-- The block product's left operand is read at the output's row … -/
theorem lhs1_row (i : S4000x32.Idx) (r : dot_S4000x1_S1x32_S4000x32_1_0_0_1_n_n.contr.Idx) : (dot_S4000x1_S1x32_S4000x32_1_0_0_1_n_n.lhsIdx i r 0).val = (i 0).val := by
  unfold DotDims.lhsIdx
  rw [dif_neg (show ¬(0 : Fin S4000x1.rank) ∈ dot_S4000x1_S1x32_S4000x32_1_0_0_1_n_n.lhsBatch by decide), dif_pos (show (0 : Fin S4000x1.rank) ∈ dot_S4000x1_S1x32_S4000x32_1_0_0_1_n_n.lhsNonContracting by decide)]
  rfl
/-- … and the right operand at the output's column. -/
theorem rhs1_col (i : S4000x32.Idx) (r : dot_S4000x1_S1x32_S4000x32_1_0_0_1_n_n.contr.Idx) : (dot_S4000x1_S1x32_S4000x32_1_0_0_1_n_n.rhsIdx i r 1).val = (i 1).val := by
  unfold DotDims.rhsIdx
  rw [dif_neg (show ¬(1 : Fin S1x32.rank) ∈ dot_S4000x1_S1x32_S4000x32_1_0_0_1_n_n.rhsBatch by decide), dif_pos (show (1 : Fin S1x32.rank) ∈ dot_S4000x1_S1x32_S4000x32_1_0_0_1_n_n.rhsNonContracting by decide)]
  rfl

/-- The block product into a zero accumulator, read at `(p, q)`: the sum over the 1 shared coordinate. -/
theorem matmul1_apply (a : FVec Ideal S4000x1 .bf16) (b : FVec Ideal S1x32 .bf16) (p : Fin 4000) (q : Fin 32) :
    matmul dot_S4000x1_S1x32_S4000x32_1_0_0_1_n_n none a b (constant S4000x32 .f32 0x00000000#32) (ix2 p q)
      = ∑ k : Fin 1, a (ix2 p k) * b (ix2 k q) := by
  simp only [matmul]
  rw [Ideal.matmul_constant_zero_apply, ← Equiv.sum_comp (contrEquiv1 dot_S4000x1_S1x32_S4000x32_1_0_0_1_n_n 1 rfl rfl).symm]
  refine Finset.sum_congr rfl fun k _ => ?_
  have hk := contrEquiv1_symm_val dot_S4000x1_S1x32_S4000x32_1_0_0_1_n_n 1 rfl rfl k
  have el : dot_S4000x1_S1x32_S4000x32_1_0_0_1_n_n.lhsIdx (ix2 p q) ((contrEquiv1 dot_S4000x1_S1x32_S4000x32_1_0_0_1_n_n 1 rfl rfl).symm k) = ix2 p k := funext fun ax => Fin.ext (by
    match ax with
    | ⟨0, _⟩ => exact lhs1_row _ _
    | ⟨1, _⟩ => exact (dot_S4000x1_S1x32_S4000x32_1_0_0_1_n_n.lhsIdx_val_of_single rfl _ _).trans hk)
  have er : dot_S4000x1_S1x32_S4000x32_1_0_0_1_n_n.rhsIdx (ix2 p q) ((contrEquiv1 dot_S4000x1_S1x32_S4000x32_1_0_0_1_n_n 1 rfl rfl).symm k) = ix2 k q := funext fun ax => Fin.ext (by
    match ax with
    | ⟨0, _⟩ => exact (dot_S4000x1_S1x32_S4000x32_1_0_0_1_n_n.rhsIdx_val_of_single rfl _ _).trans hk
    | ⟨1, _⟩ => exact rhs1_col _ _)
  rw [el, er]

/-- The whole-array product's left operand is read at the output's row … -/
theorem lhsRef1_row (i : Cert.ReferenceIdeal.S100000x32.Idx) (r : Cert.ReferenceIdeal.dot_S100000x1_S1x32_S100000x32_1_0_0_1_n_n.contr.Idx) : (Cert.ReferenceIdeal.dot_S100000x1_S1x32_S100000x32_1_0_0_1_n_n.lhsIdx i r 0).val = (i 0).val := by
  unfold DotDims.lhsIdx
  rw [dif_neg (show ¬(0 : Fin Cert.ReferenceIdeal.S100000x1.rank) ∈ Cert.ReferenceIdeal.dot_S100000x1_S1x32_S100000x32_1_0_0_1_n_n.lhsBatch by decide), dif_pos (show (0 : Fin Cert.ReferenceIdeal.S100000x1.rank) ∈ Cert.ReferenceIdeal.dot_S100000x1_S1x32_S100000x32_1_0_0_1_n_n.lhsNonContracting by decide)]
  rfl
/-- … and the right operand at the output's column. -/
theorem rhsRef1_col (i : Cert.ReferenceIdeal.S100000x32.Idx) (r : Cert.ReferenceIdeal.dot_S100000x1_S1x32_S100000x32_1_0_0_1_n_n.contr.Idx) : (Cert.ReferenceIdeal.dot_S100000x1_S1x32_S100000x32_1_0_0_1_n_n.rhsIdx i r 1).val = (i 1).val := by
  unfold DotDims.rhsIdx
  rw [dif_neg (show ¬(1 : Fin Cert.ReferenceIdeal.S1x32.rank) ∈ Cert.ReferenceIdeal.dot_S100000x1_S1x32_S100000x32_1_0_0_1_n_n.rhsBatch by decide), dif_pos (show (1 : Fin Cert.ReferenceIdeal.S1x32.rank) ∈ Cert.ReferenceIdeal.dot_S100000x1_S1x32_S100000x32_1_0_0_1_n_n.rhsNonContracting by decide)]
  rfl

/-- The whole-array product, read at `(p, q)`: the sum over the 1 shared coordinate. -/
theorem dotRef1_apply (a : FVec Ideal Cert.ReferenceIdeal.S100000x1 .f32) (b : FVec Ideal Cert.ReferenceIdeal.S1x32 .f32) (p : Fin 100000) (q : Fin 32) :
    Host.dotGeneral (F := Ideal) Cert.ReferenceIdeal.dot_S100000x1_S1x32_S100000x32_1_0_0_1_n_n none a b (ix2 p q)
      = ∑ k : Fin 1, a (ix2 p k) * b (ix2 k q) := by
  simp only [Host.dotGeneral]
  rw [Ideal.dotGeneral_apply, ← Equiv.sum_comp (contrEquiv1 Cert.ReferenceIdeal.dot_S100000x1_S1x32_S100000x32_1_0_0_1_n_n 1 rfl rfl).symm]
  refine Finset.sum_congr rfl fun k _ => ?_
  have hk := contrEquiv1_symm_val Cert.ReferenceIdeal.dot_S100000x1_S1x32_S100000x32_1_0_0_1_n_n 1 rfl rfl k
  have el : Cert.ReferenceIdeal.dot_S100000x1_S1x32_S100000x32_1_0_0_1_n_n.lhsIdx (ix2 p q) ((contrEquiv1 Cert.ReferenceIdeal.dot_S100000x1_S1x32_S100000x32_1_0_0_1_n_n 1 rfl rfl).symm k) = ix2 p k := funext fun ax => Fin.ext (by
    match ax with
    | ⟨0, _⟩ => exact lhsRef1_row _ _
    | ⟨1, _⟩ => exact (Cert.ReferenceIdeal.dot_S100000x1_S1x32_S100000x32_1_0_0_1_n_n.lhsIdx_val_of_single rfl _ _).trans hk)
  have er : Cert.ReferenceIdeal.dot_S100000x1_S1x32_S100000x32_1_0_0_1_n_n.rhsIdx (ix2 p q) ((contrEquiv1 Cert.ReferenceIdeal.dot_S100000x1_S1x32_S100000x32_1_0_0_1_n_n 1 rfl rfl).symm k) = ix2 k q := funext fun ax => Fin.ext (by
    match ax with
    | ⟨0, _⟩ => exact (Cert.ReferenceIdeal.dot_S100000x1_S1x32_S100000x32_1_0_0_1_n_n.rhsIdx_val_of_single rfl _ _).trans hk
    | ⟨1, _⟩ => exact rhsRef1_col _ _)
  rw [el, er]

/-! ## The block's value and the whole-array function, index by index -/

/-- The body's value at `(p, q)` of its block: row `p` (one entry) scaled by its norm, times column `q` of the weights, plus the bias at `q`. -/
theorem pay1_apply (x0 : Vec Ideal S4000x1 .f32) (x1 : Vec Ideal S4000x1 .f32) (x2 : Vec Ideal S1x32 .f32) (x3 : Vec Ideal S1x32 .f32)
    (p : Fin 4000) (q : Fin 32) :
    k1_pay1 x0 x1 x2 x3 (ix2 p q)
      = (∑ k : Fin 1, (x0 (ix2 p k) * x1 (ix2 p k)) * x2 (ix2 k q)) + x3 (ix2 (0 : Fin 1) q) := by
  unfold k1_pay1
  simp only [shapeCast_self]
  rw [addf_apply, broadcastTo_1b_ab_apply, matmul1_apply]
  refine congrArg (· + x3 (ix2 (0 : Fin 1) q)) (Finset.sum_congr rfl fun k _ => ?_)
  rw [truncf_apply, truncf_apply, mulf_apply]

/-- The same formula for the whole-array function at row `r`, column `q`. -/
theorem proj1to32_apply1 (h : Cert.GraphConv.Arr Cert.ReferenceIdeal.S100000x1) (s : Cert.GraphConv.Arr Cert.ReferenceIdeal.S100000x1) (w : Cert.GraphConv.Arr Cert.ReferenceIdeal.S1x32) (b : Cert.GraphConv.Arr Cert.ReferenceIdeal.S1x32)
    (r : Fin 100000) (q : Fin 32) :
    Cert.GraphConv.proj1to32 h s w b (ix2 r q)
      = (∑ k : Fin 1, (h (ix2 r k) * s (ix2 r k)) * w (ix2 k q)) + b (ix2 (0 : Fin 1) q) := by
  unfold Cert.GraphConv.proj1to32 Cert.GraphConv.scaleCol1
  rw [addf_apply, bcastRow_apply1, dotRef1_apply]
  refine congrArg (· + b (ix2 (0 : Fin 1) q)) (Finset.sum_congr rfl fun k _ => ?_)
  rw [mulf_apply]

/-- A block whose entries are the arrays' at rows `n · 4000 + p` (the weights and the bias whole) holds, at `(p, q)`, the
    whole-array function at row `n · 4000 + p`. -/
theorem block1_eq (A0 : Cert.GraphConv.Arr Cert.ReferenceIdeal.S100000x1) (A1 : Cert.GraphConv.Arr Cert.ReferenceIdeal.S100000x1) (A2 : Cert.GraphConv.Arr Cert.ReferenceIdeal.S1x32) (A3 : Cert.GraphConv.Arr Cert.ReferenceIdeal.S1x32)
    (x0 : Vec Ideal S4000x1 .f32) (x1 : Vec Ideal S4000x1 .f32) (x2 : Vec Ideal S1x32 .f32) (x3 : Vec Ideal S1x32 .f32)
    (n : ℕ) (hn : n ≤ 24)
    (h0 : ∀ (p : Fin 4000) (k : Fin 1), x0 (ix2 p k) = A0 (ix2 (⟨n * 4000 + p.val, by have := p.isLt; omega⟩ : Fin 100000) k))
    (h1 : ∀ (p : Fin 4000) (k : Fin 1), x1 (ix2 p k) = A1 (ix2 (⟨n * 4000 + p.val, by have := p.isLt; omega⟩ : Fin 100000) k))
    (h2 : ∀ (k : Fin 1) (q : Fin 32), x2 (ix2 k q) = A2 (ix2 k q))
    (h3 : ∀ q : Fin 32, x3 (ix2 (0 : Fin 1) q) = A3 (ix2 (0 : Fin 1) q))
    (p : Fin 4000) (q : Fin 32) :
    k1_pay1 x0 x1 x2 x3 (ix2 p q)
      = Cert.GraphConv.proj1to32 A0 A1 A2 A3 (ix2 (⟨n * 4000 + p.val, by have := p.isLt; omega⟩ : Fin 100000) q) := by
  rw [pay1_apply, proj1to32_apply1, h3]
  refine congrArg (· + A3 (ix2 (0 : Fin 1) q)) (Finset.sum_congr rfl fun k _ => ?_)
  rw [h0, h1, h2]

/-! ## From the blocks to the array -/

theorem zero_off1 : (![0, 0] : Fin 2 → Nat) = fun _ => 0 := funext fun a => by fin_cases a <;> rfl

/-- The printed index maps, decided over the grid: the two row-blocked inputs move with the output's row block, the
    weights and the bias stay at block 0, and the output's row block stays below 25. -/
theorem blocks1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0
    ∧ win1_4.index t (0 : Fin 2) ≤ 24 :=
  (by decide +kernel : ∀ t : Fin grid1.N, _)

/-- Every row block is some point's. -/
theorem blocks_onto1 : ∀ (n : Fin 25), ∃ t : Fin cfg1.N, win1_4.index t = ![n.val, 0] :=
  (by decide +kernel : ∀ (n : Fin 25), ∃ t : Fin grid1.N, win1_4.index t = ![n.val, 0])

set_option maxHeartbeats 1000000 in
/-- What point `t` writes back is block `t` of the whole-array function of the arrays as the region finds them. -/
theorem written1_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal)
          (Cert.GraphConv.proj1to32 (V c (Pipeline.arrRef spec1 0)) (V c (Pipeline.arrRef spec1 1)) (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero zero_off1]
  simp only [View.ld_unit_zero (S := S4000x1) zero_off1, View.ld_unit_zero (S := S4000x1) zero_off1, View.ld_unit_zero (S := S1x32) zero_off1, View.ld_unit_zero (S := S1x32) zero_off1]
  obtain ⟨e00, e01, e10, e11, e20, e21, e30, e31, e41, e4⟩ := blocks1 t
  refine funext fun (y : S4000x32.Idx) => ?_
  obtain ⟨p, q, rfl⟩ : ∃ (p : Fin 4000) (q : Fin 32), y = ix2 p q := ⟨y 0, y 1, eq_ix2 y⟩
  refine (block1_eq (V c (Pipeline.arrRef spec1 0)) (V c (Pipeline.arrRef spec1 1)) (V c (Pipeline.arrRef spec1 2)) (V c (Pipeline.arrRef spec1 3))
    (iblk1 V c 0 t) (iblk1 V c 1 t) (iblk1 V c 2 t) (iblk1 V c 3 t) (win1_4.index t (0 : Fin 2)) e4 ?_ ?_ ?_ ?_ p q).trans ?_
  · intro p k
    show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 4000 + 1 * p.val = win1_4.index t (0 : Fin 2) * 4000 + p.val; omega
    | ⟨1, _⟩ => show win1_0.index t (1 : Fin 2) * 1 + 1 * k.val = k.val; omega
  · intro p k
    show V c (Pipeline.arrRef spec1 1) (((cfg1.win 1).blk t).view.emb (ix2 p k)) = _
    refine congrArg (V c (Pipeline.arrRef spec1 1)) (funext fun a => Fin.ext ?_)
    match a with
    | ⟨0, _⟩ => show win1_1.index t (0 : Fin 2) * 4000 + 1 * p.val = win1_4.index t (0 : Fin 2) * 4000 + p.val; omega
    | ⟨1, _⟩ => show win1_1.index t (1 : Fin 2) * 1 + 1 * k.val = k.val; omega
  · intro k q
    show V c (Pipeline.arrRef spec1 2) (((cfg1.win 2).blk t).view.emb (ix2 k q)) = _
    refine congrArg (V c (Pipeline.arrRef spec1 2)) (funext fun a => Fin.ext ?_)
    match a with
    | ⟨0, _⟩ => show win1_2.index t (0 : Fin 2) * 1 + 1 * k.val = k.val; omega
    | ⟨1, _⟩ => show win1_2.index t (1 : Fin 2) * 32 + 1 * q.val = q.val; omega
  · intro q
    show V c (Pipeline.arrRef spec1 3) (((cfg1.win 3).blk t).view.emb (ix2 (0 : Fin 1) q)) = _
    refine congrArg (V c (Pipeline.arrRef spec1 3)) (funext fun a => Fin.ext ?_)
    match a with
    | ⟨0, _⟩ => show win1_3.index t (0 : Fin 2) * 1 + 1 * 0 = 0; omega
    | ⟨1, _⟩ => show win1_3.index t (1 : Fin 2) * 32 + 1 * q.val = q.val; omega
  · show _ = Cert.GraphConv.proj1to32 (V c (Pipeline.arrRef spec1 0)) (V c (Pipeline.arrRef spec1 1)) (V c (Pipeline.arrRef spec1 2)) (V c (Pipeline.arrRef spec1 3)) (((cfg1.win 4).blk t).view.emb (ix2 p q))
    refine congrArg (Cert.GraphConv.proj1to32 (V c (Pipeline.arrRef spec1 0)) (V c (Pipeline.arrRef spec1 1)) (V c (Pipeline.arrRef spec1 2)) (V c (Pipeline.arrRef spec1 3))) (funext fun a => Fin.ext ?_)
    match a with
    | ⟨0, _⟩ => show win1_4.index t (0 : Fin 2) * 4000 + p.val = win1_4.index t (0 : Fin 2) * 4000 + 1 * p.val; omega
    | ⟨1, _⟩ => show q.val = win1_4.index t (1 : Fin 2) * 32 + 1 * q.val; omega

/-- An index of the output array is in point `t`'s block iff each coordinate is in the block's range on its axis. -/
theorem mem_block1 (t : Fin cfg1.N) (i : S100000x32.Idx) :
    i ∈ ((cfg1.win 4).blk t).view.set ↔ ∀ a : Fin 2, win1_4.index t a * S4000x32.size a ≤ (i a).val ∧ (i a).val < win1_4.index t a * S4000x32.size a + S4000x32.size a := by
  show i ∈ ((View.whole main_v29).slice (win1_4.rect t)).set ↔ _
  rw [View.set_slice_whole, Rect.mem_set_unit]
  exact Iff.rfl

/-- Every index of the output array is in the block of the point whose row block is its row divided by 4000. -/
theorem covered1 (i : S100000x32.Idx) : ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := blocks_onto1 ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_block1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 32 ≤ (i 1).val ∧ (i 1).val < win1_4.index t (1 : Fin 2) * 32 + 32; omega

/-- The output array after the region: the whole-array function of the four arrays the region found. -/
theorem final1 (V : (c : Dev nD) → (b : Ref sig .tc) → Buf (Elt Ideal) ((c : Thread nD τ).loc b)) (c : Dev nD) :
    (dat1 (F := Ideal) V c).arrAt 4 cfg1.N
      = Cert.GraphConv.proj1to32 (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => written1_eq V c t) covered1

end Cert.KernelIdeal.Closed

end
-- ==== Proof.Region2.lean ====
/-
  The layer half "row r of a 32-column array times entry r of the column of norms", as the tiled program computes it:
  25 row blocks of 4000 rows each, every block the same pointwise function of its rows.  The array the blocks leave
  is that function of the whole arrays.
-/
import proofs.«176802_j51384988729797_1_alg».proof.Proof.Gen.KernelIdeal.Frame
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen
open Idealize.ShloMosaic Idealize.ShloMosaic.TcCoe Idealize.ShloMosaic.ValueIdx Idealize.SL.Sem
open Idealize.ShloMosaic.Pipeline (Dat)

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row `p`, column `q` of a block: the block's entry times the row's norm. -/
theorem pay2_apply (x0 : Vec Ideal S4000x32 .f32) (x1 : Vec Ideal S4000x1 .f32) (p : Fin 4000) (q : Fin 32) :
    k2_pay1 x0 x1 (ix2 p q) = x0 (ix2 p q) * x1 (ix2 p (0 : Fin 1)) := by
  unfold k2_pay1
  show mulf (F := Ideal) (φ := .f32) (shapeCast S4000x32 (x0 : FVec Ideal S4000x32 .f32) shapeCasts_S4000x32_S4000x32)
      (broadcastTo S4000x32 (shapeCast S4000x1 (x1 : FVec Ideal S4000x1 .f32) shapeCasts_S4000x1_S4000x1) broadcasts_S4000x1_S4000x32) (ix2 p q) = _
  rw [mulf_apply, shapeCast_self, shapeCast_self]
  exact congrArg (x0 (ix2 p q) * ·) (broadcastTo_a1_ab_apply x1 broadcasts_S4000x1_S4000x32 p q)

/-- The whole-array function at row `r`, column `q`: the entry times the norm of row `r`. -/
theorem scaleCol32_apply2 (h : Cert.GraphConv.Arr Cert.ReferenceIdeal.S100000x32) (s : Cert.GraphConv.Arr Cert.ReferenceIdeal.S100000x1)
    (r : Fin 100000) (q : Fin 32) :
    Cert.GraphConv.scaleCol32 h s (ix2 r q) = h (ix2 r q) * s (ix2 r (0 : Fin 1)) := by
  unfold Cert.GraphConv.scaleCol32
  rw [mulf_apply]
  refine congrArg (h (ix2 r q) * ·) ?_
  exact broadcastInDim_apply _ Cert.ReferenceIdeal.Gen.bcast_S100000x1_S100000x32_0_1 s (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- One entry of a block against one entry of the whole array: equal inputs give equal results. -/
theorem block2_eq (A0 : Cert.GraphConv.Arr Cert.ReferenceIdeal.S100000x32) (A1 : Cert.GraphConv.Arr Cert.ReferenceIdeal.S100000x1)
    (x0 : Vec Ideal S4000x32 .f32) (x1 : Vec Ideal S4000x1 .f32) (p : Fin 4000) (q : Fin 32) (r : Fin 100000)
    (h0 : x0 (ix2 p q) = A0 (ix2 r q)) (h1 : x1 (ix2 p (0 : Fin 1)) = A1 (ix2 r (0 : Fin 1))) :
    k2_pay1 x0 x1 (ix2 p q) = Cert.GraphConv.scaleCol32 A0 A1 (ix2 r q) := by
  rw [pay2_apply, scaleCol32_apply2, h0, h1]

theorem hz2 : (![0, 0] : Fin 2 → Nat) = fun _ => 0 := funext fun a => by fin_cases a <;> rfl

/-- The index maps, decided over the 25 points: both inputs' blocks move with the output's block along the rows, and no
    block index leaves its range. -/
theorem idx_facts2 : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (0 : Fin 2) ≤ 24 ∧ win2_2.index t (1 : Fin 2) = 0 :=
  (by decide +kernel : ∀ t : Fin grid2.N, _)

/-- Every row block is some point's. -/
theorem idx_onto2 : ∀ q0 : Fin 25, ∃ t : Fin cfg2.N, win2_2.index t = ![q0.val, 0] :=
  (by decide +kernel : ∀ q0 : Fin 25, ∃ t : Fin grid2.N, win2_2.index t = ![q0.val, 0])

/-- What point `t` writes back is block `t` of the whole-array function of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (Cert.GraphConv.scaleCol32 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz2]
  simp only [View.ld_unit_zero (S := S4000x32) hz2, View.ld_unit_zero (S := S4000x1) hz2]
  obtain ⟨e0, e1, e2, e3, e4, e5⟩ := idx_facts2 t
  funext y
  obtain ⟨p, q, rfl⟩ : ∃ (p : Fin 4000) (q : Fin 32), y = ix2 p q := ⟨y 0, y 1, eq_ix2 y⟩
  have hp : p.val < 4000 := p.isLt
  have hr : win2_2.index t (0 : Fin 2) * 4000 + p.val < 100000 := by omega
  show k2_pay1 (iblk2 V c 0 t) (iblk2 V c 1 t) (ix2 p q)
    = Cert.GraphConv.scaleCol32 (V c (Pipeline.arrRef spec2 0)) (V c (Pipeline.arrRef spec2 1)) (((cfg2.win 2).blk t).view.emb (ix2 p q))
  have h0 : ((cfg2.win 0).blk t).view.emb (ix2 p q) = ix2 (⟨win2_2.index t (0 : Fin 2) * 4000 + p.val, hr⟩ : Fin 100000) q := by
    funext a; apply Fin.ext
    match a with
    | ⟨0, _⟩ => show win2_0.index t (0 : Fin 2) * 4000 + 1 * p.val = win2_2.index t (0 : Fin 2) * 4000 + p.val; omega
    | ⟨1, _⟩ => show win2_0.index t (1 : Fin 2) * 32 + 1 * q.val = q.val; omega
  have h1 : ((cfg2.win 1).blk t).view.emb (ix2 p (0 : Fin 1)) = ix2 (⟨win2_2.index t (0 : Fin 2) * 4000 + p.val, hr⟩ : Fin 100000) (0 : Fin 1) := by
    funext a; apply Fin.ext
    match a with
    | ⟨0, _⟩ => show win2_1.index t (0 : Fin 2) * 4000 + 1 * p.val = win2_2.index t (0 : Fin 2) * 4000 + p.val; omega
    | ⟨1, _⟩ => show win2_1.index t (1 : Fin 2) * 1 + 1 * 0 = 0; omega
  have h2 : ((cfg2.win 2).blk t).view.emb (ix2 p q) = ix2 (⟨win2_2.index t (0 : Fin 2) * 4000 + p.val, hr⟩ : Fin 100000) q := by
    funext a; apply Fin.ext
    match a with
    | ⟨0, _⟩ => show win2_2.index t (0 : Fin 2) * 4000 + 1 * p.val = win2_2.index t (0 : Fin 2) * 4000 + p.val; omega
    | ⟨1, _⟩ => show win2_2.index t (1 : Fin 2) * 32 + 1 * q.val = q.val; omega
  exact (block2_eq (V c (Pipeline.arrRef spec2 0)) (V c (Pipeline.arrRef spec2 1)) (iblk2 V c 0 t) (iblk2 V c 1 t) p q
    ⟨win2_2.index t (0 : Fin 2) * 4000 + p.val, hr⟩
    (congrArg (V c (Pipeline.arrRef spec2 0)) h0) (congrArg (V c (Pipeline.arrRef spec2 1)) h1)).trans
    (congrArg (Cert.GraphConv.scaleCol32 (V c (Pipeline.arrRef spec2 0)) (V c (Pipeline.arrRef spec2 1))) h2.symm)

/-- An index of the array is in point `t`'s block iff each coordinate is in the block's range on its axis. -/
theorem mem_blk2 (t : Fin cfg2.N) (i : S100000x32.Idx) :
    i ∈ ((cfg2.win 2).blk t).view.set ↔ ∀ a : Fin 2, win2_2.index t a * S4000x32.size a ≤ (i a).val ∧ (i a).val < win2_2.index t a * S4000x32.size a + S4000x32.size a := by
  show i ∈ ((View.whole main_v31).slice (win2_2.rect t)).set ↔ _
  rw [View.set_slice_whole, Rect.mem_set_unit]
  exact Iff.rfl

/-- Every index of the array is in some point's block: row `r` is in block `r / 4000`. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := idx_onto2 ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 32 ≤ (i 1).val ∧ (i 1).val < win2_2.index t (1 : Fin 2) * 32 + 32; omega

/-- The array the region leaves: the rows of the first array scaled by the column of norms. -/
theorem final2 (V : (c : Dev nD) → (b : Ref sig .tc) → Buf (Elt Ideal) ((c : Thread nD τ).loc b)) (c : Dev nD) :
    (dat2 (F := Ideal) V c).arrAt 2 cfg2.N
      = Cert.GraphConv.scaleCol32 (V c (Pipeline.arrRef spec2 0)) (V c (Pipeline.arrRef spec2 1)) :=
  (dat2 (F := Ideal) V c).arrAt_eq_of_cover 2
    (Cert.GraphConv.scaleCol32 (V c (Pipeline.arrRef spec2 0)) (V c (Pipeline.arrRef spec2 1)))
    (fun t _ => flushed2_eq V c t) cover2

end Cert.KernelIdeal.Closed

end
-- ==== Proof.Region3.lean ====
/-
  Region 3 of the kernel: each of its 25 grid points takes a block of 4000 rows of a [100000, 32] array and of the
  [100000, 1] column of norms, the whole [32, 64] weights and the [1, 64] bias, and writes the block
      ((h · s) W) + b
  of 4000 rows of a [100000, 64] array. Read index by index, the block at point t is the restriction to rows
  4000 t … 4000 t + 3999 of ONE whole-array function of the four arrays, and the 25 blocks cover every row; so after
  the region the output array is that function of the arrays the region found.
-/
import proofs.«176802_j51384988729797_1_alg».proof.Proof.Gen.KernelIdeal.Frame
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Idealize.ShloMosaic Idealize.ShloMosaic.ValueIdx Idealize.ShloMosaic.TcCoe Cert.KernelIdeal Cert.KernelIdeal.Gen

/-! ## The layout operations at an index -/

/-- An `[a, 1]` array broadcast to `[a, b]` reads, at `(p, c)`, the operand's row `p` at its one column. -/
theorem broadcastTo_a1_ab_apply3 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The host's broadcast of an `[a, 1]` column along the second axis reads, at `(p, c)`, row `p` of the column. -/
theorem bcastCol_apply3 {α : Type} {a b : ℕ} (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The host's broadcast of a `[1, b]` row along the first axis reads, at `(p, c)`, the row at `c`. -/
theorem bcastRow_apply3 {α : Type} {a b : ℕ} (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-! ## The two products at an index -/

/-- The block product's left operand is read at the output's row … -/
theorem lhs3_row (i : S4000x64.Idx) (r : dot_S4000x32_S32x64_S4000x64_1_0_0_1_n_n.contr.Idx) : (dot_S4000x32_S32x64_S4000x64_1_0_0_1_n_n.lhsIdx i r 0).val = (i 0).val := by
  unfold DotDims.lhsIdx
  rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
  rfl
/-- … and the right operand at the output's column. -/
theorem rhs3_col (i : S4000x64.Idx) (r : dot_S4000x32_S32x64_S4000x64_1_0_0_1_n_n.contr.Idx) : (dot_S4000x32_S32x64_S4000x64_1_0_0_1_n_n.rhsIdx i r 1).val = (i 1).val := by
  unfold DotDims.rhsIdx
  rw [dif_neg (show ¬(1 : Fin S32x64.rank) ∈ dot_S4000x32_S32x64_S4000x64_1_0_0_1_n_n.rhsBatch by decide), dif_pos (show (1 : Fin S32x64.rank) ∈ dot_S4000x32_S32x64_S4000x64_1_0_0_1_n_n.rhsNonContracting by decide)]
  rfl

/-- The block product into a zero accumulator, read at `(p, q)`: the sum over the 32 shared coordinates. -/
theorem matmul3_apply (a : FVec Ideal S4000x32 .bf16) (b : FVec Ideal S32x64 .bf16) (p : Fin 4000) (q : Fin 64) :
    matmul dot_S4000x32_S32x64_S4000x64_1_0_0_1_n_n none a b (constant S4000x64 .f32 0x00000000#32) (ix2 p q)
      = ∑ k : Fin 32, a (ix2 p k) * b (ix2 k q) := by
  simp only [matmul]
  rw [Ideal.matmul_constant_zero_apply, ← Equiv.sum_comp (contrEquiv1 dot_S4000x32_S32x64_S4000x64_1_0_0_1_n_n 32 rfl rfl).symm]
  refine Finset.sum_congr rfl fun k _ => ?_
  have hk := contrEquiv1_symm_val dot_S4000x32_S32x64_S4000x64_1_0_0_1_n_n 32 rfl rfl k
  have el : dot_S4000x32_S32x64_S4000x64_1_0_0_1_n_n.lhsIdx (ix2 p q) ((contrEquiv1 dot_S4000x32_S32x64_S4000x64_1_0_0_1_n_n 32 rfl rfl).symm k) = ix2 p k := funext fun ax => Fin.ext (by
    match ax with
    | ⟨0, _⟩ => exact lhs3_row _ _
    | ⟨1, _⟩ => exact (dot_S4000x32_S32x64_S4000x64_1_0_0_1_n_n.lhsIdx_val_of_single rfl _ _).trans hk)
  have er : dot_S4000x32_S32x64_S4000x64_1_0_0_1_n_n.rhsIdx (ix2 p q) ((contrEquiv1 dot_S4000x32_S32x64_S4000x64_1_0_0_1_n_n 32 rfl rfl).symm k) = ix2 k q := funext fun ax => Fin.ext (by
    match ax with
    | ⟨0, _⟩ => exact (dot_S4000x32_S32x64_S4000x64_1_0_0_1_n_n.rhsIdx_val_of_single rfl _ _).trans hk
    | ⟨1, _⟩ => exact rhs3_col _ _)
  rw [el, er]

/-- The whole-array product's left operand is read at the output's row … -/
theorem lhsRef3_row (i : Cert.ReferenceIdeal.S100000x64.Idx) (r : Cert.ReferenceIdeal.dot_S100000x32_S32x64_S100000x64_1_0_0_1_n_n.contr.Idx) : (Cert.ReferenceIdeal.dot_S100000x32_S32x64_S100000x64_1_0_0_1_n_n.lhsIdx i r 0).val = (i 0).val := by
  unfold DotDims.lhsIdx
  rw [dif_neg (show ¬(0 : Fin Cert.ReferenceIdeal.S100000x32.rank) ∈ Cert.ReferenceIdeal.dot_S100000x32_S32x64_S100000x64_1_0_0_1_n_n.lhsBatch by decide), dif_pos (show (0 : Fin Cert.ReferenceIdeal.S100000x32.rank) ∈ Cert.ReferenceIdeal.dot_S100000x32_S32x64_S100000x64_1_0_0_1_n_n.lhsNonContracting by decide)]
  rfl
/-- … and the right operand at the output's column. -/
theorem rhsRef3_col (i : Cert.ReferenceIdeal.S100000x64.Idx) (r : Cert.ReferenceIdeal.dot_S100000x32_S32x64_S100000x64_1_0_0_1_n_n.contr.Idx) : (Cert.ReferenceIdeal.dot_S100000x32_S32x64_S100000x64_1_0_0_1_n_n.rhsIdx i r 1).val = (i 1).val := by
  unfold DotDims.rhsIdx
  rw [dif_neg (show ¬(1 : Fin Cert.ReferenceIdeal.S32x64.rank) ∈ Cert.ReferenceIdeal.dot_S100000x32_S32x64_S100000x64_1_0_0_1_n_n.rhsBatch by decide), dif_pos (show (1 : Fin Cert.ReferenceIdeal.S32x64.rank) ∈ Cert.ReferenceIdeal.dot_S100000x32_S32x64_S100000x64_1_0_0_1_n_n.rhsNonContracting by decide)]
  rfl

/-- The whole-array product, read at `(p, q)`: the sum over the 32 shared coordinates. -/
theorem dotRef3_apply (a : FVec Ideal Cert.ReferenceIdeal.S100000x32 .f32) (b : FVec Ideal Cert.ReferenceIdeal.S32x64 .f32) (p : Fin 100000) (q : Fin 64) :
    Host.dotGeneral (F := Ideal) Cert.ReferenceIdeal.dot_S100000x32_S32x64_S100000x64_1_0_0_1_n_n none a b (ix2 p q)
      = ∑ k : Fin 32, a (ix2 p k) * b (ix2 k q) := by
  simp only [Host.dotGeneral]
  rw [Ideal.dotGeneral_apply, ← Equiv.sum_comp (contrEquiv1 Cert.ReferenceIdeal.dot_S100000x32_S32x64_S100000x64_1_0_0_1_n_n 32 rfl rfl).symm]
  refine Finset.sum_congr rfl fun k _ => ?_
  have hk := contrEquiv1_symm_val Cert.ReferenceIdeal.dot_S100000x32_S32x64_S100000x64_1_0_0_1_n_n 32 rfl rfl k
  have el : Cert.ReferenceIdeal.dot_S100000x32_S32x64_S100000x64_1_0_0_1_n_n.lhsIdx (ix2 p q) ((contrEquiv1 Cert.ReferenceIdeal.dot_S100000x32_S32x64_S100000x64_1_0_0_1_n_n 32 rfl rfl).symm k) = ix2 p k := funext fun ax => Fin.ext (by
    match ax with
    | ⟨0, _⟩ => exact lhsRef3_row _ _
    | ⟨1, _⟩ => exact (Cert.ReferenceIdeal.dot_S100000x32_S32x64_S100000x64_1_0_0_1_n_n.lhsIdx_val_of_single rfl _ _).trans hk)
  have er : Cert.ReferenceIdeal.dot_S100000x32_S32x64_S100000x64_1_0_0_1_n_n.rhsIdx (ix2 p q) ((contrEquiv1 Cert.ReferenceIdeal.dot_S100000x32_S32x64_S100000x64_1_0_0_1_n_n 32 rfl rfl).symm k) = ix2 k q := funext fun ax => Fin.ext (by
    match ax with
    | ⟨0, _⟩ => exact (Cert.ReferenceIdeal.dot_S100000x32_S32x64_S100000x64_1_0_0_1_n_n.rhsIdx_val_of_single rfl _ _).trans hk
    | ⟨1, _⟩ => exact rhsRef3_col _ _)
  rw [el, er]

/-! ## The block's value and the whole-array function, index by index -/

/-- The body's value at `(p, q)` of its block: row `p` scaled by its norm, times column `q` of the weights, plus the bias at `q`. -/
theorem pay3_apply (x0 : Vec Ideal S4000x32 .f32) (x1 : Vec Ideal S4000x1 .f32) (x2 : Vec Ideal S32x64 .f32) (x3 : Vec Ideal S1x64 .f32)
    (p : Fin 4000) (q : Fin 64) :
    k3_pay1 x0 x1 x2 x3 (ix2 p q)
      = (∑ k : Fin 32, (x0 (ix2 p k) * x1 (ix2 p (0 : Fin 1))) * x2 (ix2 k q)) + x3 (ix2 (0 : Fin 1) q) := by
  unfold k3_pay1
  simp only [shapeCast_self]
  rw [addf_apply, broadcastTo_1b_ab_apply, matmul3_apply]
  refine congrArg (· + x3 (ix2 (0 : Fin 1) q)) (Finset.sum_congr rfl fun k _ => ?_)
  rw [truncf_apply, truncf_apply, mulf_apply, broadcastTo_a1_ab_apply3]

/-- The same formula for the whole-array function at row `r`, column `q`. -/
theorem proj32to64_apply3 (h : Cert.GraphConv.Arr Cert.ReferenceIdeal.S100000x32) (s : Cert.GraphConv.Arr Cert.ReferenceIdeal.S100000x1) (w : Cert.GraphConv.Arr Cert.ReferenceIdeal.S32x64) (b : Cert.GraphConv.Arr Cert.ReferenceIdeal.S1x64)
    (r : Fin 100000) (q : Fin 64) :
    Cert.GraphConv.proj32to64 h s w b (ix2 r q)
      = (∑ k : Fin 32, (h (ix2 r k) * s (ix2 r (0 : Fin 1))) * w (ix2 k q)) + b (ix2 (0 : Fin 1) q) := by
  unfold Cert.GraphConv.proj32to64 Cert.GraphConv.scaleCol32
  rw [addf_apply, bcastRow_apply3, dotRef3_apply]
  refine congrArg (· + b (ix2 (0 : Fin 1) q)) (Finset.sum_congr rfl fun k _ => ?_)
  rw [mulf_apply, bcastCol_apply3]

/-- A block whose entries are the arrays' at rows `n · 4000 + p` (the weights and the bias whole) holds, at `(p, q)`, the
    whole-array function at row `n · 4000 + p`. -/
theorem block3_eq (A0 : Cert.GraphConv.Arr Cert.ReferenceIdeal.S100000x32) (A1 : Cert.GraphConv.Arr Cert.ReferenceIdeal.S100000x1) (A2 : Cert.GraphConv.Arr Cert.ReferenceIdeal.S32x64) (A3 : Cert.GraphConv.Arr Cert.ReferenceIdeal.S1x64)
    (x0 : Vec Ideal S4000x32 .f32) (x1 : Vec Ideal S4000x1 .f32) (x2 : Vec Ideal S32x64 .f32) (x3 : Vec Ideal S1x64 .f32)
    (n : ℕ) (hn : n ≤ 24)
    (h0 : ∀ (p : Fin 4000) (k : Fin 32), x0 (ix2 p k) = A0 (ix2 (⟨n * 4000 + p.val, by have := p.isLt; omega⟩ : Fin 100000) k))
    (h1 : ∀ p : Fin 4000, x1 (ix2 p (0 : Fin 1)) = A1 (ix2 (⟨n * 4000 + p.val, by have := p.isLt; omega⟩ : Fin 100000) (0 : Fin 1)))
    (h2 : ∀ (k : Fin 32) (q : Fin 64), x2 (ix2 k q) = A2 (ix2 k q))
    (h3 : ∀ q : Fin 64, x3 (ix2 (0 : Fin 1) q) = A3 (ix2 (0 : Fin 1) q))
    (p : Fin 4000) (q : Fin 64) :
    k3_pay1 x0 x1 x2 x3 (ix2 p q)
      = Cert.GraphConv.proj32to64 A0 A1 A2 A3 (ix2 (⟨n * 4000 + p.val, by have := p.isLt; omega⟩ : Fin 100000) q) := by
  rw [pay3_apply, proj32to64_apply3, h3]
  refine congrArg (· + A3 (ix2 (0 : Fin 1) q)) (Finset.sum_congr rfl fun k _ => ?_)
  rw [h0, h1, h2]

/-! ## From the blocks to the array -/

theorem zero_off3 : (![0, 0] : Fin 2 → Nat) = fun _ => 0 := funext fun a => by fin_cases a <;> rfl

/-- The printed index maps, decided over the grid: the two row-blocked inputs move with the output's row block, the
    weights and the bias stay at block 0, and the output's row block stays below 25. -/
theorem blocks3 : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0
    ∧ win3_4.index t (0 : Fin 2) ≤ 24 :=
  (by decide +kernel : ∀ t : Fin grid3.N, _)

/-- Every row block is some point's. -/
theorem blocks_onto3 : ∀ (n : Fin 25), ∃ t : Fin cfg3.N, win3_4.index t = ![n.val, 0] :=
  (by decide +kernel : ∀ (n : Fin 25), ∃ t : Fin grid3.N, win3_4.index t = ![n.val, 0])

set_option maxHeartbeats 1000000 in
/-- What point `t` writes back is block `t` of the whole-array function of the arrays as the region finds them. -/
theorem written3_eq (V : (c : Dev nD) → (b : Ref sig .tc) → Buf (Elt Ideal) ((c : Thread nD τ).loc b)) (c : Dev nD) (t : Fin cfg3.N) :
    (dat3 (F := Ideal) V c).flushed 4 t
      = ((cfg3.win 4).blk t).view.read (Elt Ideal)
          (Cert.GraphConv.proj32to64 (V c (Pipeline.arrRef spec3 0)) (V c (Pipeline.arrRef spec3 1)) (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero zero_off3]
  simp only [View.ld_unit_zero (S := S4000x32) zero_off3, View.ld_unit_zero (S := S4000x1) zero_off3, View.ld_unit_zero (S := S32x64) zero_off3, View.ld_unit_zero (S := S1x64) zero_off3]
  obtain ⟨e00, e01, e10, e11, e20, e21, e30, e31, e41, e4⟩ := blocks3 t
  refine funext fun (y : S4000x64.Idx) => ?_
  obtain ⟨p, q, rfl⟩ : ∃ (p : Fin 4000) (q : Fin 64), y = ix2 p q := ⟨y 0, y 1, eq_ix2 y⟩
  refine (block3_eq (V c (Pipeline.arrRef spec3 0)) (V c (Pipeline.arrRef spec3 1)) (V c (Pipeline.arrRef spec3 2)) (V c (Pipeline.arrRef spec3 3))
    (iblk3 V c 0 t) (iblk3 V c 1 t) (iblk3 V c 2 t) (iblk3 V c 3 t) (win3_4.index t (0 : Fin 2)) e4 ?_ ?_ ?_ ?_ p q).trans ?_
  · intro p k
    show V c (Pipeline.arrRef spec3 0) (((cfg3.win 0).blk t).view.emb (ix2 p k)) = _
    refine congrArg (V c (Pipeline.arrRef spec3 0)) (funext fun a => Fin.ext ?_)
    match a with
    | ⟨0, _⟩ => show win3_0.index t (0 : Fin 2) * 4000 + 1 * p.val = win3_4.index t (0 : Fin 2) * 4000 + p.val; omega
    | ⟨1, _⟩ => show win3_0.index t (1 : Fin 2) * 32 + 1 * k.val = k.val; omega
  · intro p
    show V c (Pipeline.arrRef spec3 1) (((cfg3.win 1).blk t).view.emb (ix2 p (0 : Fin 1))) = _
    refine congrArg (V c (Pipeline.arrRef spec3 1)) (funext fun a => Fin.ext ?_)
    match a with
    | ⟨0, _⟩ => show win3_1.index t (0 : Fin 2) * 4000 + 1 * p.val = win3_4.index t (0 : Fin 2) * 4000 + p.val; omega
    | ⟨1, _⟩ => show win3_1.index t (1 : Fin 2) * 1 + 1 * 0 = 0; omega
  · intro k q
    show V c (Pipeline.arrRef spec3 2) (((cfg3.win 2).blk t).view.emb (ix2 k q)) = _
    refine congrArg (V c (Pipeline.arrRef spec3 2)) (funext fun a => Fin.ext ?_)
    match a with
    | ⟨0, _⟩ => show win3_2.index t (0 : Fin 2) * 32 + 1 * k.val = k.val; omega
    | ⟨1, _⟩ => show win3_2.index t (1 : Fin 2) * 64 + 1 * q.val = q.val; omega
  · intro q
    show V c (Pipeline.arrRef spec3 3) (((cfg3.win 3).blk t).view.emb (ix2 (0 : Fin 1) q)) = _
    refine congrArg (V c (Pipeline.arrRef spec3 3)) (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  · show _ = Cert.GraphConv.proj32to64 (V c (Pipeline.arrRef spec3 0)) (V c (Pipeline.arrRef spec3 1)) (V c (Pipeline.arrRef spec3 2)) (V c (Pipeline.arrRef spec3 3)) (((cfg3.win 4).blk t).view.emb (ix2 p q))
    refine congrArg (Cert.GraphConv.proj32to64 (V c (Pipeline.arrRef spec3 0)) (V c (Pipeline.arrRef spec3 1)) (V c (Pipeline.arrRef spec3 2)) (V c (Pipeline.arrRef spec3 3))) (funext fun a => Fin.ext ?_)
    match a with
    | ⟨0, _⟩ => show win3_4.index t (0 : Fin 2) * 4000 + p.val = win3_4.index t (0 : Fin 2) * 4000 + 1 * p.val; omega
    | ⟨1, _⟩ => show q.val = win3_4.index t (1 : Fin 2) * 64 + 1 * q.val; omega

/-- An index of the output array is in point `t`'s block iff each coordinate is in the block's range on its axis. -/
theorem mem_block3 (t : Fin cfg3.N) (i : S100000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v44).slice (win3_4.rect t)).set ↔ _
  rw [View.set_slice_whole, Rect.mem_set_unit]
  exact Iff.rfl

/-- Every index of the output array is in the block of the point whose row block is its row divided by 4000. -/
theorem covered3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := blocks_onto3 ⟨(i 0).val / 4000, by omega⟩
  have q0 : win3_4.index t (0 : Fin 2) = (i 0).val / 4000 := congrFun ht 0
  have q1 : win3_4.index t (1 : Fin 2) = 0 := congrFun ht 1
  refine ⟨t, flush3_4 t, ?_⟩
  rw [mem_block3]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 64 ≤ (i 1).val ∧ (i 1).val < win3_4.index t (1 : Fin 2) * 64 + 64; omega

/-- The output array after the region: the whole-array function of the four arrays the region found. -/
theorem final3 (V : (c : Dev nD) → (b : Ref sig .tc) → Buf (Elt Ideal) ((c : Thread nD τ).loc b)) (c : Dev nD) :
    (dat3 (F := Ideal) V c).arrAt 4 cfg3.N
      = Cert.GraphConv.proj32to64 (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => written3_eq V c t) covered3

end Cert.KernelIdeal.Closed

end
-- ==== Proof.Region4.lean ====
/-
  The layer half "row r of a 64-column array times entry r of the column of norms", as the tiled program computes it:
  25 row blocks of 4000 rows each, every block the same pointwise function of its rows.  The array the blocks leave
  is that function of the whole arrays.
-/
import proofs.«176802_j51384988729797_1_alg».proof.Proof.Gen.KernelIdeal.Frame
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen
open Idealize.ShloMosaic Idealize.ShloMosaic.TcCoe Idealize.ShloMosaic.ValueIdx Idealize.SL.Sem
open Idealize.ShloMosaic.Pipeline (Dat)

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row `p`, column `q` of a block: the block's entry times the row's norm. -/
theorem pay4_apply (x0 : Vec Ideal S4000x64 .f32) (x1 : Vec Ideal S4000x1 .f32) (p : Fin 4000) (q : Fin 64) :
    k4_pay1 x0 x1 (ix2 p q) = x0 (ix2 p q) * x1 (ix2 p (0 : Fin 1)) := by
  unfold k4_pay1
  show mulf (F := Ideal) (φ := .f32) (shapeCast S4000x64 (x0 : FVec Ideal S4000x64 .f32) shapeCasts_S4000x64_S4000x64)
      (broadcastTo S4000x64 (shapeCast S4000x1 (x1 : FVec Ideal S4000x1 .f32) shapeCasts_S4000x1_S4000x1) broadcasts_S4000x1_S4000x64) (ix2 p q) = _
  rw [mulf_apply, shapeCast_self, shapeCast_self]
  exact congrArg (x0 (ix2 p q) * ·) (broadcastTo_a1_ab_apply x1 broadcasts_S4000x1_S4000x64 p q)

/-- The whole-array function at row `r`, column `q`: the entry times the norm of row `r`. -/
theorem scaleCol64_apply4 (h : Cert.GraphConv.Arr Cert.ReferenceIdeal.S100000x64) (s : Cert.GraphConv.Arr Cert.ReferenceIdeal.S100000x1)
    (r : Fin 100000) (q : Fin 64) :
    Cert.GraphConv.scaleCol64 h s (ix2 r q) = h (ix2 r q) * s (ix2 r (0 : Fin 1)) := by
  unfold Cert.GraphConv.scaleCol64
  rw [mulf_apply]
  refine congrArg (h (ix2 r q) * ·) ?_
  exact broadcastInDim_apply _ Cert.ReferenceIdeal.Gen.bcast_S100000x1_S100000x64_0_1 s (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- One entry of a block against one entry of the whole array: equal inputs give equal results. -/
theorem block4_eq (A0 : Cert.GraphConv.Arr Cert.ReferenceIdeal.S100000x64) (A1 : Cert.GraphConv.Arr Cert.ReferenceIdeal.S100000x1)
    (x0 : Vec Ideal S4000x64 .f32) (x1 : Vec Ideal S4000x1 .f32) (p : Fin 4000) (q : Fin 64) (r : Fin 100000)
    (h0 : x0 (ix2 p q) = A0 (ix2 r q)) (h1 : x1 (ix2 p (0 : Fin 1)) = A1 (ix2 r (0 : Fin 1))) :
    k4_pay1 x0 x1 (ix2 p q) = Cert.GraphConv.scaleCol64 A0 A1 (ix2 r q) := by
  rw [pay4_apply, scaleCol64_apply4, h0, h1]

theorem hz4 : (![0, 0] : Fin 2 → Nat) = fun _ => 0 := funext fun a => by fin_cases a <;> rfl

/-- The index maps, decided over the 25 points: both inputs' blocks move with the output's block along the rows, and no
    block index leaves its range. -/
theorem idx_facts4 : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (0 : Fin 2) ≤ 24 ∧ win4_2.index t (1 : Fin 2) = 0 :=
  (by decide +kernel : ∀ t : Fin grid4.N, _)

/-- Every row block is some point's. -/
theorem idx_onto4 : ∀ q0 : Fin 25, ∃ t : Fin cfg4.N, win4_2.index t = ![q0.val, 0] :=
  (by decide +kernel : ∀ q0 : Fin 25, ∃ t : Fin grid4.N, win4_2.index t = ![q0.val, 0])

/-- What point `t` writes back is block `t` of the whole-array function of the arrays as the region finds them. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (Cert.GraphConv.scaleCol64 (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero hz4]
  simp only [View.ld_unit_zero (S := S4000x64) hz4, View.ld_unit_zero (S := S4000x1) hz4]
  obtain ⟨e0, e1, e2, e3, e4, e5⟩ := idx_facts4 t
  funext y
  obtain ⟨p, q, rfl⟩ : ∃ (p : Fin 4000) (q : Fin 64), y = ix2 p q := ⟨y 0, y 1, eq_ix2 y⟩
  have hp : p.val < 4000 := p.isLt
  have hr : win4_2.index t (0 : Fin 2) * 4000 + p.val < 100000 := by omega
  show k4_pay1 (iblk4 V c 0 t) (iblk4 V c 1 t) (ix2 p q)
    = Cert.GraphConv.scaleCol64 (V c (Pipeline.arrRef spec4 0)) (V c (Pipeline.arrRef spec4 1)) (((cfg4.win 2).blk t).view.emb (ix2 p q))
  have h0 : ((cfg4.win 0).blk t).view.emb (ix2 p q) = ix2 (⟨win4_2.index t (0 : Fin 2) * 4000 + p.val, hr⟩ : Fin 100000) q := by
    funext a; apply Fin.ext
    match a with
    | ⟨0, _⟩ => show win4_0.index t (0 : Fin 2) * 4000 + 1 * p.val = win4_2.index t (0 : Fin 2) * 4000 + p.val; omega
    | ⟨1, _⟩ => show win4_0.index t (1 : Fin 2) * 64 + 1 * q.val = q.val; omega
  have h1 : ((cfg4.win 1).blk t).view.emb (ix2 p (0 : Fin 1)) = ix2 (⟨win4_2.index t (0 : Fin 2) * 4000 + p.val, hr⟩ : Fin 100000) (0 : Fin 1) := by
    funext a; apply Fin.ext
    match a with
    | ⟨0, _⟩ => show win4_1.index t (0 : Fin 2) * 4000 + 1 * p.val = win4_2.index t (0 : Fin 2) * 4000 + p.val; omega
    | ⟨1, _⟩ => show win4_1.index t (1 : Fin 2) * 1 + 1 * 0 = 0; omega
  have h2 : ((cfg4.win 2).blk t).view.emb (ix2 p q) = ix2 (⟨win4_2.index t (0 : Fin 2) * 4000 + p.val, hr⟩ : Fin 100000) q := by
    funext a; apply Fin.ext
    match a with
    | ⟨0, _⟩ => show win4_2.index t (0 : Fin 2) * 4000 + 1 * p.val = win4_2.index t (0 : Fin 2) * 4000 + p.val; omega
    | ⟨1, _⟩ => show win4_2.index t (1 : Fin 2) * 64 + 1 * q.val = q.val; omega
  exact (block4_eq (V c (Pipeline.arrRef spec4 0)) (V c (Pipeline.arrRef spec4 1)) (iblk4 V c 0 t) (iblk4 V c 1 t) p q
    ⟨win4_2.index t (0 : Fin 2) * 4000 + p.val, hr⟩
    (congrArg (V c (Pipeline.arrRef spec4 0)) h0) (congrArg (V c (Pipeline.arrRef spec4 1)) h1)).trans
    (congrArg (Cert.GraphConv.scaleCol64 (V c (Pipeline.arrRef spec4 0)) (V c (Pipeline.arrRef spec4 1))) h2.symm)

/-- An index of the array is in point `t`'s block iff each coordinate is in the block's range on its axis. -/
theorem mem_blk4 (t : Fin cfg4.N) (i : S100000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v46).slice (win4_2.rect t)).set ↔ _
  rw [View.set_slice_whole, Rect.mem_set_unit]
  exact Iff.rfl

/-- Every index of the array is in some point's block: row `r` is in block `r / 4000`. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto4 ⟨(i 0).val / 4000, by omega⟩
  have q0 : win4_2.index t (0 : Fin 2) = (i 0).val / 4000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 64 ≤ (i 1).val ∧ (i 1).val < win4_2.index t (1 : Fin 2) * 64 + 64; omega

/-- The array the region leaves: the rows of the first array scaled by the column of norms. -/
theorem final4 (V : (c : Dev nD) → (b : Ref sig .tc) → Buf (Elt Ideal) ((c : Thread nD τ).loc b)) (c : Dev nD) :
    (dat4 (F := Ideal) V c).arrAt 2 cfg4.N
      = Cert.GraphConv.scaleCol64 (V c (Pipeline.arrRef spec4 0)) (V c (Pipeline.arrRef spec4 1)) :=
  (dat4 (F := Ideal) V c).arrAt_eq_of_cover 2
    (Cert.GraphConv.scaleCol64 (V c (Pipeline.arrRef spec4 0)) (V c (Pipeline.arrRef spec4 1)))
    (fun t _ => flushed4_eq V c t) cover4

end Cert.KernelIdeal.Closed

end
-- ==== Proof.Region5.lean ====
/-
  Region 5 of the kernel: each of its 25 grid points takes a block of 4000 rows of a [100000, 64] array and of the
  [100000, 1] column of norms, the whole [64, 128] weights and the [1, 128] bias, and writes the block
      ((h · s) W) + b
  of 4000 rows of a [100000, 128] array. Read index by index, the block at point t is the restriction to rows
  4000 t … 4000 t + 3999 of ONE whole-array function of the four arrays, and the 25 blocks cover every row; so after
  the region the output array is that function of the arrays the region found.
-/
import proofs.«176802_j51384988729797_1_alg».proof.Proof.Gen.KernelIdeal.Frame
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Idealize.ShloMosaic Idealize.ShloMosaic.ValueIdx Idealize.ShloMosaic.TcCoe Cert.KernelIdeal Cert.KernelIdeal.Gen

/-! ## The layout operations at an index -/

/-- An `[a, 1]` array broadcast to `[a, b]` reads, at `(p, c)`, the operand's row `p` at its one column. -/
theorem broadcastTo_a1_ab_apply5 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The host's broadcast of an `[a, 1]` column along the second axis reads, at `(p, c)`, row `p` of the column. -/
theorem bcastCol_apply5 {α : Type} {a b : ℕ} (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The host's broadcast of a `[1, b]` row along the first axis reads, at `(p, c)`, the row at `c`. -/
theorem bcastRow_apply5 {α : Type} {a b : ℕ} (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-! ## The two products at an index -/

/-- The block product's left operand is read at the output's row … -/
theorem lhs5_row (i : S4000x128.Idx) (r : dot_S4000x64_S64x128_S4000x128_1_0_0_1_n_n.contr.Idx) : (dot_S4000x64_S64x128_S4000x128_1_0_0_1_n_n.lhsIdx i r 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
/-- … and the right operand at the output's column. -/
theorem rhs5_col (i : S4000x128.Idx) (r : dot_S4000x64_S64x128_S4000x128_1_0_0_1_n_n.contr.Idx) : (dot_S4000x64_S64x128_S4000x128_1_0_0_1_n_n.rhsIdx i r 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The block product into a zero accumulator, read at `(p, q)`: the sum over the 64 shared coordinates. -/
theorem matmul5_apply (a : FVec Ideal S4000x64 .bf16) (b : FVec Ideal S64x128 .bf16) (p : Fin 4000) (q : Fin 128) :
    matmul dot_S4000x64_S64x128_S4000x128_1_0_0_1_n_n none a b (constant S4000x128 .f32 0x00000000#32) (ix2 p q)
      = ∑ k : Fin 64, a (ix2 p k) * b (ix2 k q) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k := funext fun ax => Fin.ext (by
    match ax with
    | ⟨0, _⟩ => exact lhs5_row _ _
    | ⟨1, _⟩ => exact (dot_S4000x64_S64x128_S4000x128_1_0_0_1_n_n.lhsIdx_val_of_single rfl _ _).trans hk)
  have er : dot_S4000x64_S64x128_S4000x128_1_0_0_1_n_n.rhsIdx (ix2 p q) ((contrEquiv1 dot_S4000x64_S64x128_S4000x128_1_0_0_1_n_n 64 rfl rfl).symm k) = ix2 k q := funext fun ax => Fin.ext (by
    match ax with
    | ⟨0, _⟩ => exact (dot_S4000x64_S64x128_S4000x128_1_0_0_1_n_n.rhsIdx_val_of_single rfl _ _).trans hk
    | ⟨1, _⟩ => exact rhs5_col _ _)
  rw [el, er]

/-- The whole-array product's left operand is read at the output's row … -/
theorem lhsRef5_row (i : Cert.ReferenceIdeal.S100000x128.Idx) (r : Cert.ReferenceIdeal.dot_S100000x64_S64x128_S100000x128_1_0_0_1_n_n.contr.Idx) : (Cert.ReferenceIdeal.dot_S100000x64_S64x128_S100000x128_1_0_0_1_n_n.lhsIdx i r 0).val = (i 0).val := by
  unfold DotDims.lhsIdx
  rw [dif_neg (show ¬(0 : Fin Cert.ReferenceIdeal.S100000x64.rank) ∈ Cert.ReferenceIdeal.dot_S100000x64_S64x128_S100000x128_1_0_0_1_n_n.lhsBatch by decide), dif_pos (show (0 : Fin Cert.ReferenceIdeal.S100000x64.rank) ∈ Cert.ReferenceIdeal.dot_S100000x64_S64x128_S100000x128_1_0_0_1_n_n.lhsNonContracting by decide)]
  rfl
/-- … and the right operand at the output's column. -/
theorem rhsRef5_col (i : Cert.ReferenceIdeal.S100000x128.Idx) (r : Cert.ReferenceIdeal.dot_S100000x64_S64x128_S100000x128_1_0_0_1_n_n.contr.Idx) : (Cert.ReferenceIdeal.dot_S100000x64_S64x128_S100000x128_1_0_0_1_n_n.rhsIdx i r 1).val = (i 1).val := by
  unfold DotDims.rhsIdx
  rw [dif_neg (show ¬(1 : Fin Cert.ReferenceIdeal.S64x128.rank) ∈ Cert.ReferenceIdeal.dot_S100000x64_S64x128_S100000x128_1_0_0_1_n_n.rhsBatch by decide), dif_pos (show (1 : Fin Cert.ReferenceIdeal.S64x128.rank) ∈ Cert.ReferenceIdeal.dot_S100000x64_S64x128_S100000x128_1_0_0_1_n_n.rhsNonContracting by decide)]
  rfl

/-- The whole-array product, read at `(p, q)`: the sum over the 64 shared coordinates. -/
theorem dotRef5_apply (a : FVec Ideal Cert.ReferenceIdeal.S100000x64 .f32) (b : FVec Ideal Cert.ReferenceIdeal.S64x128 .f32) (p : Fin 100000) (q : Fin 128) :
    Host.dotGeneral (F := Ideal) Cert.ReferenceIdeal.dot_S100000x64_S64x128_S100000x128_1_0_0_1_n_n none a b (ix2 p q)
      = ∑ k : Fin 64, a (ix2 p k) * b (ix2 k q) := by
  simp only [Host.dotGeneral]
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  have hk := contrEquiv1_symm_val Cert.ReferenceIdeal.dot_S100000x64_S64x128_S100000x128_1_0_0_1_n_n 64 rfl rfl k
  have el : Cert.ReferenceIdeal.dot_S100000x64_S64x128_S100000x128_1_0_0_1_n_n.lhsIdx (ix2 p q) ((contrEquiv1 Cert.ReferenceIdeal.dot_S100000x64_S64x128_S100000x128_1_0_0_1_n_n 64 rfl rfl).symm k) = ix2 p k := funext fun ax => Fin.ext (by
    match ax with
    | ⟨0, _⟩ => exact lhsRef5_row _ _
    | ⟨1, _⟩ => exact (Cert.ReferenceIdeal.dot_S100000x64_S64x128_S100000x128_1_0_0_1_n_n.lhsIdx_val_of_single rfl _ _).trans hk)
  have er : Cert.ReferenceIdeal.dot_S100000x64_S64x128_S100000x128_1_0_0_1_n_n.rhsIdx (ix2 p q) ((contrEquiv1 Cert.ReferenceIdeal.dot_S100000x64_S64x128_S100000x128_1_0_0_1_n_n 64 rfl rfl).symm k) = ix2 k q := funext fun ax => Fin.ext (by
    match ax with
    | ⟨0, _⟩ => exact (Cert.ReferenceIdeal.dot_S100000x64_S64x128_S100000x128_1_0_0_1_n_n.rhsIdx_val_of_single rfl _ _).trans hk
    | ⟨1, _⟩ => exact rhsRef5_col _ _)
  rw [el, er]

/-! ## The block's value and the whole-array function, index by index -/

/-- The body's value at `(p, q)` of its block: row `p` scaled by its norm, times column `q` of the weights, plus the bias at `q`. -/
theorem pay5_apply (x0 : Vec Ideal S4000x64 .f32) (x1 : Vec Ideal S4000x1 .f32) (x2 : Vec Ideal S64x128 .f32) (x3 : Vec Ideal S1x128 .f32)
    (p : Fin 4000) (q : Fin 128) :
    k5_pay1 x0 x1 x2 x3 (ix2 p q)
      = (∑ k : Fin 64, (x0 (ix2 p k) * x1 (ix2 p (0 : Fin 1))) * x2 (ix2 k q)) + x3 (ix2 (0 : Fin 1) q) := by
  unfold k5_pay1
  simp only [shapeCast_self]
  rw [addf_apply, broadcastTo_1b_ab_apply, matmul5_apply]
  refine congrArg (· + x3 (ix2 (0 : Fin 1) q)) (Finset.sum_congr rfl fun k _ => ?_)
  rw [truncf_apply, truncf_apply, mulf_apply, broadcastTo_a1_ab_apply5]

/-- The same formula for the whole-array function at row `r`, column `q`. -/
theorem proj64to128_apply5 (h : Cert.GraphConv.Arr Cert.ReferenceIdeal.S100000x64) (s : Cert.GraphConv.Arr Cert.ReferenceIdeal.S100000x1) (w : Cert.GraphConv.Arr Cert.ReferenceIdeal.S64x128) (b : Cert.GraphConv.Arr Cert.ReferenceIdeal.S1x128)
    (r : Fin 100000) (q : Fin 128) :
    Cert.GraphConv.proj64to128 h s w b (ix2 r q)
      = (∑ k : Fin 64, (h (ix2 r k) * s (ix2 r (0 : Fin 1))) * w (ix2 k q)) + b (ix2 (0 : Fin 1) q) := by
  unfold Cert.GraphConv.proj64to128 Cert.GraphConv.scaleCol64
  rw [addf_apply, bcastRow_apply5, dotRef5_apply]
  refine congrArg (· + b (ix2 (0 : Fin 1) q)) (Finset.sum_congr rfl fun k _ => ?_)
  rw [mulf_apply, bcastCol_apply5]

/-- A block whose entries are the arrays' at rows `n · 4000 + p` (the weights and the bias whole) holds, at `(p, q)`, the
    whole-array function at row `n · 4000 + p`. -/
theorem block5_eq (A0 : Cert.GraphConv.Arr Cert.ReferenceIdeal.S100000x64) (A1 : Cert.GraphConv.Arr Cert.ReferenceIdeal.S100000x1) (A2 : Cert.GraphConv.Arr Cert.ReferenceIdeal.S64x128) (A3 : Cert.GraphConv.Arr Cert.ReferenceIdeal.S1x128)
    (x0 : Vec Ideal S4000x64 .f32) (x1 : Vec Ideal S4000x1 .f32) (x2 : Vec Ideal S64x128 .f32) (x3 : Vec Ideal S1x128 .f32)
    (n : ℕ) (hn : n ≤ 24)
    (h0 : ∀ (p : Fin 4000) (k : Fin 64), x0 (ix2 p k) = A0 (ix2 (⟨n * 4000 + p.val, by have := p.isLt; omega⟩ : Fin 100000) k))
    (h1 : ∀ p : Fin 4000, x1 (ix2 p (0 : Fin 1)) = A1 (ix2 (⟨n * 4000 + p.val, by have := p.isLt; omega⟩ : Fin 100000) (0 : Fin 1)))
    (h2 : ∀ (k : Fin 64) (q : Fin 128), x2 (ix2 k q) = A2 (ix2 k q))
    (h3 : ∀ q : Fin 128, x3 (ix2 (0 : Fin 1) q) = A3 (ix2 (0 : Fin 1) q))
    (p : Fin 4000) (q : Fin 128) :
    k5_pay1 x0 x1 x2 x3 (ix2 p q)
      = Cert.GraphConv.proj64to128 A0 A1 A2 A3 (ix2 (⟨n * 4000 + p.val, by have := p.isLt; omega⟩ : Fin 100000) q) := by
  rw [pay5_apply, proj64to128_apply5, h3]
  refine congrArg (· + A3 (ix2 (0 : Fin 1) q)) (Finset.sum_congr rfl fun k _ => ?_)
  rw [h0, h1, h2]

/-! ## From the blocks to the array -/

theorem zero_off5 : (![0, 0] : Fin 2 → Nat) = fun _ => 0 := funext fun a => by fin_cases a <;> rfl

/-- The printed index maps, decided over the grid: the two row-blocked inputs move with the output's row block, the
    weights and the bias stay at block 0, and the output's row block stays below 25. -/
theorem blocks5 : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (1 : Fin 2) = 0
    ∧ win5_4.index t (0 : Fin 2) ≤ 24 :=
  (by decide +kernel : ∀ t : Fin grid5.N, _)

/-- Every row block is some point's. -/
theorem blocks_onto5 : ∀ (n : Fin 25), ∃ t : Fin cfg5.N, win5_4.index t = ![n.val, 0] :=
  (by decide +kernel : ∀ (n : Fin 25), ∃ t : Fin grid5.N, win5_4.index t = ![n.val, 0])

set_option maxHeartbeats 1000000 in
/-- What point `t` writes back is block `t` of the whole-array function of the arrays as the region finds them. -/
theorem written5_eq (V : (c : Dev nD) → (b : Ref sig .tc) → Buf (Elt Ideal) ((c : Thread nD τ).loc b)) (c : Dev nD) (t : Fin cfg5.N) :
    (dat5 (F := Ideal) V c).flushed 4 t
      = ((cfg5.win 4).blk t).view.read (Elt Ideal)
          (Cert.GraphConv.proj64to128 (V c (Pipeline.arrRef spec5 0)) (V c (Pipeline.arrRef spec5 1)) (V c (Pipeline.arrRef spec5 2)) (V c (Pipeline.arrRef spec5 3))) := by
  show (cfg5.win 4).cut (grid5.coords t) ((dat5 (F := Ideal) V c).after 4 t) = _
  rw [after5_4]
  unfold out5_4
  rw [View.canon_unit_zero zero_off5]
  simp only [View.ld_unit_zero (S := S4000x64) zero_off5, View.ld_unit_zero (S := S4000x1) zero_off5, View.ld_unit_zero (S := S64x128) zero_off5, View.ld_unit_zero (S := S1x128) zero_off5]
  obtain ⟨e00, e01, e10, e11, e20, e21, e30, e31, e41, e4⟩ := blocks5 t
  refine funext fun (y : S4000x128.Idx) => ?_
  obtain ⟨p, q, rfl⟩ : ∃ (p : Fin 4000) (q : Fin 128), y = ix2 p q := ⟨y 0, y 1, eq_ix2 y⟩
  refine (block5_eq (V c (Pipeline.arrRef spec5 0)) (V c (Pipeline.arrRef spec5 1)) (V c (Pipeline.arrRef spec5 2)) (V c (Pipeline.arrRef spec5 3))
    (iblk5 V c 0 t) (iblk5 V c 1 t) (iblk5 V c 2 t) (iblk5 V c 3 t) (win5_4.index t (0 : Fin 2)) e4 ?_ ?_ ?_ ?_ p q).trans ?_
  · intro p k
    show V c (Pipeline.arrRef spec5 0) (((cfg5.win 0).blk t).view.emb (ix2 p k)) = _
    refine congrArg (V c (Pipeline.arrRef spec5 0)) (funext fun a => Fin.ext ?_)
    match a with
    | ⟨0, _⟩ => show win5_0.index t (0 : Fin 2) * 4000 + 1 * p.val = win5_4.index t (0 : Fin 2) * 4000 + p.val; omega
    | ⟨1, _⟩ => show win5_0.index t (1 : Fin 2) * 64 + 1 * k.val = k.val; omega
  · intro p
    show V c (Pipeline.arrRef spec5 1) (((cfg5.win 1).blk t).view.emb (ix2 p (0 : Fin 1))) = _
    refine congrArg (V c (Pipeline.arrRef spec5 1)) (funext fun a => Fin.ext ?_)
    match a with
    | ⟨0, _⟩ => show win5_1.index t (0 : Fin 2) * 4000 + 1 * p.val = win5_4.index t (0 : Fin 2) * 4000 + p.val; omega
    | ⟨1, _⟩ => show win5_1.index t (1 : Fin 2) * 1 + 1 * 0 = 0; omega
  · intro k q
    show V c (Pipeline.arrRef spec5 2) (((cfg5.win 2).blk t).view.emb (ix2 k q)) = _
    refine congrArg (V c (Pipeline.arrRef spec5 2)) (funext fun a => Fin.ext ?_)
    match a with
    | ⟨0, _⟩ => show win5_2.index t (0 : Fin 2) * 64 + 1 * k.val = k.val; omega
    | ⟨1, _⟩ => show win5_2.index t (1 : Fin 2) * 128 + 1 * q.val = q.val; omega
  · intro q
    show V c (Pipeline.arrRef spec5 3) (((cfg5.win 3).blk t).view.emb (ix2 (0 : Fin 1) q)) = _
    refine congrArg (V c (Pipeline.arrRef spec5 3)) (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  · show _ = Cert.GraphConv.proj64to128 (V c (Pipeline.arrRef spec5 0)) (V c (Pipeline.arrRef spec5 1)) (V c (Pipeline.arrRef spec5 2)) (V c (Pipeline.arrRef spec5 3)) (((cfg5.win 4).blk t).view.emb (ix2 p q))
    refine congrArg (Cert.GraphConv.proj64to128 (V c (Pipeline.arrRef spec5 0)) (V c (Pipeline.arrRef spec5 1)) (V c (Pipeline.arrRef spec5 2)) (V c (Pipeline.arrRef spec5 3))) (funext fun a => Fin.ext ?_)
    match a with
    | ⟨0, _⟩ => show win5_4.index t (0 : Fin 2) * 4000 + p.val = win5_4.index t (0 : Fin 2) * 4000 + 1 * p.val; omega
    | ⟨1, _⟩ => show q.val = win5_4.index t (1 : Fin 2) * 128 + 1 * q.val; omega

/-- An index of the output array is in point `t`'s block iff each coordinate is in the block's range on its axis. -/
theorem mem_block5 (t : Fin cfg5.N) (i : S100000x128.Idx) :
    i ∈ ((cfg5.win 4).blk t).view.set ↔ ∀ a : Fin 2, win5_4.index t a * S4000x128.size a ≤ (i a).val ∧ (i a).val < win5_4.index t a * S4000x128.size a + S4000x128.size a := by
  show i ∈ ((View.whole main_v59).slice (win5_4.rect t)).set ↔ _
  rw [View.set_slice_whole, Rect.mem_set_unit]
  exact Iff.rfl

/-- Every index of the output array is in the block of the point whose row block is its row divided by 4000. -/
theorem covered5 (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ := blocks_onto5 ⟨(i 0).val / 4000, by omega⟩
  have q0 : win5_4.index t (0 : Fin 2) = (i 0).val / 4000 := congrFun ht 0
  have q1 : win5_4.index t (1 : Fin 2) = 0 := congrFun ht 1
  refine ⟨t, flush5_4 t, ?_⟩
  rw [mem_block5]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 128 ≤ (i 1).val ∧ (i 1).val < win5_4.index t (1 : Fin 2) * 128 + 128; omega

/-- The output array after the region: the whole-array function of the four arrays the region found. -/
theorem final5 (V : (c : Dev nD) → (b : Ref sig .tc) → Buf (Elt Ideal) ((c : Thread nD τ).loc b)) (c : Dev nD) :
    (dat5 (F := Ideal) V c).arrAt 4 cfg5.N
      = Cert.GraphConv.proj64to128 (V c (Pipeline.arrRef spec5 0)) (V c (Pipeline.arrRef spec5 1)) (V c (Pipeline.arrRef spec5 2)) (V c (Pipeline.arrRef spec5 3)) :=
  (dat5 (F := Ideal) V c).arrAt_eq_of_cover 4 _ (fun t _ => written5_eq V c t) covered5

end Cert.KernelIdeal.Closed

end
-- ==== Proof.Region6.lean ====
/-
  The first half of the 128 → 64 layer, on the 100000 rows cut into 25 blocks of 4000: at every grid point the body
  leaves, in its output block, the block's rows of  (h W) · ns  — row r of h against column q of W, summed over the 128
  features, times entry r of the column of norms —, and the 25 blocks tile the array. So the array after the region is
  (h W) · ns, the whole-array function of the region's three input arrays.
-/
import proofs.«176802_j51384988729797_1_alg».proof.Proof.Gen.KernelIdeal.Frame
import proofs.«176802_j51384988729797_1_alg».proof.Proof.Gen.ReferenceIdeal.Read
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Closed

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block body at one entry -/

/-- The block product's left operand index at output entry j and contraction index k: row of j, -/
theorem mm6_lhs_0 (j : S4000x64.Idx) (k : dot_S4000x128_S128x64_S4000x64_1_0_0_1_n_n.contr.Idx) :
    (dot_S4000x128_S128x64_S4000x64_1_0_0_1_n_n.lhsIdx j k 0).val = (j 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- column k; -/
theorem mm6_lhs_1 (j : S4000x64.Idx) (k : dot_S4000x128_S128x64_S4000x64_1_0_0_1_n_n.contr.Idx) :
    (dot_S4000x128_S128x64_S4000x64_1_0_0_1_n_n.lhsIdx j k 1).val = (k ⟨0, by decide⟩).val :=
  dot_S4000x128_S128x64_S4000x64_1_0_0_1_n_n.lhsIdx_val_of_single rfl j k
/-- the right operand's: row k, -/
theorem mm6_rhs_0 (j : S4000x64.Idx) (k : dot_S4000x128_S128x64_S4000x64_1_0_0_1_n_n.contr.Idx) :
    (dot_S4000x128_S128x64_S4000x64_1_0_0_1_n_n.rhsIdx j k 0).val = (k ⟨0, by decide⟩).val :=
  dot_S4000x128_S128x64_S4000x64_1_0_0_1_n_n.rhsIdx_val_of_single rfl j k
/-- column of j. -/
theorem mm6_rhs_1 (j : S4000x64.Idx) (k : dot_S4000x128_S128x64_S4000x64_1_0_0_1_n_n.contr.Idx) :
    (dot_S4000x128_S128x64_S4000x64_1_0_0_1_n_n.rhsIdx j k 1).val = (j 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The block product into a zero accumulator, at entry (p, q): row p against column q, summed over the 128 features
    (on the extended reals the narrowing of the operands changes nothing). -/
theorem mm6_apply (x0 : FVec Ideal S4000x128 .f32) (x1 : FVec Ideal S128x64 .f32) (p : Fin 4000) (q : Fin 64) :
    matmul dot_S4000x128_S128x64_S4000x64_1_0_0_1_n_n none (truncf .bf16 x0 bitsLt_bf16_f32) (truncf .bf16 x1 bitsLt_bf16_f32)
        (constant S4000x64 .f32 0x00000000#32) (ix2 p q)
      = ∑ k : Fin 128, x0 (ix2 p k) * x1 (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact mm6_lhs_0 _ _
    | ⟨1, _⟩ => exact (mm6_lhs_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (mm6_rhs_0 _ _).trans hk
    | ⟨1, _⟩ => exact mm6_rhs_1 _ _)
  rw [el, er]
  rfl

/-- A column [4000, 1] broadcast along 64 columns reads, at (p, q), the column's entry p. -/
theorem col6_apply (v : FVec Ideal S4000x1 .f32) (p : Fin 4000) (q : Fin 64) :
    broadcastTo S4000x64 v broadcasts_S4000x1_S4000x64 (ix2 p q) = v (ix2 p (0 : Fin 1)) := by
  refine broadcastTo_apply v broadcasts_S4000x1_S4000x64 (ix2 p q) (ix2 p (0 : Fin 1)) fun ax => ?_
  match ax with
  | ⟨0, _⟩ => show p.val = if (4000 : Nat) = 1 then 0 else p.val; rw [if_neg (by decide)]
  | ⟨1, _⟩ => show 0 = if (1 : Nat) = 1 then 0 else q.val; rw [if_pos rfl]

/-- THE BODY AT ONE ENTRY of its block: (row p of the block of h) · (column q of W), times entry p of the block of norms. -/
theorem body6_apply (x0 : Vec Ideal S4000x128 .f32) (x1 : Vec Ideal S128x64 .f32) (x2 : Vec Ideal S4000x1 .f32) (p : Fin 4000) (q : Fin 64) :
    k6_pay1 (F := Ideal) x0 x1 x2 (ix2 p q) = (∑ k : Fin 128, x0 (ix2 p k) * x1 (ix2 k q)) * x2 (ix2 p (0 : Fin 1)) := by
  unfold k6_pay1
  simp only [shapeCast_self]
  refine (mulf_apply _ _ _).trans ?_
  rw [mm6_apply, col6_apply]

/-! ## The whole-array function at one entry -/

/-- The reference's product at entry (r, q): row r of h against column q of W, summed over the 128 features. -/
theorem dot6_apply (h : Cert.GraphConv.Arr Cert.ReferenceIdeal.S100000x128) (w : Cert.GraphConv.Arr Cert.ReferenceIdeal.S128x64) (r : Fin 100000) (q : Fin 64) :
    Host.dotGeneral (F := Ideal) (φ₁ := .f32) (φ₂ := .f32) Cert.ReferenceIdeal.dot_S100000x128_S128x64_S100000x64_1_0_0_1_n_n none h w (ix2 r q)
      = ∑ k : Fin 128, h (ix2 r k) * w (ix2 k q) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.Read.lhs_main_v73_0 _ _
    | ⟨1, _⟩ => exact (Cert.ReferenceIdeal.Read.lhs_main_v73_1 _ _).trans hk)
  have er : Cert.ReferenceIdeal.dot_S100000x128_S128x64_S100000x64_1_0_0_1_n_n.rhsIdx (ix2 r q) ((contrEquiv1 Cert.ReferenceIdeal.dot_S100000x128_S128x64_S100000x64_1_0_0_1_n_n 128 rfl rfl).symm k) = ix2 k q := funext fun a => Fin.ext (by
    match a with
    | ⟨0, _⟩ => exact (Cert.ReferenceIdeal.Read.rhs_main_v73_0 _ _).trans hk
    | ⟨1, _⟩ => exact Cert.ReferenceIdeal.Read.rhs_main_v73_1 _ _)
  rw [el, er]

/-- Rows times the column of norms, at entry (r, q). -/
theorem scaleCol64_apply6 (h : Cert.GraphConv.Arr Cert.ReferenceIdeal.S100000x64) (s : Cert.GraphConv.Arr Cert.ReferenceIdeal.S100000x1) (r : Fin 100000) (q : Fin 64) :
    Cert.GraphConv.scaleCol64 h s (ix2 r q) = h (ix2 r q) * s (ix2 r (0 : Fin 1)) := by
  unfold Cert.GraphConv.scaleCol64
  refine (mulf_apply _ _ _).trans ?_
  refine congrArg (h (ix2 r q) * ·) ?_
  exact broadcastInDim_apply _ Cert.ReferenceIdeal.Gen.bcast_S100000x1_S100000x64_0_1 s (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- THE WHOLE-ARRAY FUNCTION AT ONE ENTRY: (row r of h) · (column q of W), times entry r of the column of norms. -/
theorem projScale128to64_apply6 (h : Cert.GraphConv.Arr Cert.ReferenceIdeal.S100000x128) (w : Cert.GraphConv.Arr Cert.ReferenceIdeal.S128x64)
    (s : Cert.GraphConv.Arr Cert.ReferenceIdeal.S100000x1) (r : Fin 100000) (q : Fin 64) :
    Cert.GraphConv.projScale128to64 h w s (ix2 r q) = (∑ k : Fin 128, h (ix2 r k) * w (ix2 k q)) * s (ix2 r (0 : Fin 1)) := by
  unfold Cert.GraphConv.projScale128to64
  rw [scaleCol64_apply6, dot6_apply]

/-! ## From the blocks to the array -/

theorem offsets6 : (![0, 0] : Fin 2 → Nat) = fun _ => 0 := funext fun a => by fin_cases a <;> rfl

/-- The printed index maps over the 25 grid points: the blocks of h and of the norms move with the output's block along
    the rows, the weights stay, and no block index leaves its range. -/
theorem index_facts6 : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = win6_3.index t (0 : Fin 2)
    ∧ win6_2.index t (1 : Fin 2) = 0
    ∧ win6_3.index t (1 : Fin 2) = 0
    ∧ win6_3.index t (0 : Fin 2) ≤ 24 :=
  (by decide +kernel : ∀ t : Fin grid6.N, _)

/-- Every one of the 25 row blocks is some point's. -/
theorem index_onto6 : ∀ q0 : Fin 25, ∃ t : Fin cfg6.N, win6_3.index t = ![q0.val, 0] :=
  (by decide +kernel : ∀ q0 : Fin 25, ∃ t : Fin grid6.N, win6_3.index t = ![q0.val, 0])

section
variable (V : (c : Dev nD) → (b : Ref sig .tc) → Buf (Elt Ideal) ((c : Thread nD τ).loc b))

/-- The block of h at point t, at (p, k), is h at row (block index · 4000 + p). -/
theorem read6_0 (c : Dev nD) (t : Fin cfg6.N) (p : Fin 4000) (k : Fin 128) (r : Fin 100000)
    (hr : r.val = win6_3.index t (0 : Fin 2) * 4000 + p.val) :
    iblk6 V c 0 t (ix2 p k) = V c (Pipeline.arrRef spec6 0) (ix2 r k) := by
  obtain ⟨e00, e01, -⟩ := index_facts6 t
  show V c (Pipeline.arrRef spec6 0) (((cfg6.win 0).blk t).view.emb (ix2 p k)) = V c (Pipeline.arrRef spec6 0) (ix2 r k)
  refine congrArg _ (funext fun a => Fin.ext ?_)
  match a with
  | ⟨0, _⟩ => show win6_0.index t (0 : Fin 2) * 4000 + 1 * p.val = r.val; omega
  | ⟨1, _⟩ => show win6_0.index t (1 : Fin 2) * 128 + 1 * k.val = k.val; omega

/-- The block of W at any point is W. -/
theorem read6_1 (c : Dev nD) (t : Fin cfg6.N) (k : Fin 128) (q : Fin 64) :
    iblk6 V c 1 t (ix2 k q) = V c (Pipeline.arrRef spec6 1) (ix2 k q) := by
  obtain ⟨-, -, e10, e11, -⟩ := index_facts6 t
  show V c (Pipeline.arrRef spec6 1) (((cfg6.win 1).blk t).view.emb (ix2 k q)) = V c (Pipeline.arrRef spec6 1) (ix2 k q)
  refine congrArg _ (funext fun a => Fin.ext ?_)
  match a with
  | ⟨0, _⟩ => show win6_1.index t (0 : Fin 2) * 128 + 1 * k.val = k.val; omega
  | ⟨1, _⟩ => show win6_1.index t (1 : Fin 2) * 64 + 1 * q.val = q.val; omega

/-- The block of norms at point t, at (p, 0), is the column at row (block index · 4000 + p). -/
theorem read6_2 (c : Dev nD) (t : Fin cfg6.N) (p : Fin 4000) (r : Fin 100000)
    (hr : r.val = win6_3.index t (0 : Fin 2) * 4000 + p.val) :
    iblk6 V c 2 t (ix2 p (0 : Fin 1)) = V c (Pipeline.arrRef spec6 2) (ix2 r (0 : Fin 1)) := by
  obtain ⟨-, -, -, -, e20, e21, -⟩ := index_facts6 t
  show V c (Pipeline.arrRef spec6 2) (((cfg6.win 2).blk t).view.emb (ix2 p (0 : Fin 1))) = V c (Pipeline.arrRef spec6 2) (ix2 r (0 : Fin 1))
  refine congrArg _ (funext fun a => Fin.ext ?_)
  match a with
  | ⟨0, _⟩ => show win6_2.index t (0 : Fin 2) * 4000 + 1 * p.val = r.val; omega
  | ⟨1, _⟩ => show win6_2.index t (1 : Fin 2) * 1 + 1 * 0 = 0; omega

/-- WHAT POINT t WRITES BACK is block t of (h W) · ns of the arrays as the region finds them. -/
theorem written6 (c : Dev nD) (t : Fin cfg6.N) :
    (dat6 (F := Ideal) V c).flushed 3 t = ((cfg6.win 3).blk t).view.read (Elt Ideal)
      (Cert.GraphConv.projScale128to64 (V c (Pipeline.arrRef spec6 0)) (V c (Pipeline.arrRef spec6 1)) (V c (Pipeline.arrRef spec6 2))) := by
  show (cfg6.win 3).cut (grid6.coords t) ((dat6 (F := Ideal) V c).after 3 t) = _
  rw [after6_3]
  unfold out6_3
  rw [View.canon_unit_zero offsets6]
  simp only [View.ld_unit_zero (S := S4000x128) offsets6, View.ld_unit_zero (S := S128x64) offsets6, View.ld_unit_zero (S := S4000x1) offsets6]
  obtain ⟨-, -, -, -, -, -, e31, hi⟩ := index_facts6 t
  funext y
  have hp : (y 0).val < 4000 := (y 0).isLt
  have hq : (y 1).val < 64 := (y 1).isLt
  have hr : win6_3.index t (0 : Fin 2) * 4000 + (y 0).val < 100000 := by omega
  have hx : (cfg6.win 3).xinj (grid6.coords t) y = ix2 (⟨(y 0).val, hp⟩ : Fin 4000) (⟨(y 1).val, hq⟩ : Fin 64) :=
    funext fun a => by match a with | ⟨0, _⟩ => rfl | ⟨1, _⟩ => rfl
  have hemb : ((cfg6.win 3).blk t).view.emb y = ix2 (⟨win6_3.index t (0 : Fin 2) * 4000 + (y 0).val, hr⟩ : Fin 100000) (⟨(y 1).val, hq⟩ : Fin 64) :=
    funext fun a => Fin.ext (by
      match a with
      | ⟨0, _⟩ => show win6_3.index t (0 : Fin 2) * 4000 + 1 * (y 0).val = win6_3.index t (0 : Fin 2) * 4000 + (y 0).val; omega
      | ⟨1, _⟩ => show win6_3.index t (1 : Fin 2) * 64 + 1 * (y 1).val = (y 1).val; omega)
  show k6_pay1 (F := Ideal) (iblk6 V c 0 t) (iblk6 V c 1 t) (iblk6 V c 2 t) ((cfg6.win 3).xinj (grid6.coords t) y)
    = Cert.GraphConv.projScale128to64 (V c (Pipeline.arrRef spec6 0)) (V c (Pipeline.arrRef spec6 1)) (V c (Pipeline.arrRef spec6 2)) (((cfg6.win 3).blk t).view.emb y)
  refine (congrArg _ hx).trans ?_
  refine Eq.trans ?_ (congrArg _ hemb.symm)
  refine (body6_apply (iblk6 V c 0 t) (iblk6 V c 1 t) (iblk6 V c 2 t) _ _).trans ?_
  refine Eq.trans ?_ (projScale128to64_apply6 _ _ _ _ _).symm
  refine congrArg₂ (· * ·) (Finset.sum_congr rfl fun k _ => congrArg₂ (· * ·) ?_ ?_) ?_
  · exact read6_0 V c t _ k _ rfl
  · exact read6_1 V c t k _
  · exact read6_2 V c t _ _ rfl

/-- An index of the array is in point t's block iff each coordinate is in the block's range on its axis. -/
theorem mem_block6 (t : Fin cfg6.N) (i : S100000x64.Idx) :
    i ∈ ((cfg6.win 3).blk t).view.set ↔ ∀ a : Fin 2, win6_3.index t a * S4000x64.size a ≤ (i a).val ∧ (i a).val < win6_3.index t a * S4000x64.size a + S4000x64.size a := by
  show i ∈ ((View.whole main_v61).slice (win6_3.rect t)).set ↔ _
  rw [View.set_slice_whole, Rect.mem_set_unit]
  exact Iff.rfl

/-- The 25 blocks cover the array: row r is in block r / 4000. -/
theorem covered6 (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ := index_onto6 ⟨(i 0).val / 4000, by omega⟩
  have q0 : win6_3.index t (0 : Fin 2) = (i 0).val / 4000 := congrFun ht 0
  have q1 : win6_3.index t (1 : Fin 2) = 0 := congrFun ht 1
  refine ⟨t, flush6_3 t, ?_⟩
  rw [mem_block6]
  intro a
  match a with
  | ⟨0, _⟩ => show win6_3.index t (0 : Fin 2) * 4000 ≤ (i 0).val ∧ (i 0).val < win6_3.index t (0 : Fin 2) * 4000 + 4000; omega
  | ⟨1, _⟩ => show win6_3.index t (1 : Fin 2) * 64 ≤ (i 1).val ∧ (i 1).val < win6_3.index t (1 : Fin 2) * 64 + 64; omega

/-- THE ARRAY after the region: (h W) · ns of the three input arrays as the region finds them. -/
theorem final6 (c : Dev nD) :
    (dat6 (F := Ideal) V c).arrAt 3 cfg6.N
      = Cert.GraphConv.projScale128to64 (V c (Pipeline.arrRef spec6 0)) (V c (Pipeline.arrRef spec6 1)) (V c (Pipeline.arrRef spec6 2)) :=
  (dat6 (F := Ideal) V c).arrAt_eq_of_cover 3 _ (fun t _ => written6 V c t) (covered6)

end

end Cert.KernelIdeal.Closed

end
-- ==== Proof.Region7.lean ====
/-
  The layer half "row r of a 64-column array times entry r of the column of norms, plus the bias row", as the tiled
  program computes it: 25 row blocks of 4000 rows each, every block the same pointwise function of its rows and of the
  one bias row.  The array the blocks leave is that function of the whole arrays.
-/
import proofs.«176802_j51384988729797_1_alg».proof.Proof.Gen.KernelIdeal.Frame
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen
open Idealize.ShloMosaic Idealize.ShloMosaic.TcCoe Idealize.ShloMosaic.ValueIdx Idealize.SL.Sem
open Idealize.ShloMosaic.Pipeline (Dat)

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row `p`, column `q` of a block: the block's entry times the row's norm, plus the bias of column `q`. -/
theorem pay7_apply (x0 : Vec Ideal S4000x64 .f32) (x1 : Vec Ideal S4000x1 .f32) (x2 : Vec Ideal S1x64 .f32) (p : Fin 4000) (q : Fin 64) :
    k7_pay1 x0 x1 x2 (ix2 p q) = x0 (ix2 p q) * x1 (ix2 p (0 : Fin 1)) + x2 (ix2 (0 : Fin 1) q) := by
  unfold k7_pay1
  show addf (F := Ideal) (φ := .f32)
      (mulf (F := Ideal) (φ := .f32) (shapeCast S4000x64 (x0 : FVec Ideal S4000x64 .f32) shapeCasts_S4000x64_S4000x64)
        (broadcastTo S4000x64 (shapeCast S4000x1 (x1 : FVec Ideal S4000x1 .f32) shapeCasts_S4000x1_S4000x1) broadcasts_S4000x1_S4000x64))
      (broadcastTo S4000x64 (shapeCast S1x64 (x2 : FVec Ideal S1x64 .f32) shapeCasts_S1x64_S1x64) broadcasts_S1x64_S4000x64) (ix2 p q) = _
  rw [addf_apply, mulf_apply, shapeCast_self, shapeCast_self, shapeCast_self]
  exact congrArg₂ (fun u v => x0 (ix2 p q) * u + v) (broadcastTo_a1_ab_apply x1 broadcasts_S4000x1_S4000x64 p q)
    (broadcastTo_1b_ab_apply x2 broadcasts_S1x64_S4000x64 p q)

/-- The whole-array function at row `r`, column `q`: the entry times the norm of row `r`, plus the bias of column `q`. -/
theorem scaleBias64_apply7 (h : Cert.GraphConv.Arr Cert.ReferenceIdeal.S100000x64) (s : Cert.GraphConv.Arr Cert.ReferenceIdeal.S100000x1)
    (b : Cert.GraphConv.Arr Cert.ReferenceIdeal.S1x64) (r : Fin 100000) (q : Fin 64) :
    Cert.GraphConv.scaleBias64 h s b (ix2 r q) = h (ix2 r q) * s (ix2 r (0 : Fin 1)) + b (ix2 (0 : Fin 1) q) := by
  unfold Cert.GraphConv.scaleBias64 Cert.GraphConv.scaleCol64
  rw [addf_apply, mulf_apply]
  refine congrArg₂ (fun u v => h (ix2 r q) * u + v) ?_ ?_
  · exact broadcastInDim_apply _ Cert.ReferenceIdeal.Gen.bcast_S100000x1_S100000x64_0_1 s (ix2 r q) (ix2 r (0 : Fin 1)) (fun a => match a with
      | ⟨0, _⟩ => by show r.val = if (100000 : Nat) = 1 then 0 else r.val; rw [if_neg (by decide)]
      | ⟨1, _⟩ => by show 0 = if (1 : Nat) = 1 then 0 else q.val; rw [if_pos rfl])
  · exact broadcastInDim_apply _ Cert.ReferenceIdeal.Gen.bcast_S1x64_S100000x64_0_1 b (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])

/-- One entry of a block against one entry of the whole array: equal inputs give equal results. -/
theorem block7_eq (A0 : Cert.GraphConv.Arr Cert.ReferenceIdeal.S100000x64) (A1 : Cert.GraphConv.Arr Cert.ReferenceIdeal.S100000x1)
    (A2 : Cert.GraphConv.Arr Cert.ReferenceIdeal.S1x64)
    (x0 : Vec Ideal S4000x64 .f32) (x1 : Vec Ideal S4000x1 .f32) (x2 : Vec Ideal S1x64 .f32) (p : Fin 4000) (q : Fin 64) (r : Fin 100000)
    (h0 : x0 (ix2 p q) = A0 (ix2 r q)) (h1 : x1 (ix2 p (0 : Fin 1)) = A1 (ix2 r (0 : Fin 1)))
    (h2 : x2 (ix2 (0 : Fin 1) q) = A2 (ix2 (0 : Fin 1) q)) :
    k7_pay1 x0 x1 x2 (ix2 p q) = Cert.GraphConv.scaleBias64 A0 A1 A2 (ix2 r q) := by
  rw [pay7_apply, scaleBias64_apply7, h0, h1, h2]

/-- A row of a block is a row of the array. -/
theorem row_lt7 (n p : Nat) (hn : n ≤ 24) (hp : p < 4000) : n * 4000 + p < 100000 := by omega

theorem hz7 : (![0, 0] : Fin 2 → Nat) = fun _ => 0 := funext fun a => by fin_cases a <;> rfl

/-- The index maps, decided over the 25 points: the two row-blocked inputs move with the output's block along the rows, the
    bias row stays where it is, and no block index leaves its range. -/
theorem idx_facts7 : ∀ t : Fin cfg7.N, win7_0.index t (0 : Fin 2) = win7_3.index t (0 : Fin 2)
    ∧ win7_0.index t (1 : Fin 2) = 0
    ∧ win7_1.index t (0 : Fin 2) = win7_3.index t (0 : Fin 2)
    ∧ win7_1.index t (1 : Fin 2) = 0
    ∧ win7_2.index t (0 : Fin 2) = 0
    ∧ win7_2.index t (1 : Fin 2) = 0
    ∧ win7_3.index t (0 : Fin 2) ≤ 24 ∧ win7_3.index t (1 : Fin 2) = 0 :=
  (by decide +kernel : ∀ t : Fin grid7.N, _)

/-- Every row block is some point's. -/
theorem idx_onto7 : ∀ q0 : Fin 25, ∃ t : Fin cfg7.N, win7_3.index t = ![q0.val, 0] :=
  (by decide +kernel : ∀ q0 : Fin 25, ∃ t : Fin grid7.N, win7_3.index t = ![q0.val, 0])

set_option maxHeartbeats 1000000 in
/-- What point `t` writes back is block `t` of the whole-array function of the arrays as the region finds them. -/
theorem flushed7_eq (V : (c : Dev nD) → (b : Ref sig .tc) → Buf (Elt Ideal) ((c : Thread nD τ).loc b)) (c : Dev nD) (t : Fin cfg7.N) :
    (dat7 (F := Ideal) V c).flushed 3 t = ((cfg7.win 3).blk t).view.read (Elt Ideal)
      (Cert.GraphConv.scaleBias64 (V c (Pipeline.arrRef spec7 0)) (V c (Pipeline.arrRef spec7 1)) (V c (Pipeline.arrRef spec7 2))) := by
  show (cfg7.win 3).cut (grid7.coords t) ((dat7 (F := Ideal) V c).after 3 t) = _
  rw [after7_3]
  unfold out7_3
  rw [View.canon_unit_zero hz7]
  simp only [View.ld_unit_zero (S := S4000x64) hz7, View.ld_unit_zero (S := S4000x1) hz7, View.ld_unit_zero (S := S1x64) hz7]
  obtain ⟨e0, e1, e2, e3, e4, e5, e6, e7⟩ := idx_facts7 t
  funext y
  obtain ⟨p, q, rfl⟩ : ∃ (p : Fin 4000) (q : Fin 64), y = ix2 p q := ⟨y 0, y 1, eq_ix2 y⟩
  have hr : win7_3.index t (0 : Fin 2) * 4000 + p.val < 100000 := row_lt7 _ _ e6 p.isLt
  show k7_pay1 (iblk7 V c 0 t) (iblk7 V c 1 t) (iblk7 V c 2 t) (ix2 p q)
    = Cert.GraphConv.scaleBias64 (V c (Pipeline.arrRef spec7 0)) (V c (Pipeline.arrRef spec7 1)) (V c (Pipeline.arrRef spec7 2)) (((cfg7.win 3).blk t).view.emb (ix2 p q))
  have h0 : ((cfg7.win 0).blk t).view.emb (ix2 p q) = ix2 (⟨win7_3.index t (0 : Fin 2) * 4000 + p.val, hr⟩ : Fin 100000) q := by
    funext a; apply Fin.ext
    match a with
    | ⟨0, _⟩ => show win7_0.index t (0 : Fin 2) * 4000 + 1 * p.val = win7_3.index t (0 : Fin 2) * 4000 + p.val; rw [e0, Nat.one_mul]
    | ⟨1, _⟩ => show win7_0.index t (1 : Fin 2) * 64 + 1 * q.val = q.val; rw [e1, Nat.zero_mul, Nat.zero_add, Nat.one_mul]
  have h1 : ((cfg7.win 1).blk t).view.emb (ix2 p (0 : Fin 1)) = ix2 (⟨win7_3.index t (0 : Fin 2) * 4000 + p.val, hr⟩ : Fin 100000) (0 : Fin 1) := by
    funext a; apply Fin.ext
    match a with
    | ⟨0, _⟩ => show win7_1.index t (0 : Fin 2) * 4000 + 1 * p.val = win7_3.index t (0 : Fin 2) * 4000 + p.val; rw [e2, Nat.one_mul]
    | ⟨1, _⟩ => show win7_1.index t (1 : Fin 2) * 1 + 1 * 0 = 0; rw [e3]
  have h2 : ((cfg7.win 2).blk t).view.emb (ix2 (0 : Fin 1) q) = ix2 (0 : Fin 1) q := by
    funext a; apply Fin.ext
    match a with
    | ⟨0, _⟩ => show win7_2.index t (0 : Fin 2) * 1 + 1 * 0 = 0; rw [e4]
    | ⟨1, _⟩ => show win7_2.index t (1 : Fin 2) * 64 + 1 * q.val = q.val; rw [e5, Nat.zero_mul, Nat.zero_add, Nat.one_mul]
  have h3 : ((cfg7.win 3).blk t).view.emb (ix2 p q) = ix2 (⟨win7_3.index t (0 : Fin 2) * 4000 + p.val, hr⟩ : Fin 100000) q := by
    funext a; apply Fin.ext
    match a with
    | ⟨0, _⟩ => show win7_3.index t (0 : Fin 2) * 4000 + 1 * p.val = win7_3.index t (0 : Fin 2) * 4000 + p.val; rw [Nat.one_mul]
    | ⟨1, _⟩ => show win7_3.index t (1 : Fin 2) * 64 + 1 * q.val = q.val; rw [e7, Nat.zero_mul, Nat.zero_add, Nat.one_mul]
  exact (block7_eq (V c (Pipeline.arrRef spec7 0)) (V c (Pipeline.arrRef spec7 1)) (V c (Pipeline.arrRef spec7 2))
    (iblk7 V c 0 t) (iblk7 V c 1 t) (iblk7 V c 2 t) p q
    ⟨win7_3.index t (0 : Fin 2) * 4000 + p.val, hr⟩
    (congrArg (V c (Pipeline.arrRef spec7 0)) h0) (congrArg (V c (Pipeline.arrRef spec7 1)) h1)
    (congrArg (V c (Pipeline.arrRef spec7 2)) h2)).trans
    (congrArg (Cert.GraphConv.scaleBias64 (V c (Pipeline.arrRef spec7 0)) (V c (Pipeline.arrRef spec7 1)) (V c (Pipeline.arrRef spec7 2))) h3.symm)

/-- An index of the array is in point `t`'s block iff each coordinate is in the block's range on its axis. -/
theorem mem_blk7 (t : Fin cfg7.N) (i : S100000x64.Idx) :
    i ∈ ((cfg7.win 3).blk t).view.set ↔ ∀ a : Fin 2, win7_3.index t a * S4000x64.size a ≤ (i a).val ∧ (i a).val < win7_3.index t a * S4000x64.size a + S4000x64.size a := by
  show i ∈ ((View.whole main_v74).slice (win7_3.rect t)).set ↔ _
  rw [View.set_slice_whole, Rect.mem_set_unit]
  exact Iff.rfl

/-- Every index of the array is in some point's block: row `r` is in block `r / 4000`. -/
theorem cover7 (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ := idx_onto7 ⟨(i 0).val / 4000, by omega⟩
  have q0 : win7_3.index t (0 : Fin 2) = (i 0).val / 4000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 4000 ≤ (i 0).val ∧ (i 0).val < win7_3.index t (0 : Fin 2) * 4000 + 4000; omega
  | ⟨1, _⟩ => show win7_3.index t (1 : Fin 2) * 64 ≤ (i 1).val ∧ (i 1).val < win7_3.index t (1 : Fin 2) * 64 + 64; omega

/-- The array the region leaves: the rows of the first array scaled by the column of norms, plus the bias row. -/
theorem final7 (V : (c : Dev nD) → (b : Ref sig .tc) → Buf (Elt Ideal) ((c : Thread nD τ).loc b)) (c : Dev nD) :
    (dat7 (F := Ideal) V c).arrAt 3 cfg7.N
      = Cert.GraphConv.scaleBias64 (V c (Pipeline.arrRef spec7 0)) (V c (Pipeline.arrRef spec7 1)) (V c (Pipeline.arrRef spec7 2)) :=
  (dat7 (F := Ideal) V c).arrAt_eq_of_cover 3
    (Cert.GraphConv.scaleBias64 (V c (Pipeline.arrRef spec7 0)) (V c (Pipeline.arrRef spec7 1)) (V c (Pipeline.arrRef spec7 2)))
    (fun t _ => flushed7_eq V c t) cover7

end Cert.KernelIdeal.Closed

end
-- ==== Proof.Region8.lean ====
/-
  The first half of the 64 → 32 layer, on the 100000 rows cut into 25 blocks of 4000: at every grid point the body
  leaves, in its output block, the block's rows of  (h W) · ns  — row r of h against column q of W, summed over the 64
  features, times entry r of the column of norms —, and the 25 blocks tile the array. So the array after the region is
  (h W) · ns, the whole-array function of the region's three input arrays.
-/
import proofs.«176802_j51384988729797_1_alg».proof.Proof.Gen.KernelIdeal.Frame
import proofs.«176802_j51384988729797_1_alg».proof.Proof.Gen.ReferenceIdeal.Read
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Closed

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block body at one entry -/

/-- The block product's left operand index at output entry j and contraction index k: row of j, -/
theorem mm8_lhs_0 (j : S4000x32.Idx) (k : dot_S4000x64_S64x32_S4000x32_1_0_0_1_n_n.contr.Idx) :
    (dot_S4000x64_S64x32_S4000x32_1_0_0_1_n_n.lhsIdx j k 0).val = (j 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
/-- column k; -/
theorem mm8_lhs_1 (j : S4000x32.Idx) (k : dot_S4000x64_S64x32_S4000x32_1_0_0_1_n_n.contr.Idx) :
    (dot_S4000x64_S64x32_S4000x32_1_0_0_1_n_n.lhsIdx j k 1).val = (k ⟨0, by decide⟩).val :=
  dot_S4000x64_S64x32_S4000x32_1_0_0_1_n_n.lhsIdx_val_of_single rfl j k
/-- the right operand's: row k, -/
theorem mm8_rhs_0 (j : S4000x32.Idx) (k : dot_S4000x64_S64x32_S4000x32_1_0_0_1_n_n.contr.Idx) :
    (dot_S4000x64_S64x32_S4000x32_1_0_0_1_n_n.rhsIdx j k 0).val = (k ⟨0, by decide⟩).val :=
  dot_S4000x64_S64x32_S4000x32_1_0_0_1_n_n.rhsIdx_val_of_single rfl j k
/-- column of j. -/
theorem mm8_rhs_1 (j : S4000x32.Idx) (k : dot_S4000x64_S64x32_S4000x32_1_0_0_1_n_n.contr.Idx) :
    (dot_S4000x64_S64x32_S4000x32_1_0_0_1_n_n.rhsIdx j k 1).val = (j 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- The block product into a zero accumulator, at entry (p, q): row p against column q, summed over the 64 features
    (on the extended reals the narrowing of the operands changes nothing). -/
theorem mm8_apply (x0 : FVec Ideal S4000x64 .f32) (x1 : FVec Ideal S64x32 .f32) (p : Fin 4000) (q : Fin 32) :
    matmul dot_S4000x64_S64x32_S4000x32_1_0_0_1_n_n none (truncf .bf16 x0 bitsLt_bf16_f32) (truncf .bf16 x1 bitsLt_bf16_f32)
        (constant S4000x32 .f32 0x00000000#32) (ix2 p q)
      = ∑ k : Fin 64, x0 (ix2 p k) * x1 (ix2 k q) := by
  simp only [matmul]
  rw [Ideal.matmul_constant_zero_apply, ← Equiv.sum_comp (contrEquiv1 dot_S4000x64_S64x32_S4000x32_1_0_0_1_n_n 64 rfl rfl).symm]
  refine Finset.sum_congr rfl fun k _ => ?_
  have hk := contrEquiv1_symm_val dot_S4000x64_S64x32_S4000x32_1_0_0_1_n_n 64 rfl rfl k
  have el : dot_S4000x64_S64x32_S4000x32_1_0_0_1_n_n.lhsIdx (ix2 p q) ((contrEquiv1 dot_S4000x64_S64x32_S4000x32_1_0_0_1_n_n 64 rfl rfl).symm k) = ix2 p k := funext fun a => Fin.ext (by
    match a with
    | ⟨0, _⟩ => exact mm8_lhs_0 _ _
    | ⟨1, _⟩ => exact (mm8_lhs_1 _ _).trans hk)
  have er : dot_S4000x64_S64x32_S4000x32_1_0_0_1_n_n.rhsIdx (ix2 p q) ((contrEquiv1 dot_S4000x64_S64x32_S4000x32_1_0_0_1_n_n 64 rfl rfl).symm k) = ix2 k q := funext fun a => Fin.ext (by
    match a with
    | ⟨0, _⟩ => exact (mm8_rhs_0 _ _).trans hk
    | ⟨1, _⟩ => exact mm8_rhs_1 _ _)
  rw [el, er]
  rfl

/-- A column [4000, 1] broadcast along 32 columns reads, at (p, q), the column's entry p. -/
theorem col8_apply (v : FVec Ideal S4000x1 .f32) (p : Fin 4000) (q : Fin 32) :
    broadcastTo S4000x32 v broadcasts_S4000x1_S4000x32 (ix2 p q) = v (ix2 p (0 : Fin 1)) := by
  refine broadcastTo_apply v broadcasts_S4000x1_S4000x32 (ix2 p q) (ix2 p (0 : Fin 1)) fun ax => ?_
  match ax with
  | ⟨0, _⟩ => show p.val = if (4000 : Nat) = 1 then 0 else p.val; rw [if_neg (by decide)]
  | ⟨1, _⟩ => show 0 = if (1 : Nat) = 1 then 0 else q.val; rw [if_pos rfl]

/-- THE BODY AT ONE ENTRY of its block: (row p of the block of h) · (column q of W), times entry p of the block of norms. -/
theorem body8_apply (x0 : Vec Ideal S4000x64 .f32) (x1 : Vec Ideal S64x32 .f32) (x2 : Vec Ideal S4000x1 .f32) (p : Fin 4000) (q : Fin 32) :
    k8_pay1 (F := Ideal) x0 x1 x2 (ix2 p q) = (∑ k : Fin 64, x0 (ix2 p k) * x1 (ix2 k q)) * x2 (ix2 p (0 : Fin 1)) := by
  unfold k8_pay1
  simp only [shapeCast_self]
  refine (mulf_apply _ _ _).trans ?_
  rw [mm8_apply, col8_apply]

/-! ## The whole-array function at one entry -/

/-- The reference's product at entry (r, q): row r of h against column q of W, summed over the 64 features. -/
theorem dot8_apply (h : Cert.GraphConv.Arr Cert.ReferenceIdeal.S100000x64) (w : Cert.GraphConv.Arr Cert.ReferenceIdeal.S64x32) (r : Fin 100000) (q : Fin 32) :
    Host.dotGeneral (F := Ideal) (φ₁ := .f32) (φ₂ := .f32) Cert.ReferenceIdeal.dot_S100000x64_S64x32_S100000x32_1_0_0_1_n_n none h w (ix2 r q)
      = ∑ k : Fin 64, h (ix2 r k) * w (ix2 k q) := by
  simp only [Host.dotGeneral]
  rw [Ideal.dotGeneral_apply, ← Equiv.sum_comp (contrEquiv1 Cert.ReferenceIdeal.dot_S100000x64_S64x32_S100000x32_1_0_0_1_n_n 64 rfl rfl).symm]
  refine Finset.sum_congr rfl fun k _ => ?_
  have hk := contrEquiv1_symm_val Cert.ReferenceIdeal.dot_S100000x64_S64x32_S100000x32_1_0_0_1_n_n 64 rfl rfl k
  have el : Cert.ReferenceIdeal.dot_S100000x64_S64x32_S100000x32_1_0_0_1_n_n.lhsIdx (ix2 r q) ((contrEquiv1 Cert.ReferenceIdeal.dot_S100000x64_S64x32_S100000x32_1_0_0_1_n_n 64 rfl rfl).symm k) = ix2 r k := funext fun a => Fin.ext (by
    match a with
    | ⟨0, _⟩ => exact Cert.ReferenceIdeal.Read.lhs_main_v93_0 _ _
    | ⟨1, _⟩ => exact (Cert.ReferenceIdeal.Read.lhs_main_v93_1 _ _).trans hk)
  have er : Cert.ReferenceIdeal.dot_S100000x64_S64x32_S100000x32_1_0_0_1_n_n.rhsIdx (ix2 r q) ((contrEquiv1 Cert.ReferenceIdeal.dot_S100000x64_S64x32_S100000x32_1_0_0_1_n_n 64 rfl rfl).symm k) = ix2 k q := funext fun a => Fin.ext (by
    match a with
    | ⟨0, _⟩ => exact (Cert.ReferenceIdeal.Read.rhs_main_v93_0 _ _).trans hk
    | ⟨1, _⟩ => exact Cert.ReferenceIdeal.Read.rhs_main_v93_1 _ _)
  rw [el, er]

/-- Rows times the column of norms, at entry (r, q). -/
theorem scaleCol32_apply8 (h : Cert.GraphConv.Arr Cert.ReferenceIdeal.S100000x32) (s : Cert.GraphConv.Arr Cert.ReferenceIdeal.S100000x1) (r : Fin 100000) (q : Fin 32) :
    Cert.GraphConv.scaleCol32 h s (ix2 r q) = h (ix2 r q) * s (ix2 r (0 : Fin 1)) := by
  unfold Cert.GraphConv.scaleCol32
  refine (mulf_apply _ _ _).trans ?_
  refine congrArg (h (ix2 r q) * ·) ?_
  exact broadcastInDim_apply _ Cert.ReferenceIdeal.Gen.bcast_S100000x1_S100000x32_0_1 s (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- THE WHOLE-ARRAY FUNCTION AT ONE ENTRY: (row r of h) · (column q of W), times entry r of the column of norms. -/
theorem projScale64to32_apply8 (h : Cert.GraphConv.Arr Cert.ReferenceIdeal.S100000x64) (w : Cert.GraphConv.Arr Cert.ReferenceIdeal.S64x32)
    (s : Cert.GraphConv.Arr Cert.ReferenceIdeal.S100000x1) (r : Fin 100000) (q : Fin 32) :
    Cert.GraphConv.projScale64to32 h w s (ix2 r q) = (∑ k : Fin 64, h (ix2 r k) * w (ix2 k q)) * s (ix2 r (0 : Fin 1)) := by
  unfold Cert.GraphConv.projScale64to32
  rw [scaleCol32_apply8, dot8_apply]

/-! ## From the blocks to the array -/

theorem offsets8 : (![0, 0] : Fin 2 → Nat) = fun _ => 0 := funext fun a => by fin_cases a <;> rfl

/-- The printed index maps over the 25 grid points: the blocks of h and of the norms move with the output's block along
    the rows, the weights stay, and no block index leaves its range. -/
theorem index_facts8 : ∀ t : Fin cfg8.N, win8_0.index t (0 : Fin 2) = win8_3.index t (0 : Fin 2)
    ∧ win8_0.index t (1 : Fin 2) = 0
    ∧ win8_1.index t (0 : Fin 2) = 0
    ∧ win8_1.index t (1 : Fin 2) = 0
    ∧ win8_2.index t (0 : Fin 2) = win8_3.index t (0 : Fin 2)
    ∧ win8_2.index t (1 : Fin 2) = 0
    ∧ win8_3.index t (1 : Fin 2) = 0
    ∧ win8_3.index t (0 : Fin 2) ≤ 24 :=
  (by decide +kernel : ∀ t : Fin grid8.N, _)

/-- Every one of the 25 row blocks is some point's. -/
theorem index_onto8 : ∀ q0 : Fin 25, ∃ t : Fin cfg8.N, win8_3.index t = ![q0.val, 0] :=
  (by decide +kernel : ∀ q0 : Fin 25, ∃ t : Fin grid8.N, win8_3.index t = ![q0.val, 0])

section
variable (V : (c : Dev nD) → (b : Ref sig .tc) → Buf (Elt Ideal) ((c : Thread nD τ).loc b))

/-- The block of h at point t, at (p, k), is h at row (block index · 4000 + p). -/
theorem read8_0 (c : Dev nD) (t : Fin cfg8.N) (p : Fin 4000) (k : Fin 64) (r : Fin 100000)
    (hr : r.val = win8_3.index t (0 : Fin 2) * 4000 + p.val) :
    iblk8 V c 0 t (ix2 p k) = V c (Pipeline.arrRef spec8 0) (ix2 r k) := by
  obtain ⟨e00, e01, -⟩ := index_facts8 t
  show V c (Pipeline.arrRef spec8 0) (((cfg8.win 0).blk t).view.emb (ix2 p k)) = V c (Pipeline.arrRef spec8 0) (ix2 r k)
  refine congrArg _ (funext fun a => Fin.ext ?_)
  match a with
  | ⟨0, _⟩ => show win8_0.index t (0 : Fin 2) * 4000 + 1 * p.val = r.val; omega
  | ⟨1, _⟩ => show win8_0.index t (1 : Fin 2) * 64 + 1 * k.val = k.val; omega

/-- The block of W at any point is W. -/
theorem read8_1 (c : Dev nD) (t : Fin cfg8.N) (k : Fin 64) (q : Fin 32) :
    iblk8 V c 1 t (ix2 k q) = V c (Pipeline.arrRef spec8 1) (ix2 k q) := by
  obtain ⟨-, -, e10, e11, -⟩ := index_facts8 t
  show V c (Pipeline.arrRef spec8 1) (((cfg8.win 1).blk t).view.emb (ix2 k q)) = V c (Pipeline.arrRef spec8 1) (ix2 k q)
  refine congrArg _ (funext fun a => Fin.ext ?_)
  match a with
  | ⟨0, _⟩ => show win8_1.index t (0 : Fin 2) * 64 + 1 * k.val = k.val; omega
  | ⟨1, _⟩ => show win8_1.index t (1 : Fin 2) * 32 + 1 * q.val = q.val; omega

/-- The block of norms at point t, at (p, 0), is the column at row (block index · 4000 + p). -/
theorem read8_2 (c : Dev nD) (t : Fin cfg8.N) (p : Fin 4000) (r : Fin 100000)
    (hr : r.val = win8_3.index t (0 : Fin 2) * 4000 + p.val) :
    iblk8 V c 2 t (ix2 p (0 : Fin 1)) = V c (Pipeline.arrRef spec8 2) (ix2 r (0 : Fin 1)) := by
  obtain ⟨-, -, -, -, e20, e21, -⟩ := index_facts8 t
  show V c (Pipeline.arrRef spec8 2) (((cfg8.win 2).blk t).view.emb (ix2 p (0 : Fin 1))) = V c (Pipeline.arrRef spec8 2) (ix2 r (0 : Fin 1))
  refine congrArg _ (funext fun a => Fin.ext ?_)
  match a with
  | ⟨0, _⟩ => show win8_2.index t (0 : Fin 2) * 4000 + 1 * p.val = r.val; omega
  | ⟨1, _⟩ => show win8_2.index t (1 : Fin 2) * 1 + 1 * 0 = 0; omega

/-- WHAT POINT t WRITES BACK is block t of (h W) · ns of the arrays as the region finds them. -/
theorem written8 (c : Dev nD) (t : Fin cfg8.N) :
    (dat8 (F := Ideal) V c).flushed 3 t = ((cfg8.win 3).blk t).view.read (Elt Ideal)
      (Cert.GraphConv.projScale64to32 (V c (Pipeline.arrRef spec8 0)) (V c (Pipeline.arrRef spec8 1)) (V c (Pipeline.arrRef spec8 2))) := by
  show (cfg8.win 3).cut (grid8.coords t) ((dat8 (F := Ideal) V c).after 3 t) = _
  rw [after8_3]
  unfold out8_3
  rw [View.canon_unit_zero offsets8]
  simp only [View.ld_unit_zero (S := S4000x64) offsets8, View.ld_unit_zero (S := S64x32) offsets8, View.ld_unit_zero (S := S4000x1) offsets8]
  obtain ⟨-, -, -, -, -, -, e31, hi⟩ := index_facts8 t
  funext y
  have hp : (y 0).val < 4000 := (y 0).isLt
  have hq : (y 1).val < 32 := (y 1).isLt
  have hr : win8_3.index t (0 : Fin 2) * 4000 + (y 0).val < 100000 := by omega
  have hx : (cfg8.win 3).xinj (grid8.coords t) y = ix2 (⟨(y 0).val, hp⟩ : Fin 4000) (⟨(y 1).val, hq⟩ : Fin 32) :=
    funext fun a => by match a with | ⟨0, _⟩ => rfl | ⟨1, _⟩ => rfl
  have hemb : ((cfg8.win 3).blk t).view.emb y = ix2 (⟨win8_3.index t (0 : Fin 2) * 4000 + (y 0).val, hr⟩ : Fin 100000) (⟨(y 1).val, hq⟩ : Fin 32) :=
    funext fun a => Fin.ext (by
      match a with
      | ⟨0, _⟩ => show win8_3.index t (0 : Fin 2) * 4000 + 1 * (y 0).val = win8_3.index t (0 : Fin 2) * 4000 + (y 0).val; omega
      | ⟨1, _⟩ => show win8_3.index t (1 : Fin 2) * 32 + 1 * (y 1).val = (y 1).val; omega)
  show k8_pay1 (F := Ideal) (iblk8 V c 0 t) (iblk8 V c 1 t) (iblk8 V c 2 t) ((cfg8.win 3).xinj (grid8.coords t) y)
    = Cert.GraphConv.projScale64to32 (V c (Pipeline.arrRef spec8 0)) (V c (Pipeline.arrRef spec8 1)) (V c (Pipeline.arrRef spec8 2)) (((cfg8.win 3).blk t).view.emb y)
  refine (congrArg _ hx).trans ?_
  refine Eq.trans ?_ (congrArg _ hemb.symm)
  refine (body8_apply (iblk8 V c 0 t) (iblk8 V c 1 t) (iblk8 V c 2 t) _ _).trans ?_
  refine Eq.trans ?_ (projScale64to32_apply8 _ _ _ _ _).symm
  refine congrArg₂ (· * ·) (Finset.sum_congr rfl fun k _ => congrArg₂ (· * ·) ?_ ?_) ?_
  · exact read8_0 V c t _ k _ rfl
  · exact read8_1 V c t k _
  · exact read8_2 V c t _ _ rfl

/-- An index of the array is in point t's block iff each coordinate is in the block's range on its axis. -/
theorem mem_block8 (t : Fin cfg8.N) (i : S100000x32.Idx) :
    i ∈ ((cfg8.win 3).blk t).view.set ↔ ∀ a : Fin 2, win8_3.index t a * S4000x32.size a ≤ (i a).val ∧ (i a).val < win8_3.index t a * S4000x32.size a + S4000x32.size a := by
  show i ∈ ((View.whole main_v76).slice (win8_3.rect t)).set ↔ _
  rw [View.set_slice_whole, Rect.mem_set_unit]
  exact Iff.rfl

/-- The 25 blocks cover the array: row r is in block r / 4000. -/
theorem covered8 (i : S100000x32.Idx) : ∃ t : Fin cfg8.N, (cfg8.win 3).flush t = true ∧ i ∈ ((cfg8.win 3).blk t).view.set := by
  have hi0 : (i 0).val < 100000 := (i 0).isLt
  have hi1 : (i 1).val < 32 := (i 1).isLt
  obtain ⟨t, ht⟩ := index_onto8 ⟨(i 0).val / 4000, by omega⟩
  have q0 : win8_3.index t (0 : Fin 2) = (i 0).val / 4000 := congrFun ht 0
  have q1 : win8_3.index t (1 : Fin 2) = 0 := congrFun ht 1
  refine ⟨t, flush8_3 t, ?_⟩
  rw [mem_block8]
  intro a
  match a with
  | ⟨0, _⟩ => show win8_3.index t (0 : Fin 2) * 4000 ≤ (i 0).val ∧ (i 0).val < win8_3.index t (0 : Fin 2) * 4000 + 4000; omega
  | ⟨1, _⟩ => show win8_3.index t (1 : Fin 2) * 32 ≤ (i 1).val ∧ (i 1).val < win8_3.index t (1 : Fin 2) * 32 + 32; omega

/-- THE ARRAY after the region: (h W) · ns of the three input arrays as the region finds them. -/
theorem final8 (c : Dev nD) :
    (dat8 (F := Ideal) V c).arrAt 3 cfg8.N
      = Cert.GraphConv.projScale64to32 (V c (Pipeline.arrRef spec8 0)) (V c (Pipeline.arrRef spec8 1)) (V c (Pipeline.arrRef spec8 2)) :=
  (dat8 (F := Ideal) V c).arrAt_eq_of_cover 3 _ (fun t _ => written8 V c t) (covered8)

end

end Cert.KernelIdeal.Closed

end
-- ==== Proof.Region9.lean ====
/-
  The layer half "row r of a 32-column array times entry r of the column of norms, plus the bias row", as the tiled
  program computes it: 25 row blocks of 4000 rows each, every block the same pointwise function of its rows and of the
  one bias row.  The array the blocks leave is that function of the whole arrays.
-/
import proofs.«176802_j51384988729797_1_alg».proof.Proof.Gen.KernelIdeal.Frame
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen
open Idealize.ShloMosaic Idealize.ShloMosaic.TcCoe Idealize.ShloMosaic.ValueIdx Idealize.SL.Sem
open Idealize.ShloMosaic.Pipeline (Dat)

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row `p`, column `q` of a block: the block's entry times the row's norm, plus the bias of column `q`. -/
theorem pay9_apply (x0 : Vec Ideal S4000x32 .f32) (x1 : Vec Ideal S4000x1 .f32) (x2 : Vec Ideal S1x32 .f32) (p : Fin 4000) (q : Fin 32) :
    k9_pay1 x0 x1 x2 (ix2 p q) = x0 (ix2 p q) * x1 (ix2 p (0 : Fin 1)) + x2 (ix2 (0 : Fin 1) q) := by
  unfold k9_pay1
  show addf (F := Ideal) (φ := .f32)
      (mulf (F := Ideal) (φ := .f32) (shapeCast S4000x32 (x0 : FVec Ideal S4000x32 .f32) shapeCasts_S4000x32_S4000x32)
        (broadcastTo S4000x32 (shapeCast S4000x1 (x1 : FVec Ideal S4000x1 .f32) shapeCasts_S4000x1_S4000x1) broadcasts_S4000x1_S4000x32))
      (broadcastTo S4000x32 (shapeCast S1x32 (x2 : FVec Ideal S1x32 .f32) shapeCasts_S1x32_S1x32) broadcasts_S1x32_S4000x32) (ix2 p q) = _
  rw [addf_apply, mulf_apply, shapeCast_self, shapeCast_self, shapeCast_self]
  exact congrArg₂ (fun u v => x0 (ix2 p q) * u + v) (broadcastTo_a1_ab_apply x1 broadcasts_S4000x1_S4000x32 p q)
    (broadcastTo_1b_ab_apply x2 broadcasts_S1x32_S4000x32 p q)

/-- The whole-array function at row `r`, column `q`: the entry times the norm of row `r`, plus the bias of column `q`. -/
theorem scaleBias32_apply9 (h : Cert.GraphConv.Arr Cert.ReferenceIdeal.S100000x32) (s : Cert.GraphConv.Arr Cert.ReferenceIdeal.S100000x1)
    (b : Cert.GraphConv.Arr Cert.ReferenceIdeal.S1x32) (r : Fin 100000) (q : Fin 32) :
    Cert.GraphConv.scaleBias32 h s b (ix2 r q) = h (ix2 r q) * s (ix2 r (0 : Fin 1)) + b (ix2 (0 : Fin 1) q) := by
  unfold Cert.GraphConv.scaleBias32 Cert.GraphConv.scaleCol32
  rw [addf_apply, mulf_apply]
  refine congrArg₂ (fun u v => h (ix2 r q) * u + v) ?_ ?_
  · exact broadcastInDim_apply _ Cert.ReferenceIdeal.Gen.bcast_S100000x1_S100000x32_0_1 s (ix2 r q) (ix2 r (0 : Fin 1)) (fun a => match a with
      | ⟨0, _⟩ => by show r.val = if (100000 : Nat) = 1 then 0 else r.val; rw [if_neg (by decide)]
      | ⟨1, _⟩ => by show 0 = if (1 : Nat) = 1 then 0 else q.val; rw [if_pos rfl])
  · exact broadcastInDim_apply _ Cert.ReferenceIdeal.Gen.bcast_S1x32_S100000x32_0_1 b (ix2 r q) (ix2 (0 : Fin 1) q) (fun a => match a with
      | ⟨0, _⟩ => by show 0 = if (1 : Nat) = 1 then 0 else r.val; rw [if_pos rfl]
      | ⟨1, _⟩ => by show q.val = if (32 : Nat) = 1 then 0 else q.val; rw [if_neg (by decide)])

/-- One entry of a block against one entry of the whole array: equal inputs give equal results. -/
theorem block9_eq (A0 : Cert.GraphConv.Arr Cert.ReferenceIdeal.S100000x32) (A1 : Cert.GraphConv.Arr Cert.ReferenceIdeal.S100000x1)
    (A2 : Cert.GraphConv.Arr Cert.ReferenceIdeal.S1x32)
    (x0 : Vec Ideal S4000x32 .f32) (x1 : Vec Ideal S4000x1 .f32) (x2 : Vec Ideal S1x32 .f32) (p : Fin 4000) (q : Fin 32) (r : Fin 100000)
    (h0 : x0 (ix2 p q) = A0 (ix2 r q)) (h1 : x1 (ix2 p (0 : Fin 1)) = A1 (ix2 r (0 : Fin 1)))
    (h2 : x2 (ix2 (0 : Fin 1) q) = A2 (ix2 (0 : Fin 1) q)) :
    k9_pay1 x0 x1 x2 (ix2 p q) = Cert.GraphConv.scaleBias32 A0 A1 A2 (ix2 r q) := by
  rw [pay9_apply, scaleBias32_apply9, h0, h1, h2]

/-- A row of a block is a row of the array. -/
theorem row_lt9 (n p : Nat) (hn : n ≤ 24) (hp : p < 4000) : n * 4000 + p < 100000 := by omega

theorem hz9 : (![0, 0] : Fin 2 → Nat) = fun _ => 0 := funext fun a => by fin_cases a <;> rfl

/-- The index maps, decided over the 25 points: the two row-blocked inputs move with the output's block along the rows, the
    bias row stays where it is, and no block index leaves its range. -/
theorem idx_facts9 : ∀ t : Fin cfg9.N, win9_0.index t (0 : Fin 2) = win9_3.index t (0 : Fin 2)
    ∧ win9_0.index t (1 : Fin 2) = 0
    ∧ win9_1.index t (0 : Fin 2) = win9_3.index t (0 : Fin 2)
    ∧ win9_1.index t (1 : Fin 2) = 0
    ∧ win9_2.index t (0 : Fin 2) = 0
    ∧ win9_2.index t (1 : Fin 2) = 0
    ∧ win9_3.index t (0 : Fin 2) ≤ 24 ∧ win9_3.index t (1 : Fin 2) = 0 :=
  (by decide +kernel : ∀ t : Fin grid9.N, _)

/-- Every row block is some point's. -/
theorem idx_onto9 : ∀ q0 : Fin 25, ∃ t : Fin cfg9.N, win9_3.index t = ![q0.val, 0] :=
  (by decide +kernel : ∀ q0 : Fin 25, ∃ t : Fin grid9.N, win9_3.index t = ![q0.val, 0])

set_option maxHeartbeats 1000000 in
/-- What point `t` writes back is block `t` of the whole-array function of the arrays as the region finds them. -/
theorem flushed9_eq (V : (c : Dev nD) → (b : Ref sig .tc) → Buf (Elt Ideal) ((c : Thread nD τ).loc b)) (c : Dev nD) (t : Fin cfg9.N) :
    (dat9 (F := Ideal) V c).flushed 3 t = ((cfg9.win 3).blk t).view.read (Elt Ideal)
      (Cert.GraphConv.scaleBias32 (V c (Pipeline.arrRef spec9 0)) (V c (Pipeline.arrRef spec9 1)) (V c (Pipeline.arrRef spec9 2))) := by
  show (cfg9.win 3).cut (grid9.coords t) ((dat9 (F := Ideal) V c).after 3 t) = _
  rw [after9_3]
  unfold out9_3
  rw [View.canon_unit_zero hz9]
  simp only [View.ld_unit_zero (S := S4000x32) hz9, View.ld_unit_zero (S := S4000x1) hz9, View.ld_unit_zero (S := S1x32) hz9]
  obtain ⟨e0, e1, e2, e3, e4, e5, e6, e7⟩ := idx_facts9 t
  funext y
  obtain ⟨p, q, rfl⟩ : ∃ (p : Fin 4000) (q : Fin 32), y = ix2 p q := ⟨y 0, y 1, eq_ix2 y⟩
  have hr : win9_3.index t (0 : Fin 2) * 4000 + p.val < 100000 := row_lt9 _ _ e6 p.isLt
  show k9_pay1 (iblk9 V c 0 t) (iblk9 V c 1 t) (iblk9 V c 2 t) (ix2 p q)
    = Cert.GraphConv.scaleBias32 (V c (Pipeline.arrRef spec9 0)) (V c (Pipeline.arrRef spec9 1)) (V c (Pipeline.arrRef spec9 2)) (((cfg9.win 3).blk t).view.emb (ix2 p q))
  have h0 : ((cfg9.win 0).blk t).view.emb (ix2 p q) = ix2 (⟨win9_3.index t (0 : Fin 2) * 4000 + p.val, hr⟩ : Fin 100000) q := by
    funext a; apply Fin.ext
    match a with
    | ⟨0, _⟩ => show win9_0.index t (0 : Fin 2) * 4000 + 1 * p.val = win9_3.index t (0 : Fin 2) * 4000 + p.val; rw [e0, Nat.one_mul]
    | ⟨1, _⟩ => show win9_0.index t (1 : Fin 2) * 32 + 1 * q.val = q.val; rw [e1, Nat.zero_mul, Nat.zero_add, Nat.one_mul]
  have h1 : ((cfg9.win 1).blk t).view.emb (ix2 p (0 : Fin 1)) = ix2 (⟨win9_3.index t (0 : Fin 2) * 4000 + p.val, hr⟩ : Fin 100000) (0 : Fin 1) := by
    funext a; apply Fin.ext
    match a with
    | ⟨0, _⟩ => show win9_1.index t (0 : Fin 2) * 4000 + 1 * p.val = win9_3.index t (0 : Fin 2) * 4000 + p.val; rw [e2, Nat.one_mul]
    | ⟨1, _⟩ => show win9_1.index t (1 : Fin 2) * 1 + 1 * 0 = 0; rw [e3]
  have h2 : ((cfg9.win 2).blk t).view.emb (ix2 (0 : Fin 1) q) = ix2 (0 : Fin 1) q := by
    funext a; apply Fin.ext
    match a with
    | ⟨0, _⟩ => show win9_2.index t (0 : Fin 2) * 1 + 1 * 0 = 0; rw [e4]
    | ⟨1, _⟩ => show win9_2.index t (1 : Fin 2) * 32 + 1 * q.val = q.val; rw [e5, Nat.zero_mul, Nat.zero_add, Nat.one_mul]
  have h3 : ((cfg9.win 3).blk t).view.emb (ix2 p q) = ix2 (⟨win9_3.index t (0 : Fin 2) * 4000 + p.val, hr⟩ : Fin 100000) q := by
    funext a; apply Fin.ext
    match a with
    | ⟨0, _⟩ => show win9_3.index t (0 : Fin 2) * 4000 + 1 * p.val = win9_3.index t (0 : Fin 2) * 4000 + p.val; rw [Nat.one_mul]
    | ⟨1, _⟩ => show win9_3.index t (1 : Fin 2) * 32 + 1 * q.val = q.val; rw [e7, Nat.zero_mul, Nat.zero_add, Nat.one_mul]
  exact (block9_eq (V c (Pipeline.arrRef spec9 0)) (V c (Pipeline.arrRef spec9 1)) (V c (Pipeline.arrRef spec9 2))
    (iblk9 V c 0 t) (iblk9 V c 1 t) (iblk9 V c 2 t) p q
    ⟨win9_3.index t (0 : Fin 2) * 4000 + p.val, hr⟩
    (congrArg (V c (Pipeline.arrRef spec9 0)) h0) (congrArg (V c (Pipeline.arrRef spec9 1)) h1)
    (congrArg (V c (Pipeline.arrRef spec9 2)) h2)).trans
    (congrArg (Cert.GraphConv.scaleBias32 (V c (Pipeline.arrRef spec9 0)) (V c (Pipeline.arrRef spec9 1)) (V c (Pipeline.arrRef spec9 2))) h3.symm)

/-- An index of the array is in point `t`'s block iff each coordinate is in the block's range on its axis. -/
theorem mem_blk9 (t : Fin cfg9.N) (i : S100000x32.Idx) :
    i ∈ ((cfg9.win 3).blk t).view.set ↔ ∀ a : Fin 2, win9_3.index t a * S4000x32.size a ≤ (i a).val ∧ (i a).val < win9_3.index t a * S4000x32.size a + S4000x32.size a := by
  show i ∈ ((View.whole main_v89).slice (win9_3.rect t)).set ↔ _
  rw [View.set_slice_whole, Rect.mem_set_unit]
  exact Iff.rfl

/-- Every index of the array is in some point's block: row `r` is in block `r / 4000`. -/
theorem cover9 (i : S100000x32.Idx) : ∃ t : Fin cfg9.N, (cfg9.win 3).flush t = true ∧ i ∈ ((cfg9.win 3).blk t).view.set := by
  have hi0 : (i 0).val < 100000 := (i 0).isLt
  have hi1 : (i 1).val < 32 := (i 1).isLt
  obtain ⟨t, ht⟩ := idx_onto9 ⟨(i 0).val / 4000, by omega⟩
  have q0 : win9_3.index t (0 : Fin 2) = (i 0).val / 4000 := congrFun ht 0
  have q1 : win9_3.index t (1 : Fin 2) = 0 := congrFun ht 1
  refine ⟨t, flush9_3 t, ?_⟩
  rw [mem_blk9]
  intro a
  match a with
  | ⟨0, _⟩ => show win9_3.index t (0 : Fin 2) * 4000 ≤ (i 0).val ∧ (i 0).val < win9_3.index t (0 : Fin 2) * 4000 + 4000; omega
  | ⟨1, _⟩ => show win9_3.index t (1 : Fin 2) * 32 ≤ (i 1).val ∧ (i 1).val < win9_3.index t (1 : Fin 2) * 32 + 32; omega

/-- The array the region leaves: the rows of the first array scaled by the column of norms, plus the bias row. -/
theorem final9 (V : (c : Dev nD) → (b : Ref sig .tc) → Buf (Elt Ideal) ((c : Thread nD τ).loc b)) (c : Dev nD) :
    (dat9 (F := Ideal) V c).arrAt 3 cfg9.N
      = Cert.GraphConv.scaleBias32 (V c (Pipeline.arrRef spec9 0)) (V c (Pipeline.arrRef spec9 1)) (V c (Pipeline.arrRef spec9 2)) :=
  (dat9 (F := Ideal) V c).arrAt_eq_of_cover 3
    (Cert.GraphConv.scaleBias32 (V c (Pipeline.arrRef spec9 0)) (V c (Pipeline.arrRef spec9 1)) (V c (Pipeline.arrRef spec9 2)))
    (fun t _ => flushed9_eq V c t) cover9

end Cert.KernelIdeal.Closed

end
-- ==== Proof.Region10.lean ====
/-
  The first half of the 32 → 1 layer, on the 100000 rows cut into 25 blocks of 4000: at every grid point the body
  leaves, in its output block, the block's rows of  (h W) · ns  — row r of h against column q of W, summed over the 32
  features, times entry r of the column of norms —, and the 25 blocks tile the array. So the array after the region is
  (h W) · ns, the whole-array function of the region's three input arrays.
-/
import proofs.«176802_j51384988729797_1_alg».proof.Proof.Gen.KernelIdeal.Frame
import proofs.«176802_j51384988729797_1_alg».proof.Proof.Gen.ReferenceIdeal.Read
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Closed

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block body at one entry -/

/-- The block product's left operand index at output entry j and contraction index k: row of j, -/
theorem mm10_lhs_0 (j : S4000x1.Idx) (k : dot_S4000x32_S32x1_S4000x1_1_0_0_1_n_n.contr.Idx) :
    (dot_S4000x32_S32x1_S4000x1_1_0_0_1_n_n.lhsIdx j k 0).val = (j 0).val := by
  unfold DotDims.lhsIdx
  rw [dif_neg (show ¬(0 : Fin S4000x32.rank) ∈ dot_S4000x32_S32x1_S4000x1_1_0_0_1_n_n.lhsBatch by decide), dif_pos (show (0 : Fin S4000x32.rank) ∈ dot_S4000x32_S32x1_S4000x1_1_0_0_1_n_n.lhsNonContracting by decide)]
  rfl
/-- column k; -/
theorem mm10_lhs_1 (j : S4000x1.Idx) (k : dot_S4000x32_S32x1_S4000x1_1_0_0_1_n_n.contr.Idx) :
    (dot_S4000x32_S32x1_S4000x1_1_0_0_1_n_n.lhsIdx j k 1).val = (k ⟨0, by decide⟩).val :=
  dot_S4000x32_S32x1_S4000x1_1_0_0_1_n_n.lhsIdx_val_of_single rfl j k
/-- the right operand's: row k, -/
theorem mm10_rhs_0 (j : S4000x1.Idx) (k : dot_S4000x32_S32x1_S4000x1_1_0_0_1_n_n.contr.Idx) :
    (dot_S4000x32_S32x1_S4000x1_1_0_0_1_n_n.rhsIdx j k 0).val = (k ⟨0, by decide⟩).val :=
  dot_S4000x32_S32x1_S4000x1_1_0_0_1_n_n.rhsIdx_val_of_single rfl j k
/-- column of j. -/
theorem mm10_rhs_1 (j : S4000x1.Idx) (k : dot_S4000x32_S32x1_S4000x1_1_0_0_1_n_n.contr.Idx) :
    (dot_S4000x32_S32x1_S4000x1_1_0_0_1_n_n.rhsIdx j k 1).val = (j 1).val := by
  unfold DotDims.rhsIdx
  rw [dif_neg (show ¬(1 : Fin S32x1.rank) ∈ dot_S4000x32_S32x1_S4000x1_1_0_0_1_n_n.rhsBatch by decide), dif_pos (show (1 : Fin S32x1.rank) ∈ dot_S4000x32_S32x1_S4000x1_1_0_0_1_n_n.rhsNonContracting by decide)]
  rfl

/-- The block product into a zero accumulator, at entry (p, q): row p against column q, summed over the 32 features
    (on the extended reals the narrowing of the operands changes nothing). -/
theorem mm10_apply (x0 : FVec Ideal S4000x32 .f32) (x1 : FVec Ideal S32x1 .f32) (p : Fin 4000) (q : Fin 1) :
    matmul dot_S4000x32_S32x1_S4000x1_1_0_0_1_n_n none (truncf .bf16 x0 bitsLt_bf16_f32) (truncf .bf16 x1 bitsLt_bf16_f32)
        (constant S4000x1 .f32 0x00000000#32) (ix2 p q)
      = ∑ k : Fin 32, x0 (ix2 p k) * x1 (ix2 k q) := by
  simp only [matmul]
  rw [Ideal.matmul_constant_zero_apply, ← Equiv.sum_comp (contrEquiv1 dot_S4000x32_S32x1_S4000x1_1_0_0_1_n_n 32 rfl rfl).symm]
  refine Finset.sum_congr rfl fun k _ => ?_
  have hk := contrEquiv1_symm_val dot_S4000x32_S32x1_S4000x1_1_0_0_1_n_n 32 rfl rfl k
  have el : dot_S4000x32_S32x1_S4000x1_1_0_0_1_n_n.lhsIdx (ix2 p q) ((contrEquiv1 dot_S4000x32_S32x1_S4000x1_1_0_0_1_n_n 32 rfl rfl).symm k) = ix2 p k := funext fun a => Fin.ext (by
    match a with
    | ⟨0, _⟩ => exact mm10_lhs_0 _ _
    | ⟨1, _⟩ => exact (mm10_lhs_1 _ _).trans hk)
  have er : dot_S4000x32_S32x1_S4000x1_1_0_0_1_n_n.rhsIdx (ix2 p q) ((contrEquiv1 dot_S4000x32_S32x1_S4000x1_1_0_0_1_n_n 32 rfl rfl).symm k) = ix2 k q := funext fun a => Fin.ext (by
    match a with
    | ⟨0, _⟩ => exact (mm10_rhs_0 _ _).trans hk
    | ⟨1, _⟩ => exact mm10_rhs_1 _ _)
  rw [el, er]
  rfl

/-- THE BODY AT ONE ENTRY of its block: (row p of the block of h) · (column q of W), times entry p of the block of norms
    (one output column: the block of norms is multiplied in as it is). -/
theorem body10_apply (x0 : Vec Ideal S4000x32 .f32) (x1 : Vec Ideal S32x1 .f32) (x2 : Vec Ideal S4000x1 .f32) (p : Fin 4000) (q : Fin 1) :
    k10_pay1 (F := Ideal) x0 x1 x2 (ix2 p q) = (∑ k : Fin 32, x0 (ix2 p k) * x1 (ix2 k q)) * x2 (ix2 p q) := by
  unfold k10_pay1
  simp only [shapeCast_self]
  refine (mulf_apply _ _ _).trans ?_
  rw [mm10_apply]

/-! ## The whole-array function at one entry -/

/-- The reference's product at entry (r, q): row r of h against column q of W, summed over the 32 features. -/
theorem dot10_apply (h : Cert.GraphConv.Arr Cert.ReferenceIdeal.S100000x32) (w : Cert.GraphConv.Arr Cert.ReferenceIdeal.S32x1) (r : Fin 100000) (q : Fin 1) :
    Host.dotGeneral (F := Ideal) (φ₁ := .f32) (φ₂ := .f32) Cert.ReferenceIdeal.dot_S100000x32_S32x1_S100000x1_1_0_0_1_n_n none h w (ix2 r q)
      = ∑ k : Fin 32, h (ix2 r k) * w (ix2 k q) := by
  simp only [Host.dotGeneral]
  rw [Ideal.dotGeneral_apply, ← Equiv.sum_comp (contrEquiv1 Cert.ReferenceIdeal.dot_S100000x32_S32x1_S100000x1_1_0_0_1_n_n 32 rfl rfl).symm]
  refine Finset.sum_congr rfl fun k _ => ?_
  have hk := contrEquiv1_symm_val Cert.ReferenceIdeal.dot_S100000x32_S32x1_S100000x1_1_0_0_1_n_n 32 rfl rfl k
  have el : Cert.ReferenceIdeal.dot_S100000x32_S32x1_S100000x1_1_0_0_1_n_n.lhsIdx (ix2 r q) ((contrEquiv1 Cert.ReferenceIdeal.dot_S100000x32_S32x1_S100000x1_1_0_0_1_n_n 32 rfl rfl).symm k) = ix2 r k := funext fun a => Fin.ext (by
    match a with
    | ⟨0, _⟩ => exact Cert.ReferenceIdeal.Read.lhs_main_v113_0 _ _
    | ⟨1, _⟩ => exact (Cert.ReferenceIdeal.Read.lhs_main_v113_1 _ _).trans hk)
  have er : Cert.ReferenceIdeal.dot_S100000x32_S32x1_S100000x1_1_0_0_1_n_n.rhsIdx (ix2 r q) ((contrEquiv1 Cert.ReferenceIdeal.dot_S100000x32_S32x1_S100000x1_1_0_0_1_n_n 32 rfl rfl).symm k) = ix2 k q := funext fun a => Fin.ext (by
    match a with
    | ⟨0, _⟩ => exact (Cert.ReferenceIdeal.Read.rhs_main_v113_0 _ _).trans hk
    | ⟨1, _⟩ => exact Cert.ReferenceIdeal.Read.rhs_main_v113_1 _ _)
  rw [el, er]

/-- Rows of a one-column array times the column of norms, at entry (r, q). -/
theorem scaleCol1_apply10 (h s : Cert.GraphConv.Arr Cert.ReferenceIdeal.S100000x1) (r : Fin 100000) (q : Fin 1) :
    Cert.GraphConv.scaleCol1 h s (ix2 r q) = h (ix2 r q) * s (ix2 r q) := by
  unfold Cert.GraphConv.scaleCol1
  exact mulf_apply _ _ _

/-- THE WHOLE-ARRAY FUNCTION AT ONE ENTRY: (row r of h) · (column q of W), times entry r of the column of norms. -/
theorem projScale32to1_apply10 (h : Cert.GraphConv.Arr Cert.ReferenceIdeal.S100000x32) (w : Cert.GraphConv.Arr Cert.ReferenceIdeal.S32x1)
    (s : Cert.GraphConv.Arr Cert.ReferenceIdeal.S100000x1) (r : Fin 100000) (q : Fin 1) :
    Cert.GraphConv.projScale32to1 h w s (ix2 r q) = (∑ k : Fin 32, h (ix2 r k) * w (ix2 k q)) * s (ix2 r q) := by
  unfold Cert.GraphConv.projScale32to1
  rw [scaleCol1_apply10, dot10_apply]

/-! ## From the blocks to the array -/

theorem offsets10 : (![0, 0] : Fin 2 → Nat) = fun _ => 0 := funext fun a => by fin_cases a <;> rfl

/-- The printed index maps over the 25 grid points: the blocks of h and of the norms move with the output's block along
    the rows, the weights stay, and no block index leaves its range. -/
theorem index_facts10 : ∀ t : Fin cfg10.N, win10_0.index t (0 : Fin 2) = win10_3.index t (0 : Fin 2)
    ∧ win10_0.index t (1 : Fin 2) = 0
    ∧ win10_1.index t (0 : Fin 2) = 0
    ∧ win10_1.index t (1 : Fin 2) = 0
    ∧ win10_2.index t (0 : Fin 2) = win10_3.index t (0 : Fin 2)
    ∧ win10_2.index t (1 : Fin 2) = 0
    ∧ win10_3.index t (1 : Fin 2) = 0
    ∧ win10_3.index t (0 : Fin 2) ≤ 24 :=
  (by decide +kernel : ∀ t : Fin grid10.N, _)

/-- Every one of the 25 row blocks is some point's. -/
theorem index_onto10 : ∀ q0 : Fin 25, ∃ t : Fin cfg10.N, win10_3.index t = ![q0.val, 0] :=
  (by decide +kernel : ∀ q0 : Fin 25, ∃ t : Fin grid10.N, win10_3.index t = ![q0.val, 0])

section
variable (V : (c : Dev nD) → (b : Ref sig .tc) → Buf (Elt Ideal) ((c : Thread nD τ).loc b))

/-- The block of h at point t, at (p, k), is h at row (block index · 4000 + p). -/
theorem read10_0 (c : Dev nD) (t : Fin cfg10.N) (p : Fin 4000) (k : Fin 32) (r : Fin 100000)
    (hr : r.val = win10_3.index t (0 : Fin 2) * 4000 + p.val) :
    iblk10 V c 0 t (ix2 p k) = V c (Pipeline.arrRef spec10 0) (ix2 r k) := by
  obtain ⟨e00, e01, -⟩ := index_facts10 t
  show V c (Pipeline.arrRef spec10 0) (((cfg10.win 0).blk t).view.emb (ix2 p k)) = V c (Pipeline.arrRef spec10 0) (ix2 r k)
  refine congrArg _ (funext fun a => Fin.ext ?_)
  match a with
  | ⟨0, _⟩ => show win10_0.index t (0 : Fin 2) * 4000 + 1 * p.val = r.val; omega
  | ⟨1, _⟩ => show win10_0.index t (1 : Fin 2) * 32 + 1 * k.val = k.val; omega

/-- The block of W at any point is W. -/
theorem read10_1 (c : Dev nD) (t : Fin cfg10.N) (k : Fin 32) (q : Fin 1) :
    iblk10 V c 1 t (ix2 k q) = V c (Pipeline.arrRef spec10 1) (ix2 k q) := by
  obtain ⟨-, -, e10, e11, -⟩ := index_facts10 t
  show V c (Pipeline.arrRef spec10 1) (((cfg10.win 1).blk t).view.emb (ix2 k q)) = V c (Pipeline.arrRef spec10 1) (ix2 k q)
  refine congrArg _ (funext fun a => Fin.ext ?_)
  match a with
  | ⟨0, _⟩ => show win10_1.index t (0 : Fin 2) * 32 + 1 * k.val = k.val; omega
  | ⟨1, _⟩ => show win10_1.index t (1 : Fin 2) * 1 + 1 * q.val = q.val; omega

/-- The block of norms at point t, at (p, q), is the column at row (block index · 4000 + p). -/
theorem read10_2 (c : Dev nD) (t : Fin cfg10.N) (p : Fin 4000) (q : Fin 1) (r : Fin 100000)
    (hr : r.val = win10_3.index t (0 : Fin 2) * 4000 + p.val) :
    iblk10 V c 2 t (ix2 p q) = V c (Pipeline.arrRef spec10 2) (ix2 r q) := by
  obtain ⟨-, -, -, -, e20, e21, -⟩ := index_facts10 t
  show V c (Pipeline.arrRef spec10 2) (((cfg10.win 2).blk t).view.emb (ix2 p q)) = V c (Pipeline.arrRef spec10 2) (ix2 r q)
  refine congrArg _ (funext fun a => Fin.ext ?_)
  match a with
  | ⟨0, _⟩ => show win10_2.index t (0 : Fin 2) * 4000 + 1 * p.val = r.val; omega
  | ⟨1, _⟩ => show win10_2.index t (1 : Fin 2) * 1 + 1 * q.val = q.val; omega

/-- WHAT POINT t WRITES BACK is block t of (h W) · ns of the arrays as the region finds them. -/
theorem written10 (c : Dev nD) (t : Fin cfg10.N) :
    (dat10 (F := Ideal) V c).flushed 3 t = ((cfg10.win 3).blk t).view.read (Elt Ideal)
      (Cert.GraphConv.projScale32to1 (V c (Pipeline.arrRef spec10 0)) (V c (Pipeline.arrRef spec10 1)) (V c (Pipeline.arrRef spec10 2))) := by
  show (cfg10.win 3).cut (grid10.coords t) ((dat10 (F := Ideal) V c).after 3 t) = _
  rw [after10_3]
  unfold out10_3
  rw [View.canon_unit_zero offsets10]
  simp only [View.ld_unit_zero (S := S4000x32) offsets10, View.ld_unit_zero (S := S32x1) offsets10, View.ld_unit_zero (S := S4000x1) offsets10]
  obtain ⟨-, -, -, -, -, -, e31, hi⟩ := index_facts10 t
  funext y
  have hp : (y 0).val < 4000 := (y 0).isLt
  have hq : (y 1).val < 1 := (y 1).isLt
  have hr : win10_3.index t (0 : Fin 2) * 4000 + (y 0).val < 100000 := by omega
  have hx : (cfg10.win 3).xinj (grid10.coords t) y = ix2 (⟨(y 0).val, hp⟩ : Fin 4000) (⟨(y 1).val, hq⟩ : Fin 1) :=
    funext fun a => by match a with | ⟨0, _⟩ => rfl | ⟨1, _⟩ => rfl
  have hemb : ((cfg10.win 3).blk t).view.emb y = ix2 (⟨win10_3.index t (0 : Fin 2) * 4000 + (y 0).val, hr⟩ : Fin 100000) (⟨(y 1).val, hq⟩ : Fin 1) :=
    funext fun a => Fin.ext (by
      match a with
      | ⟨0, _⟩ => show win10_3.index t (0 : Fin 2) * 4000 + 1 * (y 0).val = win10_3.index t (0 : Fin 2) * 4000 + (y 0).val; omega
      | ⟨1, _⟩ => show win10_3.index t (1 : Fin 2) * 1 + 1 * (y 1).val = (y 1).val; omega)
  show k10_pay1 (F := Ideal) (iblk10 V c 0 t) (iblk10 V c 1 t) (iblk10 V c 2 t) ((cfg10.win 3).xinj (grid10.coords t) y)
    = Cert.GraphConv.projScale32to1 (V c (Pipeline.arrRef spec10 0)) (V c (Pipeline.arrRef spec10 1)) (V c (Pipeline.arrRef spec10 2)) (((cfg10.win 3).blk t).view.emb y)
  refine (congrArg _ hx).trans ?_
  refine Eq.trans ?_ (congrArg _ hemb.symm)
  refine (body10_apply (iblk10 V c 0 t) (iblk10 V c 1 t) (iblk10 V c 2 t) _ _).trans ?_
  refine Eq.trans ?_ (projScale32to1_apply10 _ _ _ _ _).symm
  refine congrArg₂ (· * ·) (Finset.sum_congr rfl fun k _ => congrArg₂ (· * ·) ?_ ?_) ?_
  · exact read10_0 V c t _ k _ rfl
  · exact read10_1 V c t k _
  · exact read10_2 V c t _ _ _ rfl

/-- An index of the array is in point t's block iff each coordinate is in the block's range on its axis. -/
theorem mem_block10 (t : Fin cfg10.N) (i : S100000x1.Idx) :
    i ∈ ((cfg10.win 3).blk t).view.set ↔ ∀ a : Fin 2, win10_3.index t a * S4000x1.size a ≤ (i a).val ∧ (i a).val < win10_3.index t a * S4000x1.size a + S4000x1.size a := by
  show i ∈ ((View.whole main_v91).slice (win10_3.rect t)).set ↔ _
  rw [View.set_slice_whole, Rect.mem_set_unit]
  exact Iff.rfl

/-- The 25 blocks cover the array: row r is in block r / 4000. -/
theorem covered10 (i : S100000x1.Idx) : ∃ t : Fin cfg10.N, (cfg10.win 3).flush t = true ∧ i ∈ ((cfg10.win 3).blk t).view.set := by
  have hi0 : (i 0).val < 100000 := (i 0).isLt
  have hi1 : (i 1).val < 1 := (i 1).isLt
  obtain ⟨t, ht⟩ := index_onto10 ⟨(i 0).val / 4000, by omega⟩
  have q0 : win10_3.index t (0 : Fin 2) = (i 0).val / 4000 := congrFun ht 0
  have q1 : win10_3.index t (1 : Fin 2) = 0 := congrFun ht 1
  refine ⟨t, flush10_3 t, ?_⟩
  rw [mem_block10]
  intro a
  match a with
  | ⟨0, _⟩ => show win10_3.index t (0 : Fin 2) * 4000 ≤ (i 0).val ∧ (i 0).val < win10_3.index t (0 : Fin 2) * 4000 + 4000; omega
  | ⟨1, _⟩ => show win10_3.index t (1 : Fin 2) * 1 ≤ (i 1).val ∧ (i 1).val < win10_3.index t (1 : Fin 2) * 1 + 1; omega

/-- THE ARRAY after the region: (h W) · ns of the three input arrays as the region finds them. -/
theorem final10 (c : Dev nD) :
    (dat10 (F := Ideal) V c).arrAt 3 cfg10.N
      = Cert.GraphConv.projScale32to1 (V c (Pipeline.arrRef spec10 0)) (V c (Pipeline.arrRef spec10 1)) (V c (Pipeline.arrRef spec10 2)) :=
  (dat10 (F := Ideal) V c).arrAt_eq_of_cover 3 _ (fun t _ => written10 V c t) (covered10)

end

end Cert.KernelIdeal.Closed

end
-- ==== Proof.Region11.lean ====
/-
  The second half of the last layer (one feature), on the 100000 rows cut into 25 blocks of 4000: at every grid point the
  body leaves, in its output block, the block's rows of  |agg · nd + b|  — entry r of agg times entry r of the column of
  norms, plus the one bias, and of that value t the choice "t where t ≥ 0, else −t" (the body spells −t as 0 − t, the same
  extended real) —, and the 25 blocks tile the array. So the array after the region is that whole-array function of the
  region's three input arrays.
-/
import proofs.«176802_j51384988729797_1_alg».proof.Proof.Gen.KernelIdeal.Frame
import proofs.«176802_j51384988729797_1_alg».proof.Proof.Gen.ReferenceIdeal.Read
import proofs.«176802_j51384988729797_1_alg».proof.Proof.LayerHalves
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Closed

open Cert.KernelIdeal Cert.KernelIdeal.Gen Idealize.ShloMosaic Idealize.ShloMosaic.TcCoe Idealize.SL.Sem
open Idealize.ShloMosaic.Pipeline (Dat)
open Idealize.ShloMosaic.ValueIdx

/-- |t| as both programs spell it on one extended real: t where t ≥ 0, else −t. -/
def pick11 (t : EReal) : EReal := Scalar.select (Ideal.cmp .oge t 0) t (-t)

/-! ## The block body at one entry -/

/-- The one bias [1, 1] broadcast along 4000 rows reads, at (p, q), the bias. -/
theorem bias11_apply (v : FVec Ideal S1x1 .f32) (p : Fin 4000) (q : Fin 1) :
    broadcastTo S4000x1 v broadcasts_S1x1_S4000x1 (ix2 p q) = v (ix2 (0 : Fin 1) (0 : Fin 1)) := by
  refine broadcastTo_apply v broadcasts_S1x1_S4000x1 (ix2 p q) (ix2 (0 : Fin 1) (0 : Fin 1)) fun ax => ?_
  match ax with
  | ⟨0, _⟩ => show 0 = if (1 : Nat) = 1 then 0 else p.val; rw [if_pos rfl]
  | ⟨1, _⟩ => show 0 = if (1 : Nat) = 1 then 0 else q.val; rw [if_pos rfl]

/-- The body's choice "t where t ≥ 0, else 0 − t", at one entry: the zero word is the extended real 0, and 0 − t = −t. -/
theorem choice11_apply (t : FVec Ideal S4000x1 .f32) (j : S4000x1.Idx) :
    select (cmpf .oge t (broadcast S4000x1 (Scalar.ofBits (F := Ideal) .f32 0x00000000#32))) t
        (subf (broadcast S4000x1 (Scalar.ofBits (F := Ideal) .f32 0x00000000#32)) t) j
      = pick11 (t j) := by
  show Scalar.select (Ideal.cmp .oge (t j) (Ideal.ofBits .f32 0x00000000#32)) (t j) (Ideal.ofBits .f32 0x00000000#32 - t j) = _
  rw [Ideal.ofBits_zero_f32, zero_sub]
  rfl

/-- THE BODY AT ONE ENTRY of its block: |entry p of the block of agg times entry p of the block of norms, plus the bias|. -/
theorem body11_apply (x0 x1 : Vec Ideal S4000x1 .f32) (x2 : Vec Ideal S1x1 .f32) (p : Fin 4000) (q : Fin 1) :
    k11_pay1 (F := Ideal) x0 x1 x2 (ix2 p q) = pick11 (x0 (ix2 p q) * x1 (ix2 p q) + x2 (ix2 (0 : Fin 1) (0 : Fin 1))) := by
  unfold k11_pay1
  simp only [shapeCast_self]
  refine (choice11_apply _ _).trans (congrArg pick11 ?_)
  refine (addf_apply _ _ _).trans ?_
  rw [bias11_apply]
  rfl

/-! ## The whole-array function at one entry -/

/-- (agg · nd) + b at entry (r, q). -/
theorem scaleBias1_apply11 (h s : Cert.GraphConv.Arr Cert.ReferenceIdeal.S100000x1) (b : Cert.GraphConv.Arr Cert.ReferenceIdeal.S1x1) (r : Fin 100000) (q : Fin 1) :
    Cert.GraphConv.scaleBias1 h s b (ix2 r q) = h (ix2 r q) * s (ix2 r q) + b (ix2 (0 : Fin 1) (0 : Fin 1)) := by
  unfold Cert.GraphConv.scaleBias1 Cert.GraphConv.scaleCol1
  refine (addf_apply _ _ _).trans ?_
  refine congrArg (h (ix2 r q) * s (ix2 r q) + ·) ?_
  exact broadcastInDim_apply _ Cert.ReferenceIdeal.Gen.bcast_S1x1_S100000x1_0_1 b (ix2 r q) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else q.val; rw [if_pos rfl])

/-- The reference's choice "t where t ≥ 0, else −t", at one entry. -/
theorem absWhere_apply11 (t : Cert.GraphConv.Arr Cert.ReferenceIdeal.S100000x1) (i : Cert.ReferenceIdeal.S100000x1.Idx) :
    Cert.GraphConv.absWhere t i = pick11 (t i) := by
  unfold Cert.GraphConv.absWhere
  show Scalar.select (Ideal.cmp .oge (t i) (Ideal.ofBits .f32 0x00000000#32)) (t i) (-(t i)) = _
  rw [Ideal.ofBits_zero_f32]
  rfl

/-- THE WHOLE-ARRAY FUNCTION AT ONE ENTRY: |entry r of agg times entry r of the column of norms, plus the bias|. -/
theorem scaleBiasAbs1_apply11 (h s : Cert.GraphConv.Arr Cert.ReferenceIdeal.S100000x1) (b : Cert.GraphConv.Arr Cert.ReferenceIdeal.S1x1) (r : Fin 100000) (q : Fin 1) :
    Cert.GraphConv.scaleBiasAbs1 h s b (ix2 r q) = pick11 (h (ix2 r q) * s (ix2 r q) + b (ix2 (0 : Fin 1) (0 : Fin 1))) := by
  unfold Cert.GraphConv.scaleBiasAbs1
  rw [absWhere_apply11, scaleBias1_apply11]

/-! ## From the blocks to the array -/

theorem offsets11 : (![0, 0] : Fin 2 → Nat) = fun _ => 0 := funext fun a => by fin_cases a <;> rfl

/-- The printed index maps over the 25 grid points: the blocks of agg and of the norms move with the output's block along
    the rows, the bias stays, and no block index leaves its range. -/
theorem index_facts11 : ∀ t : Fin cfg11.N, win11_0.index t (0 : Fin 2) = win11_3.index t (0 : Fin 2)
    ∧ win11_0.index t (1 : Fin 2) = 0
    ∧ win11_1.index t (0 : Fin 2) = win11_3.index t (0 : Fin 2)
    ∧ win11_1.index t (1 : Fin 2) = 0
    ∧ win11_2.index t (0 : Fin 2) = 0
    ∧ win11_2.index t (1 : Fin 2) = 0
    ∧ win11_3.index t (1 : Fin 2) = 0
    ∧ win11_3.index t (0 : Fin 2) ≤ 24 :=
  (by decide +kernel : ∀ t : Fin grid11.N, _)

/-- Every one of the 25 row blocks is some point's. -/
theorem index_onto11 : ∀ q0 : Fin 25, ∃ t : Fin cfg11.N, win11_3.index t = ![q0.val, 0] :=
  (by decide +kernel : ∀ q0 : Fin 25, ∃ t : Fin grid11.N, win11_3.index t = ![q0.val, 0])

section
variable (V : (c : Dev nD) → (b : Ref sig .tc) → Buf (Elt Ideal) ((c : Thread nD τ).loc b))

/-- The block of agg at point t, at (p, q), is agg at row (block index · 4000 + p). -/
theorem read11_0 (c : Dev nD) (t : Fin cfg11.N) (p : Fin 4000) (q : Fin 1) (r : Fin 100000)
    (hr : r.val = win11_3.index t (0 : Fin 2) * 4000 + p.val) :
    iblk11 V c 0 t (ix2 p q) = V c (Pipeline.arrRef spec11 0) (ix2 r q) := by
  obtain ⟨e00, e01, -⟩ := index_facts11 t
  show V c (Pipeline.arrRef spec11 0) (((cfg11.win 0).blk t).view.emb (ix2 p q)) = V c (Pipeline.arrRef spec11 0) (ix2 r q)
  refine congrArg _ (funext fun a => Fin.ext ?_)
  match a with
  | ⟨0, _⟩ => show win11_0.index t (0 : Fin 2) * 4000 + 1 * p.val = r.val; omega
  | ⟨1, _⟩ => show win11_0.index t (1 : Fin 2) * 1 + 1 * q.val = q.val; omega

/-- The block of norms at point t, at (p, q), is the column at row (block index · 4000 + p). -/
theorem read11_1 (c : Dev nD) (t : Fin cfg11.N) (p : Fin 4000) (q : Fin 1) (r : Fin 100000)
    (hr : r.val = win11_3.index t (0 : Fin 2) * 4000 + p.val) :
    iblk11 V c 1 t (ix2 p q) = V c (Pipeline.arrRef spec11 1) (ix2 r q) := by
  obtain ⟨-, -, e10, e11, -⟩ := index_facts11 t
  show V c (Pipeline.arrRef spec11 1) (((cfg11.win 1).blk t).view.emb (ix2 p q)) = V c (Pipeline.arrRef spec11 1) (ix2 r q)
  refine congrArg _ (funext fun a => Fin.ext ?_)
  match a with
  | ⟨0, _⟩ => show win11_1.index t (0 : Fin 2) * 4000 + 1 * p.val = r.val; omega
  | ⟨1, _⟩ => show win11_1.index t (1 : Fin 2) * 1 + 1 * q.val = q.val; omega

/-- The block of the bias at any point is the bias. -/
theorem read11_2 (c : Dev nD) (t : Fin cfg11.N) :
    iblk11 V c 2 t (ix2 (0 : Fin 1) (0 : Fin 1)) = V c (Pipeline.arrRef spec11 2) (ix2 (0 : Fin 1) (0 : Fin 1)) := by
  obtain ⟨-, -, -, -, e20, e21, -⟩ := index_facts11 t
  show V c (Pipeline.arrRef spec11 2) (((cfg11.win 2).blk t).view.emb (ix2 (0 : Fin 1) (0 : Fin 1))) = V c (Pipeline.arrRef spec11 2) (ix2 (0 : Fin 1) (0 : Fin 1))
  refine congrArg _ (funext fun a => Fin.ext ?_)
  match a with
  | ⟨0, _⟩ => show win11_2.index t (0 : Fin 2) * 1 + 1 * 0 = 0; omega
  | ⟨1, _⟩ => show win11_2.index t (1 : Fin 2) * 1 + 1 * 0 = 0; omega

/-- WHAT POINT t WRITES BACK is block t of |agg · nd + b| of the arrays as the region finds them. -/
theorem written11 (c : Dev nD) (t : Fin cfg11.N) :
    (dat11 (F := Ideal) V c).flushed 3 t = ((cfg11.win 3).blk t).view.read (Elt Ideal)
      (Cert.GraphConv.scaleBiasAbs1 (V c (Pipeline.arrRef spec11 0)) (V c (Pipeline.arrRef spec11 1)) (V c (Pipeline.arrRef spec11 2))) := by
  show (cfg11.win 3).cut (grid11.coords t) ((dat11 (F := Ideal) V c).after 3 t) = _
  rw [after11_3]
  unfold out11_3
  rw [View.canon_unit_zero offsets11]
  simp only [View.ld_unit_zero (S := S4000x1) offsets11, View.ld_unit_zero (S := S1x1) offsets11]
  obtain ⟨-, -, -, -, -, -, e31, hi⟩ := index_facts11 t
  funext y
  have hp : (y 0).val < 4000 := (y 0).isLt
  have hq : (y 1).val < 1 := (y 1).isLt
  have hr : win11_3.index t (0 : Fin 2) * 4000 + (y 0).val < 100000 := by omega
  have hx : (cfg11.win 3).xinj (grid11.coords t) y = ix2 (⟨(y 0).val, hp⟩ : Fin 4000) (⟨(y 1).val, hq⟩ : Fin 1) :=
    funext fun a => by match a with | ⟨0, _⟩ => rfl | ⟨1, _⟩ => rfl
  have hemb : ((cfg11.win 3).blk t).view.emb y = ix2 (⟨win11_3.index t (0 : Fin 2) * 4000 + (y 0).val, hr⟩ : Fin 100000) (⟨(y 1).val, hq⟩ : Fin 1) :=
    funext fun a => Fin.ext (by
      match a with
      | ⟨0, _⟩ => show win11_3.index t (0 : Fin 2) * 4000 + 1 * (y 0).val = win11_3.index t (0 : Fin 2) * 4000 + (y 0).val; omega
      | ⟨1, _⟩ => show win11_3.index t (1 : Fin 2) * 1 + 1 * (y 1).val = (y 1).val; omega)
  show k11_pay1 (F := Ideal) (iblk11 V c 0 t) (iblk11 V c 1 t) (iblk11 V c 2 t) ((cfg11.win 3).xinj (grid11.coords t) y)
    = Cert.GraphConv.scaleBiasAbs1 (V c (Pipeline.arrRef spec11 0)) (V c (Pipeline.arrRef spec11 1)) (V c (Pipeline.arrRef spec11 2)) (((cfg11.win 3).blk t).view.emb y)
  refine (congrArg _ hx).trans ?_
  refine Eq.trans ?_ (congrArg _ hemb.symm)
  refine (body11_apply (iblk11 V c 0 t) (iblk11 V c 1 t) (iblk11 V c 2 t) _ _).trans ?_
  refine Eq.trans ?_ (scaleBiasAbs1_apply11 _ _ _ _ _).symm
  refine congrArg pick11 (congrArg₂ (· + ·) (congrArg₂ (· * ·) ?_ ?_) ?_)
  · exact read11_0 V c t _ _ _ rfl
  · exact read11_1 V c t _ _ _ rfl
  · exact read11_2 V c t

/-- An index of the array is in point t's block iff each coordinate is in the block's range on its axis. -/
theorem mem_block11 (t : Fin cfg11.N) (i : S100000x1.Idx) :
    i ∈ ((cfg11.win 3).blk t).view.set ↔ ∀ a : Fin 2, win11_3.index t a * S4000x1.size a ≤ (i a).val ∧ (i a).val < win11_3.index t a * S4000x1.size a + S4000x1.size a := by
  show i ∈ ((View.whole main_v104).slice (win11_3.rect t)).set ↔ _
  rw [View.set_slice_whole, Rect.mem_set_unit]
  exact Iff.rfl

/-- The 25 blocks cover the array: row r is in block r / 4000. -/
theorem covered11 (i : S100000x1.Idx) : ∃ t : Fin cfg11.N, (cfg11.win 3).flush t = true ∧ i ∈ ((cfg11.win 3).blk t).view.set := by
  have hi0 : (i 0).val < 100000 := (i 0).isLt
  have hi1 : (i 1).val < 1 := (i 1).isLt
  obtain ⟨t, ht⟩ := index_onto11 ⟨(i 0).val / 4000, by omega⟩
  have q0 : win11_3.index t (0 : Fin 2) = (i 0).val / 4000 := congrFun ht 0
  have q1 : win11_3.index t (1 : Fin 2) = 0 := congrFun ht 1
  refine ⟨t, flush11_3 t, ?_⟩
  rw [mem_block11]
  intro a
  match a with
  | ⟨0, _⟩ => show win11_3.index t (0 : Fin 2) * 4000 ≤ (i 0).val ∧ (i 0).val < win11_3.index t (0 : Fin 2) * 4000 + 4000; omega
  | ⟨1, _⟩ => show win11_3.index t (1 : Fin 2) * 1 ≤ (i 1).val ∧ (i 1).val < win11_3.index t (1 : Fin 2) * 1 + 1; omega

/-- THE ARRAY after the region: |agg · nd + b| of the three input arrays as the region finds them. -/
theorem final11 (c : Dev nD) :
    (dat11 (F := Ideal) V c).arrAt 3 cfg11.N
      = Cert.GraphConv.scaleBiasAbs1 (V c (Pipeline.arrRef spec11 0)) (V c (Pipeline.arrRef spec11 1)) (V c (Pipeline.arrRef spec11 2)) :=
  (dat11 (F := Ideal) V c).arrAt_eq_of_cover 3 _ (fun t _ => written11 V c t) (covered11)

end

end Cert.KernelIdeal.Closed

end
-- ==== Proof.Stages.lean ====
/-
  The walk through @main.  At every boundary between a host stretch and a region the kernel program's buffers hold the
  reference program's stages of the same arguments:

    before the first region   the two norm vectors (the same operations of the same index arrays);
    after region 2i           the layer's value before the message pass (the region's output array is one whole-array
                              function of its input arrays — the first half of the layer — and those hold the
                              previous layer's result, the source norms as a column, and for a narrowing layer W);
    after the next stretch    the message pass of that value, the destination norms as a column, the bias as a row;
    after region 2i + 1       the layer's result (the second half of the layer of those three or four arrays).

  The reference's stages are the generated ones, functions of @main's arguments.  A reshape [a] → [a, 1] or [b] → [1, b]
  on the kernel's side meets the broadcast along a new axis on the reference's side; everything else is the same term.
-/
import proofs.«176802_j51384988729797_1_alg».proof.Proof.Gen.KernelIdeal.Frame
import proofs.«176802_j51384988729797_1_alg».proof.Proof.Gen.ReferenceIdeal.Read
import proofs.«176802_j51384988729797_1_alg».proof.Proof.LayerHalves
import proofs.«176802_j51384988729797_1_alg».proof.Proof.LibUnitAxis
import proofs.«176802_j51384988729797_1_alg».proof.Proof.Kept
import proofs.«176802_j51384988729797_1_alg».proof.Proof.Region0
import proofs.«176802_j51384988729797_1_alg».proof.Proof.Region1
import proofs.«176802_j51384988729797_1_alg».proof.Proof.Region2
import proofs.«176802_j51384988729797_1_alg».proof.Proof.Region3
import proofs.«176802_j51384988729797_1_alg».proof.Proof.Region4
import proofs.«176802_j51384988729797_1_alg».proof.Proof.Region5
import proofs.«176802_j51384988729797_1_alg».proof.Proof.Region6
import proofs.«176802_j51384988729797_1_alg».proof.Proof.Region7
import proofs.«176802_j51384988729797_1_alg».proof.Proof.Region8
import proofs.«176802_j51384988729797_1_alg».proof.Proof.Region9
import proofs.«176802_j51384988729797_1_alg».proof.Proof.Region10
import proofs.«176802_j51384988729797_1_alg».proof.Proof.Region11
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The message pass, as one function of the array it passes and of the two index arrays -/

/-- The message pass on 1 feature: row e of the gathered array is row src e of x (an index below zero counted from the end),
    and row n of the result is the sum of the gathered rows e with dst e = n. -/
def msgPass1 (x : (⟨S100000x1, .f32⟩ : BufTy).Contents (Elt Ideal)) (src dst : (⟨S1600000, .i32⟩ : BufTy).Contents (Elt Ideal)) : (⟨S100000x1, .f32⟩ : BufTy).Contents (Elt Ideal) :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 dst)
    (Host.gather gather_S100000x1_S1600000x1_S1600000x1_1_0_n_n_0_1_11 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The message pass on 32 features: row e of the gathered array is row src e of x (an index below zero counted from the end),
    and row n of the result is the sum of the gathered rows e with dst e = n. -/
def msgPass32 (x : (⟨S100000x32, .f32⟩ : BufTy).Contents (Elt Ideal)) (src dst : (⟨S1600000, .i32⟩ : BufTy).Contents (Elt Ideal)) : (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The message pass on 64 features: row e of the gathered array is row src e of x (an index below zero counted from the end),
    and row n of the result is the sum of the gathered rows e with dst e = n. -/
def msgPass64 (x : (⟨S100000x64, .f32⟩ : BufTy).Contents (Elt Ideal)) (src dst : (⟨S1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## Before the first region -/

theorem w1_arg0 : W1 m ρ c (Proc.devRef .tc main_arg0) = m ((c : Thread nD τ).loc main_arg0) := by
  show StableHlo.after hostOps0 (W0 m ρ c) (Proc.devRef .tc main_arg0) = _
  simp only [hostOps0]
  after_results
theorem w1_arg1 : W1 m ρ c (Proc.devRef .tc main_arg1) = m ((c : Thread nD τ).loc main_arg1) := by
  show StableHlo.after hostOps0 (W0 m ρ c) (Proc.devRef .tc main_arg1) = _
  simp only [hostOps0]
  after_results
theorem w1_arg2 : W1 m ρ c (Proc.devRef .tc main_arg2) = m ((c : Thread nD τ).loc main_arg2) := by
  show StableHlo.after hostOps0 (W0 m ρ c) (Proc.devRef .tc main_arg2) = _
  simp only [hostOps0]
  after_results
theorem w1_arg3 : W1 m ρ c (Proc.devRef .tc main_arg3) = m ((c : Thread nD τ).loc main_arg3) := by
  show StableHlo.after hostOps0 (W0 m ρ c) (Proc.devRef .tc main_arg3) = _
  simp only [hostOps0]
  after_results
theorem w1_arg4 : W1 m ρ c (Proc.devRef .tc main_arg4) = m ((c : Thread nD τ).loc main_arg4) := by
  show StableHlo.after hostOps0 (W0 m ρ c) (Proc.devRef .tc main_arg4) = _
  simp only [hostOps0]
  after_results
theorem w1_arg5 : W1 m ρ c (Proc.devRef .tc main_arg5) = m ((c : Thread nD τ).loc main_arg5) := by
  show StableHlo.after hostOps0 (W0 m ρ c) (Proc.devRef .tc main_arg5) = _
  simp only [hostOps0]
  after_results
theorem w1_arg6 : W1 m ρ c (Proc.devRef .tc main_arg6) = m ((c : Thread nD τ).loc main_arg6) := by
  show StableHlo.after hostOps0 (W0 m ρ c) (Proc.devRef .tc main_arg6) = _
  simp only [hostOps0]
  after_results
theorem w1_arg7 : W1 m ρ c (Proc.devRef .tc main_arg7) = m ((c : Thread nD τ).loc main_arg7) := by
  show StableHlo.after hostOps0 (W0 m ρ c) (Proc.devRef .tc main_arg7) = _
  simp only [hostOps0]
  after_results
theorem w1_arg8 : W1 m ρ c (Proc.devRef .tc main_arg8) = m ((c : Thread nD τ).loc main_arg8) := by
  show StableHlo.after hostOps0 (W0 m ρ c) (Proc.devRef .tc main_arg8) = _
  simp only [hostOps0]
  after_results
theorem w1_arg9 : W1 m ρ c (Proc.devRef .tc main_arg9) = m ((c : Thread nD τ).loc main_arg9) := by
  show StableHlo.after hostOps0 (W0 m ρ c) (Proc.devRef .tc main_arg9) = _
  simp only [hostOps0]
  after_results
theorem w1_arg10 : W1 m ρ c (Proc.devRef .tc main_arg10) = m ((c : Thread nD τ).loc main_arg10) := by
  show StableHlo.after hostOps0 (W0 m ρ c) (Proc.devRef .tc main_arg10) = _
  simp only [hostOps0]
  after_results
theorem w1_arg11 : W1 m ρ c (Proc.devRef .tc main_arg11) = m ((c : Thread nD τ).loc main_arg11) := by
  show StableHlo.after hostOps0 (W0 m ρ c) (Proc.devRef .tc main_arg11) = _
  simp only [hostOps0]
  after_results
theorem w1_arg12 : W1 m ρ c (Proc.devRef .tc main_arg12) = m ((c : Thread nD τ).loc main_arg12) := by
  show StableHlo.after hostOps0 (W0 m ρ c) (Proc.devRef .tc main_arg12) = _
  simp only [hostOps0]
  after_results
theorem w1_arg13 : W1 m ρ c (Proc.devRef .tc main_arg13) = m ((c : Thread nD τ).loc main_arg13) := by
  show StableHlo.after hostOps0 (W0 m ρ c) (Proc.devRef .tc main_arg13) = _
  simp only [hostOps0]
  after_results
theorem w1_arg14 : W1 m ρ c (Proc.devRef .tc main_arg14) = m ((c : Thread nD τ).loc main_arg14) := by
  show StableHlo.after hostOps0 (W0 m ρ c) (Proc.devRef .tc main_arg14) = _
  simp only [hostOps0]
  after_results

/-- The source norms: out-degree, at least one, to the power −1/2 — the same operations of the same index array. -/
theorem w1_ns : W1 m ρ c (Proc.devRef .tc main_v10) = Cert.ReferenceIdeal.Read.val_main_v10 (F := Ideal) (m ((c : Thread nD τ).loc main_arg1)) := by
  show StableHlo.after hostOps0 (W0 m ρ c) (Proc.devRef .tc main_v10) = _
  simp only [hostOps0]
  after_results
  rfl

/-- The destination norms, likewise from the in-degree. -/
theorem w1_nd : W1 m ρ c (Proc.devRef .tc main_v14) = Cert.ReferenceIdeal.Read.val_main_v14 (F := Ideal) (m ((c : Thread nD τ).loc main_arg2)) := by
  show StableHlo.after hostOps0 (W0 m ρ c) (Proc.devRef .tc main_v14) = _
  simp only [hostOps0]
  after_results
  rfl

/-- The column of source norms as region 0 finds it. -/
theorem nscol0 : W1 m ρ c (Proc.devRef .tc main_v15) = Cert.ReferenceIdeal.Read.val_main_v15 (F := Ideal) (m ((c : Thread nD τ).loc main_arg1)) := by
  show StableHlo.after hostOps0 (W0 m ρ c) (Proc.devRef .tc main_v15) = _
  simp only [hostOps0]
  after_results
  exact (Cert.Lib.UnitAxis.col_reshape_eq_broadcast _ _ Cert.ReferenceIdeal.Facts₀.bcast_S100000_S100000x1_0).trans rfl

/-! ## Layer 0: 1 → 32 features -/

/-- What region 0 leaves in its output array is the reference's value before the message pass. -/
theorem pre0 : W2 m ρ c (Proc.devRef .tc main_v16) = Cert.ReferenceIdeal.Read.val_main_v16 (F := Ideal) (m ((c : Thread nD τ).loc main_arg0)) (m ((c : Thread nD τ).loc main_arg1)) := by
  refine (W2_arr m ρ c 2).trans ((Cert.KernelIdeal.Closed.final0 (V1 m ρ) c).trans ?_)
  show Cert.GraphConv.scaleCol1 (W1 m ρ c (Proc.devRef .tc main_arg0)) (W1 m ρ c (Proc.devRef .tc main_v15)) = _
  rw [w1_arg0 m ρ c, nscol0 m ρ c]
  rfl

set_option maxHeartbeats 4000000 in
/-- The message pass: the same gather along the source index and sum into the destination index, of the same array. -/
theorem agg0 : W3 m ρ c (Proc.devRef .tc main_v26) = Cert.ReferenceIdeal.Read.val_main_v26 (F := Ideal) (m ((c : Thread nD τ).loc main_arg0)) (m ((c : Thread nD τ).loc main_arg1)) (m ((c : Thread nD τ).loc main_arg2)) := by
  have h : W3 m ρ c (Proc.devRef .tc main_v26) = msgPass1 (W2 m ρ c (Proc.devRef .tc main_v16)) (W2 m ρ c (Proc.devRef .tc main_arg1)) (W2 m ρ c (Proc.devRef .tc main_arg2)) := by
    show StableHlo.after hostOps1 (W2 m ρ c) (Proc.devRef .tc main_v26) = _
    simp only [hostOps1]
    after_results
    rfl
  exact h.trans ((congr (congr (congrArg msgPass1 (pre0 m ρ c)) ((Cert.KernelIdeal.Kept.at2 m ρ c main_arg1 (by decide)).trans (w1_arg1 m ρ c))) ((Cert.KernelIdeal.Kept.at2 m ρ c main_arg2 (by decide)).trans (w1_arg2 m ρ c))).trans rfl)

/-- The column of destination norms as region 1 finds it. -/
theorem ndcol0 : W3 m ρ c (Proc.devRef .tc main_v27) = Cert.ReferenceIdeal.Read.val_main_v27 (F := Ideal) (m ((c : Thread nD τ).loc main_arg2)) := by
  show StableHlo.after hostOps1 (W2 m ρ c) (Proc.devRef .tc main_v27) = _
  simp only [hostOps1]
  after_results
  rw [((Cert.KernelIdeal.Kept.at2 m ρ c main_v14 (by decide)).trans (w1_nd m ρ c))]
  exact (Cert.Lib.UnitAxis.col_reshape_eq_broadcast _ _ Cert.ReferenceIdeal.Facts₀.bcast_S100000_S100000x1_0).trans rfl

/-- The bias as a row. -/
theorem brow0 : W3 m ρ c (Proc.devRef .tc main_v28) = Cert.ReferenceIdeal.Read.val_main_v30 (F := Ideal) (m ((c : Thread nD τ).loc main_arg4)) := by
  show StableHlo.after hostOps1 (W2 m ρ c) (Proc.devRef .tc main_v28) = _
  simp only [hostOps1]
  after_results
  rw [((Cert.KernelIdeal.Kept.at2 m ρ c main_arg4 (by decide)).trans (w1_arg4 m ρ c))]
  exact (Cert.Lib.UnitAxis.row_reshape_eq_broadcast _ _ Cert.ReferenceIdeal.Facts₀.bcast_S32_S1x32_1).trans rfl

/-- What region 1 leaves in its output array is the reference's value at the end of the layer. -/
theorem post0 : W4 m ρ c (Proc.devRef .tc main_v29) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 4).trans ((Cert.KernelIdeal.Closed.final1 (V3 m ρ) c).trans ?_)
  show Cert.GraphConv.proj1to32 (W3 m ρ c (Proc.devRef .tc main_v26)) (W3 m ρ c (Proc.devRef .tc main_v27)) (W3 m ρ c (Proc.devRef .tc main_arg3)) (W3 m ρ c (Proc.devRef .tc main_v28)) = _
  rw [agg0 m ρ c, ndcol0 m ρ c, ((Cert.KernelIdeal.Kept.at3 m ρ c main_arg3 (by decide)).trans (w1_arg3 m ρ c)), brow0 m ρ c]
  rfl

/-! ## Layer 1: 32 → 64 features -/

/-- The column of source norms as region 2 finds it. -/
theorem nscol1 : W5 m ρ c (Proc.devRef .tc main_v30) = Cert.ReferenceIdeal.Read.val_main_v33 (F := Ideal) (m ((c : Thread nD τ).loc main_arg1)) := by
  show StableHlo.after hostOps2 (W4 m ρ c) (Proc.devRef .tc main_v30) = _
  simp only [hostOps2]
  after_results
  rw [((Cert.KernelIdeal.Kept.at4 m ρ c main_v10 (by decide)).trans (w1_ns m ρ c))]
  exact (Cert.Lib.UnitAxis.col_reshape_eq_broadcast _ _ Cert.ReferenceIdeal.Facts₀.bcast_S100000_S100000x1_0).trans rfl

/-- The previous layer's result is still in its buffer when region 2 starts. -/
theorem carried1 : W5 m ρ c (Proc.devRef .tc main_v29) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v29) = _
  simp only [hostOps2]
  after_results
  exact post0 m ρ c

/-- What region 2 leaves in its output array is the reference's value before the message pass. -/
theorem pre1 : W6 m ρ c (Proc.devRef .tc main_v31) = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Cert.KernelIdeal.Closed.final2 (V5 m ρ) c).trans ?_)
  show Cert.GraphConv.scaleCol32 (W5 m ρ c (Proc.devRef .tc main_v29)) (W5 m ρ c (Proc.devRef .tc main_v30)) = _
  rw [carried1 m ρ c, nscol1 m ρ c]
  rfl

set_option maxHeartbeats 4000000 in
/-- The message pass: the same gather along the source index and sum into the destination index, of the same array. -/
theorem agg1 : W7 m ρ c (Proc.devRef .tc main_v41) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h : W7 m ρ c (Proc.devRef .tc main_v41) = msgPass32 (W6 m ρ c (Proc.devRef .tc main_v31)) (W6 m ρ c (Proc.devRef .tc main_arg1)) (W6 m ρ c (Proc.devRef .tc main_arg2)) := by
    show StableHlo.after hostOps3 (W6 m ρ c) (Proc.devRef .tc main_v41) = _
    simp only [hostOps3]
    after_results
    rfl
  exact h.trans ((congr (congr (congrArg msgPass32 (pre1 m ρ c)) ((Cert.KernelIdeal.Kept.at6 m ρ c main_arg1 (by decide)).trans (w1_arg1 m ρ c))) ((Cert.KernelIdeal.Kept.at6 m ρ c main_arg2 (by decide)).trans (w1_arg2 m ρ c))).trans rfl)

/-- The column of destination norms as region 3 finds it. -/
theorem ndcol1 : W7 m ρ c (Proc.devRef .tc main_v42) = Cert.ReferenceIdeal.Read.val_main_v46 (F := Ideal) (m ((c : Thread nD τ).loc main_arg2)) := by
  show StableHlo.after hostOps3 (W6 m ρ c) (Proc.devRef .tc main_v42) = _
  simp only [hostOps3]
  after_results
  rw [((Cert.KernelIdeal.Kept.at6 m ρ c main_v14 (by decide)).trans (w1_nd m ρ c))]
  exact (Cert.Lib.UnitAxis.col_reshape_eq_broadcast _ _ Cert.ReferenceIdeal.Facts₀.bcast_S100000_S100000x1_0).trans rfl

/-- The bias as a row. -/
theorem brow1 : W7 m ρ c (Proc.devRef .tc main_v43) = Cert.ReferenceIdeal.Read.val_main_v50 (F := Ideal) (m ((c : Thread nD τ).loc main_arg6)) := by
  show StableHlo.after hostOps3 (W6 m ρ c) (Proc.devRef .tc main_v43) = _
  simp only [hostOps3]
  after_results
  rw [((Cert.KernelIdeal.Kept.at6 m ρ c main_arg6 (by decide)).trans (w1_arg6 m ρ c))]
  exact (Cert.Lib.UnitAxis.row_reshape_eq_broadcast _ _ Cert.ReferenceIdeal.Facts₀.bcast_S64_S1x64_1).trans rfl

/-- What region 3 leaves in its output array is the reference's value at the end of the layer. -/
theorem post1 : W8 m ρ c (Proc.devRef .tc main_v44) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ((Cert.KernelIdeal.Closed.final3 (V7 m ρ) c).trans ?_)
  show Cert.GraphConv.proj32to64 (W7 m ρ c (Proc.devRef .tc main_v41)) (W7 m ρ c (Proc.devRef .tc main_v42)) (W7 m ρ c (Proc.devRef .tc main_arg5)) (W7 m ρ c (Proc.devRef .tc main_v43)) = _
  rw [agg1 m ρ c, ndcol1 m ρ c, ((Cert.KernelIdeal.Kept.at7 m ρ c main_arg5 (by decide)).trans (w1_arg5 m ρ c)), brow1 m ρ c]
  rfl

/-! ## Layer 2: 64 → 128 features -/

/-- The column of source norms as region 4 finds it. -/
theorem nscol2 : W9 m ρ c (Proc.devRef .tc main_v45) = Cert.ReferenceIdeal.Read.val_main_v53 (F := Ideal) (m ((c : Thread nD τ).loc main_arg1)) := by
  show StableHlo.after hostOps4 (W8 m ρ c) (Proc.devRef .tc main_v45) = _
  simp only [hostOps4]
  after_results
  rw [((Cert.KernelIdeal.Kept.at8 m ρ c main_v10 (by decide)).trans (w1_ns m ρ c))]
  exact (Cert.Lib.UnitAxis.col_reshape_eq_broadcast _ _ Cert.ReferenceIdeal.Facts₀.bcast_S100000_S100000x1_0).trans rfl

/-- The previous layer's result is still in its buffer when region 4 starts. -/
theorem carried2 : W9 m ρ c (Proc.devRef .tc main_v44) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W8 m ρ c) (Proc.devRef .tc main_v44) = _
  simp only [hostOps4]
  after_results
  exact post1 m ρ c

/-- What region 4 leaves in its output array is the reference's value before the message pass. -/
theorem pre2 : W10 m ρ c (Proc.devRef .tc main_v46) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((Cert.KernelIdeal.Closed.final4 (V9 m ρ) c).trans ?_)
  show Cert.GraphConv.scaleCol64 (W9 m ρ c (Proc.devRef .tc main_v44)) (W9 m ρ c (Proc.devRef .tc main_v45)) = _
  rw [carried2 m ρ c, nscol2 m ρ c]
  rfl

set_option maxHeartbeats 4000000 in
/-- The message pass: the same gather along the source index and sum into the destination index, of the same array. -/
theorem agg2 : W11 m ρ c (Proc.devRef .tc main_v56) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : W11 m ρ c (Proc.devRef .tc main_v56) = msgPass64 (W10 m ρ c (Proc.devRef .tc main_v46)) (W10 m ρ c (Proc.devRef .tc main_arg1)) (W10 m ρ c (Proc.devRef .tc main_arg2)) := by
    show StableHlo.after hostOps5 (W10 m ρ c) (Proc.devRef .tc main_v56) = _
    simp only [hostOps5]
    after_results
    rfl
  exact h.trans ((congr (congr (congrArg msgPass64 (pre2 m ρ c)) ((Cert.KernelIdeal.Kept.at10 m ρ c main_arg1 (by decide)).trans (w1_arg1 m ρ c))) ((Cert.KernelIdeal.Kept.at10 m ρ c main_arg2 (by decide)).trans (w1_arg2 m ρ c))).trans rfl)

/-- The column of destination norms as region 5 finds it. -/
theorem ndcol2 : W11 m ρ c (Proc.devRef .tc main_v57) = Cert.ReferenceIdeal.Read.val_main_v66 (F := Ideal) (m ((c : Thread nD τ).loc main_arg2)) := by
  show StableHlo.after hostOps5 (W10 m ρ c) (Proc.devRef .tc main_v57) = _
  simp only [hostOps5]
  after_results
  rw [((Cert.KernelIdeal.Kept.at10 m ρ c main_v14 (by decide)).trans (w1_nd m ρ c))]
  exact (Cert.Lib.UnitAxis.col_reshape_eq_broadcast _ _ Cert.ReferenceIdeal.Facts₀.bcast_S100000_S100000x1_0).trans rfl

/-- The bias as a row. -/
theorem brow2 : W11 m ρ c (Proc.devRef .tc main_v58) = Cert.ReferenceIdeal.Read.val_main_v70 (F := Ideal) (m ((c : Thread nD τ).loc main_arg8)) := by
  show StableHlo.after hostOps5 (W10 m ρ c) (Proc.devRef .tc main_v58) = _
  simp only [hostOps5]
  after_results
  rw [((Cert.KernelIdeal.Kept.at10 m ρ c main_arg8 (by decide)).trans (w1_arg8 m ρ c))]
  exact (Cert.Lib.UnitAxis.row_reshape_eq_broadcast _ _ Cert.ReferenceIdeal.Facts₀.bcast_S128_S1x128_1).trans rfl

/-- What region 5 leaves in its output array is the reference's value at the end of the layer. -/
theorem post2 : W12 m ρ c (Proc.devRef .tc main_v59) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 4).trans ((Cert.KernelIdeal.Closed.final5 (V11 m ρ) c).trans ?_)
  show Cert.GraphConv.proj64to128 (W11 m ρ c (Proc.devRef .tc main_v56)) (W11 m ρ c (Proc.devRef .tc main_v57)) (W11 m ρ c (Proc.devRef .tc main_arg7)) (W11 m ρ c (Proc.devRef .tc main_v58)) = _
  rw [agg2 m ρ c, ndcol2 m ρ c, ((Cert.KernelIdeal.Kept.at11 m ρ c main_arg7 (by decide)).trans (w1_arg7 m ρ c)), brow2 m ρ c]
  rfl

/-! ## Layer 3: 128 → 64 features -/

/-- The column of source norms as region 6 finds it. -/
theorem nscol3 : W13 m ρ c (Proc.devRef .tc main_v60) = Cert.ReferenceIdeal.Read.val_main_v74 (F := Ideal) (m ((c : Thread nD τ).loc main_arg1)) := by
  show StableHlo.after hostOps6 (W12 m ρ c) (Proc.devRef .tc main_v60) = _
  simp only [hostOps6]
  after_results
  rw [((Cert.KernelIdeal.Kept.at12 m ρ c main_v10 (by decide)).trans (w1_ns m ρ c))]
  exact (Cert.Lib.UnitAxis.col_reshape_eq_broadcast _ _ Cert.ReferenceIdeal.Facts₀.bcast_S100000_S100000x1_0).trans rfl

/-- The previous layer's result is still in its buffer when region 6 starts. -/
theorem carried3 : W13 m ρ c (Proc.devRef .tc main_v59) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W12 m ρ c) (Proc.devRef .tc main_v59) = _
  simp only [hostOps6]
  after_results
  exact post2 m ρ c

/-- What region 6 leaves in its output array is the reference's value before the message pass. -/
theorem pre3 : W14 m ρ c (Proc.devRef .tc main_v61) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 3).trans ((Cert.KernelIdeal.Closed.final6 (V13 m ρ) c).trans ?_)
  show Cert.GraphConv.projScale128to64 (W13 m ρ c (Proc.devRef .tc main_v59)) (W13 m ρ c (Proc.devRef .tc main_arg9)) (W13 m ρ c (Proc.devRef .tc main_v60)) = _
  rw [carried3 m ρ c, ((Cert.KernelIdeal.Kept.at13 m ρ c main_arg9 (by decide)).trans (w1_arg9 m ρ c)), nscol3 m ρ c]
  rfl

set_option maxHeartbeats 4000000 in
/-- The message pass: the same gather along the source index and sum into the destination index, of the same array. -/
theorem agg3 : W15 m ρ c (Proc.devRef .tc main_v71) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W15 m ρ c (Proc.devRef .tc main_v71) = msgPass64 (W14 m ρ c (Proc.devRef .tc main_v61)) (W14 m ρ c (Proc.devRef .tc main_arg1)) (W14 m ρ c (Proc.devRef .tc main_arg2)) := by
    show StableHlo.after hostOps7 (W14 m ρ c) (Proc.devRef .tc main_v71) = _
    simp only [hostOps7]
    after_results
    rfl
  exact h.trans ((congr (congr (congrArg msgPass64 (pre3 m ρ c)) ((Cert.KernelIdeal.Kept.at14 m ρ c main_arg1 (by decide)).trans (w1_arg1 m ρ c))) ((Cert.KernelIdeal.Kept.at14 m ρ c main_arg2 (by decide)).trans (w1_arg2 m ρ c))).trans rfl)

/-- The column of destination norms as region 7 finds it. -/
theorem ndcol3 : W15 m ρ c (Proc.devRef .tc main_v72) = Cert.ReferenceIdeal.Read.val_main_v87 (F := Ideal) (m ((c : Thread nD τ).loc main_arg2)) := by
  show StableHlo.after hostOps7 (W14 m ρ c) (Proc.devRef .tc main_v72) = _
  simp only [hostOps7]
  after_results
  rw [((Cert.KernelIdeal.Kept.at14 m ρ c main_v14 (by decide)).trans (w1_nd m ρ c))]
  exact (Cert.Lib.UnitAxis.col_reshape_eq_broadcast _ _ Cert.ReferenceIdeal.Facts₀.bcast_S100000_S100000x1_0).trans rfl

/-- The bias as a row. -/
theorem brow3 : W15 m ρ c (Proc.devRef .tc main_v73) = Cert.ReferenceIdeal.Read.val_main_v90 (F := Ideal) (m ((c : Thread nD τ).loc main_arg10)) := by
  show StableHlo.after hostOps7 (W14 m ρ c) (Proc.devRef .tc main_v73) = _
  simp only [hostOps7]
  after_results
  rw [((Cert.KernelIdeal.Kept.at14 m ρ c main_arg10 (by decide)).trans (w1_arg10 m ρ c))]
  exact (Cert.Lib.UnitAxis.row_reshape_eq_broadcast _ _ Cert.ReferenceIdeal.Facts₀.bcast_S64_S1x64_1).trans rfl

/-- What region 7 leaves in its output array is the reference's value at the end of the layer. -/
theorem post3 : W16 m ρ c (Proc.devRef .tc main_v74) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W16_arr m ρ c 3).trans ((Cert.KernelIdeal.Closed.final7 (V15 m ρ) c).trans ?_)
  show Cert.GraphConv.scaleBias64 (W15 m ρ c (Proc.devRef .tc main_v71)) (W15 m ρ c (Proc.devRef .tc main_v72)) (W15 m ρ c (Proc.devRef .tc main_v73)) = _
  rw [agg3 m ρ c, ndcol3 m ρ c, brow3 m ρ c]
  rfl

/-! ## Layer 4: 64 → 32 features -/

/-- The column of source norms as region 8 finds it. -/
theorem nscol4 : W17 m ρ c (Proc.devRef .tc main_v75) = Cert.ReferenceIdeal.Read.val_main_v94 (F := Ideal) (m ((c : Thread nD τ).loc main_arg1)) := by
  show StableHlo.after hostOps8 (W16 m ρ c) (Proc.devRef .tc main_v75) = _
  simp only [hostOps8]
  after_results
  rw [((Cert.KernelIdeal.Kept.at16 m ρ c main_v10 (by decide)).trans (w1_ns m ρ c))]
  exact (Cert.Lib.UnitAxis.col_reshape_eq_broadcast _ _ Cert.ReferenceIdeal.Facts₀.bcast_S100000_S100000x1_0).trans rfl

/-- The previous layer's result is still in its buffer when region 8 starts. -/
theorem carried4 : W17 m ρ c (Proc.devRef .tc main_v74) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps8 (W16 m ρ c) (Proc.devRef .tc main_v74) = _
  simp only [hostOps8]
  after_results
  exact post3 m ρ c

/-- What region 8 leaves in its output array is the reference's value before the message pass. -/
theorem pre4 : W18 m ρ c (Proc.devRef .tc main_v76) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W18_arr m ρ c 3).trans ((Cert.KernelIdeal.Closed.final8 (V17 m ρ) c).trans ?_)
  show Cert.GraphConv.projScale64to32 (W17 m ρ c (Proc.devRef .tc main_v74)) (W17 m ρ c (Proc.devRef .tc main_arg11)) (W17 m ρ c (Proc.devRef .tc main_v75)) = _
  rw [carried4 m ρ c, ((Cert.KernelIdeal.Kept.at17 m ρ c main_arg11 (by decide)).trans (w1_arg11 m ρ c)), nscol4 m ρ c]
  rfl

set_option maxHeartbeats 4000000 in
/-- The message pass: the same gather along the source index and sum into the destination index, of the same array. -/
theorem agg4 : W19 m ρ c (Proc.devRef .tc main_v86) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h : W19 m ρ c (Proc.devRef .tc main_v86) = msgPass32 (W18 m ρ c (Proc.devRef .tc main_v76)) (W18 m ρ c (Proc.devRef .tc main_arg1)) (W18 m ρ c (Proc.devRef .tc main_arg2)) := by
    show StableHlo.after hostOps9 (W18 m ρ c) (Proc.devRef .tc main_v86) = _
    simp only [hostOps9]
    after_results
    rfl
  exact h.trans ((congr (congr (congrArg msgPass32 (pre4 m ρ c)) ((Cert.KernelIdeal.Kept.at18 m ρ c main_arg1 (by decide)).trans (w1_arg1 m ρ c))) ((Cert.KernelIdeal.Kept.at18 m ρ c main_arg2 (by decide)).trans (w1_arg2 m ρ c))).trans rfl)

/-- The column of destination norms as region 9 finds it. -/
theorem ndcol4 : W19 m ρ c (Proc.devRef .tc main_v87) = Cert.ReferenceIdeal.Read.val_main_v107 (F := Ideal) (m ((c : Thread nD τ).loc main_arg2)) := by
  show StableHlo.after hostOps9 (W18 m ρ c) (Proc.devRef .tc main_v87) = _
  simp only [hostOps9]
  after_results
  rw [((Cert.KernelIdeal.Kept.at18 m ρ c main_v14 (by decide)).trans (w1_nd m ρ c))]
  exact (Cert.Lib.UnitAxis.col_reshape_eq_broadcast _ _ Cert.ReferenceIdeal.Facts₀.bcast_S100000_S100000x1_0).trans rfl

/-- The bias as a row. -/
theorem brow4 : W19 m ρ c (Proc.devRef .tc main_v88) = Cert.ReferenceIdeal.Read.val_main_v110 (F := Ideal) (m ((c : Thread nD τ).loc main_arg12)) := by
  show StableHlo.after hostOps9 (W18 m ρ c) (Proc.devRef .tc main_v88) = _
  simp only [hostOps9]
  after_results
  rw [((Cert.KernelIdeal.Kept.at18 m ρ c main_arg12 (by decide)).trans (w1_arg12 m ρ c))]
  exact (Cert.Lib.UnitAxis.row_reshape_eq_broadcast _ _ Cert.ReferenceIdeal.Facts₀.bcast_S32_S1x32_1).trans rfl

/-- What region 9 leaves in its output array is the reference's value at the end of the layer. -/
theorem post4 : W20 m ρ c (Proc.devRef .tc main_v89) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W20_arr m ρ c 3).trans ((Cert.KernelIdeal.Closed.final9 (V19 m ρ) c).trans ?_)
  show Cert.GraphConv.scaleBias32 (W19 m ρ c (Proc.devRef .tc main_v86)) (W19 m ρ c (Proc.devRef .tc main_v87)) (W19 m ρ c (Proc.devRef .tc main_v88)) = _
  rw [agg4 m ρ c, ndcol4 m ρ c, brow4 m ρ c]
  rfl

/-! ## Layer 5: 32 → 1 features -/

/-- The column of source norms as region 10 finds it. -/
theorem nscol5 : W21 m ρ c (Proc.devRef .tc main_v90) = Cert.ReferenceIdeal.Read.val_main_v114 (F := Ideal) (m ((c : Thread nD τ).loc main_arg1)) := by
  show StableHlo.after hostOps10 (W20 m ρ c) (Proc.devRef .tc main_v90) = _
  simp only [hostOps10]
  after_results
  rw [((Cert.KernelIdeal.Kept.at20 m ρ c main_v10 (by decide)).trans (w1_ns m ρ c))]
  exact (Cert.Lib.UnitAxis.col_reshape_eq_broadcast _ _ Cert.ReferenceIdeal.Facts₀.bcast_S100000_S100000x1_0).trans rfl

/-- The previous layer's result is still in its buffer when region 10 starts. -/
theorem carried5 : W21 m ρ c (Proc.devRef .tc main_v89) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps10 (W20 m ρ c) (Proc.devRef .tc main_v89) = _
  simp only [hostOps10]
  after_results
  exact post4 m ρ c

/-- What region 10 leaves in its output array is the reference's value before the message pass. -/
theorem pre5 : W22 m ρ c (Proc.devRef .tc main_v91) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W22_arr m ρ c 3).trans ((Cert.KernelIdeal.Closed.final10 (V21 m ρ) c).trans ?_)
  show Cert.GraphConv.projScale32to1 (W21 m ρ c (Proc.devRef .tc main_v89)) (W21 m ρ c (Proc.devRef .tc main_arg13)) (W21 m ρ c (Proc.devRef .tc main_v90)) = _
  rw [carried5 m ρ c, ((Cert.KernelIdeal.Kept.at21 m ρ c main_arg13 (by decide)).trans (w1_arg13 m ρ c)), nscol5 m ρ c]
  rfl

set_option maxHeartbeats 4000000 in
/-- The message pass: the same gather along the source index and sum into the destination index, of the same array. -/
theorem agg5 : W23 m ρ c (Proc.devRef .tc main_v101) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h : W23 m ρ c (Proc.devRef .tc main_v101) = msgPass1 (W22 m ρ c (Proc.devRef .tc main_v91)) (W22 m ρ c (Proc.devRef .tc main_arg1)) (W22 m ρ c (Proc.devRef .tc main_arg2)) := by
    show StableHlo.after hostOps11 (W22 m ρ c) (Proc.devRef .tc main_v101) = _
    simp only [hostOps11]
    after_results
    rfl
  exact h.trans ((congr (congr (congrArg msgPass1 (pre5 m ρ c)) ((Cert.KernelIdeal.Kept.at22 m ρ c main_arg1 (by decide)).trans (w1_arg1 m ρ c))) ((Cert.KernelIdeal.Kept.at22 m ρ c main_arg2 (by decide)).trans (w1_arg2 m ρ c))).trans rfl)

/-- The column of destination norms as region 11 finds it. -/
theorem ndcol5 : W23 m ρ c (Proc.devRef .tc main_v102) = Cert.ReferenceIdeal.Read.val_main_v126 (F := Ideal) (m ((c : Thread nD τ).loc main_arg2)) := by
  show StableHlo.after hostOps11 (W22 m ρ c) (Proc.devRef .tc main_v102) = _
  simp only [hostOps11]
  after_results
  rw [((Cert.KernelIdeal.Kept.at22 m ρ c main_v14 (by decide)).trans (w1_nd m ρ c))]
  exact (Cert.Lib.UnitAxis.col_reshape_eq_broadcast _ _ Cert.ReferenceIdeal.Facts₀.bcast_S100000_S100000x1_0).trans rfl

/-- The bias as a row. -/
theorem brow5 : W23 m ρ c (Proc.devRef .tc main_v103) = Cert.ReferenceIdeal.Read.val_main_v128 (F := Ideal) (m ((c : Thread nD τ).loc main_arg14)) := by
  show StableHlo.after hostOps11 (W22 m ρ c) (Proc.devRef .tc main_v103) = _
  simp only [hostOps11]
  after_results
  rw [((Cert.KernelIdeal.Kept.at22 m ρ c main_arg14 (by decide)).trans (w1_arg14 m ρ c))]
  exact (Cert.Lib.UnitAxis.row_reshape_eq_broadcast _ _ Cert.ReferenceIdeal.Facts₀.bcast_S1_S1x1_1).trans rfl

/-- What region 11 leaves in its output array is the reference's value at the end of the layer. -/
theorem post5 : W24 m ρ c (Proc.devRef .tc main_v104) = Cert.ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W24_arr m ρ c 3).trans ((Cert.KernelIdeal.Closed.final11 (V23 m ρ) c).trans ?_)
  show Cert.GraphConv.scaleBiasAbs1 (W23 m ρ c (Proc.devRef .tc main_v101)) (W23 m ρ c (Proc.devRef .tc main_v102)) (W23 m ρ c (Proc.devRef .tc main_v103)) = _
  rw [agg5 m ρ c, ndcol5 m ρ c, brow5 m ρ c]
  rfl

end Cert.KernelIdeal.Stages

end
-- ==== Proof.lean ====
/-
  The certificate of a six-layer graph network on 100000 nodes and 1600000 edges.

  Every layer is  h ↦ ((gather-and-sum of (h' · ns)) · nd) ⊕ W ⊕ b, with the projection by W applied before the message
  pass when it narrows the features and after it when it widens them; ns and nd are the out- and in-degree, at least
  one, to the power −1/2; the last layer ends in an absolute value.  The kernel computes the two halves of every layer
  — the part before the message pass and the part after it — in twelve row-blocked regions of 25 blocks of 4000 rows
  each and leaves the degree counts and the message pass to the host; the reference computes everything on the host.

  On the extended reals the two programs apply the same operations to the same values in the same order:
  rounding the factors of a product to a narrower format is the identity there, a matrix product accumulated from
  zero is the plain finite sum that the host's contraction is, and a row block of a whole-array function is that
  function of the row blocks.  So no algebraic law is needed, and nothing is asked of the inputs.

  The frames are the generated ones.  The reference's run and its stages are the generated ones.  Written by hand:
  each region's output array as one whole-array function of its input arrays (Region0 … Region11, over LayerHalves),
  the buffers no later step writes (Kept), the kernel's run with its result named (KernelRun), the walk through
  @main that identifies every region's output with the reference's stage (Stages), and this assembly.
-/
import proofs.«176802_j51384988729797_1_alg».proof.Defs
import proofs.«176802_j51384988729797_1_alg».proof.Proof.Gen.Kernel
import proofs.«176802_j51384988729797_1_alg».proof.Proof.Gen.Kernel.Skeleton
import proofs.«176802_j51384988729797_1_alg».proof.Proof.Gen.Kernel.Launch
import proofs.«176802_j51384988729797_1_alg».proof.Proof.Gen.Kernel.Points
import proofs.«176802_j51384988729797_1_alg».proof.Proof.Gen.Kernel.Frame
import proofs.«176802_j51384988729797_1_alg».proof.Proof.Gen.KernelIdeal
import proofs.«176802_j51384988729797_1_alg».proof.Proof.Gen.KernelIdeal.Skeleton
import proofs.«176802_j51384988729797_1_alg».proof.Proof.Gen.KernelIdeal.Launch
import proofs.«176802_j51384988729797_1_alg».proof.Proof.Gen.KernelIdeal.Points
import proofs.«176802_j51384988729797_1_alg».proof.Proof.Gen.KernelIdeal.Frame
import proofs.«176802_j51384988729797_1_alg».proof.Proof.Gen.ReferenceIdeal
import proofs.«176802_j51384988729797_1_alg».proof.Proof.Gen.ReferenceIdeal.Run
import proofs.«176802_j51384988729797_1_alg».proof.Proof.Gen.ReferenceIdeal.Read
import proofs.«176802_j51384988729797_1_alg».proof.Proof.Gen.Pre_finite_inputs
import proofs.«176802_j51384988729797_1_alg».proof.Proof.KernelRun
import proofs.«176802_j51384988729797_1_alg».proof.Proof.Stages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the kernel's text is read as it stands on the extended reals. -/
theorem preserves : Cert.preserves_Kernel_KernelIdeal := trivial

/-- Both programs end with the reference's last stage of the shared arguments in their result buffers: the kernel by
    the walk through its regions, the reference by its generated run. -/
theorem algebraic : Cert.algebraic_KernelIdeal_ReferenceIdeal := by
  intro m ρ m' ρ' _ hagree
  refine ⟨fun c => Cert.KernelIdeal.Gen.W24 m ρ c (Proc.devRef .tc Cert.KernelIdeal.main_v104),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v134_eq]
  obtain ⟨e0, e1, e2, e3, e4, e5, e6, e7, e8, e9, e10, e11, e12, e13, e14⟩ := hagree c
  rw [e0, e1, e2, e3, e4, e5, e6, e7, e8, e9, e10, e11, e12, e13, e14]
  exact (Cert.KernelIdeal.Stages.post5 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
